-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x64 : Shape := ⟨3, ![8, 512, 64]⟩
abbrev S_ : Shape := ⟨0, ![]⟩

class Facts : Prop where
  bcast_S_S8x512x64 : S_.BroadcastsInDim S8x512x64 (![] : Fin 0 → Fin S8x512x64.rank)
  reducesTo_S8x512x64_S_d0_1_2 : S8x512x64.ReducesTo [0, 1, 2] S_
  h_S_ : 0 < S_.numel

variable [Facts]

def fn {F : FTy → Type} [FloatOps F] (main_arg0 : FVec F S8x512x64 .f32) (main_arg1 : FVec F S8x512x64 .f32) (main_arg2 : FVec F S8x512x64 .f32) : IVec S_ 1 :=
  let main_v0 : FVec F S8x512x64 .f32 := Host.absf main_arg0
  let main_cst : FVec F S_ .f32 := constant S_ .f32 0x7F800000#32
  let main_v1 : FVec F S8x512x64 .f32 := broadcastInDim S8x512x64 ![] bcast_S_S8x512x64 main_cst
  let main_v2 : IVec S8x512x64 1 := cmpf .olt main_v0 main_v1
  let main_c : IVec S_ 1 := constantI S_ 1 1#1
  let main_v3 : IVec S_ 1 := (fun x v => Host.reduce IntOp.andi x v reducesTo_S8x512x64_S_d0_1_2 h_S_) main_v2 main_c
  let main_v4 : FVec F S8x512x64 .f32 := Host.absf main_arg1
  let main_cst_0 : FVec F S_ .f32 := constant S_ .f32 0x7F800000#32
  let main_v5 : FVec F S8x512x64 .f32 := broadcastInDim S8x512x64 ![] bcast_S_S8x512x64 main_cst_0
  let main_v6 : IVec S8x512x64 1 := cmpf .olt main_v4 main_v5
  let main_c_1 : IVec S_ 1 := constantI S_ 1 1#1
  let main_v7 : IVec S_ 1 := (fun x v => Host.reduce IntOp.andi x v reducesTo_S8x512x64_S_d0_1_2 h_S_) main_v6 main_c_1
  let main_v8 : IVec S_ 1 := andi main_v3 main_v7
  let main_v9 : FVec F S8x512x64 .f32 := Host.absf main_arg2
  let main_cst_2 : FVec F S_ .f32 := constant S_ .f32 0x7F800000#32
  let main_v10 : FVec F S8x512x64 .f32 := broadcastInDim S8x512x64 ![] bcast_S_S8x512x64 main_cst_2
  let main_v11 : IVec S8x512x64 1 := cmpf .olt main_v9 main_v10
  let main_c_3 : IVec S_ 1 := constantI S_ 1 1#1
  let main_v12 : IVec S_ 1 := (fun x v => Host.reduce IntOp.andi x v reducesTo_S8x512x64_S_d0_1_2 h_S_) main_v11 main_c_3
  let main_v13 : IVec S_ 1 := andi main_v8 main_v12
  main_v13
-- ==== Kernel.lean ====
abbrev S8x512x64 : Shape := ⟨3, ![8, 512, 64]⟩
abbrev S8x64x512 : Shape := ⟨3, ![8, 64, 512]⟩
abbrev S1x128x64 : Shape := ⟨3, ![1, 128, 64]⟩
abbrev S1x64x128 : Shape := ⟨3, ![1, 64, 128]⟩
abbrev S1x128x1 : Shape := ⟨3, ![1, 128, 1]⟩
abbrev S128x64 : Shape := ⟨2, ![128, 64]⟩
abbrev S64x128 : Shape := ⟨2, ![64, 128]⟩
abbrev S128x128 : Shape := ⟨2, ![128, 128]⟩
abbrev S128x1 : Shape := ⟨2, ![128, 1]⟩
abbrev S1x128 : Shape := ⟨2, ![1, 128]⟩
abbrev S128 : Shape := ⟨1, ![128]⟩

abbrev nBuf : Space → Nat
  | .hbm => 5
  | .vmem => 11
  | .smem => 0
  | _ => 0

abbrev bufTy : (tb : Table) → Fin (tcTables nBuf tb) → BufTy
  | .hbm, ⟨0, _⟩ => ⟨S8x512x64, .f32⟩
  | .hbm, ⟨1, _⟩ => ⟨S8x512x64, .f32⟩
  | .hbm, ⟨2, _⟩ => ⟨S8x512x64, .f32⟩
  | .hbm, ⟨3, _⟩ => ⟨S8x64x512, .f32⟩
  | .hbm, ⟨4, _⟩ => ⟨S8x512x64, .f32⟩
  | .local _ .vmem, ⟨0, _⟩ => ⟨S1x128x64, .f32⟩
  | .local _ .vmem, ⟨1, _⟩ => ⟨S1x128x64, .f32⟩
  | .local _ .vmem, ⟨2, _⟩ => ⟨S1x64x128, .f32⟩
  | .local _ .vmem, ⟨3, _⟩ => ⟨S1x64x128, .f32⟩
  | .local _ .vmem, ⟨4, _⟩ => ⟨S1x128x64, .f32⟩
  | .local _ .vmem, ⟨5, _⟩ => ⟨S1x128x64, .f32⟩
  | .local _ .vmem, ⟨6, _⟩ => ⟨S1x128x64, .f32⟩
  | .local _ .vmem, ⟨7, _⟩ => ⟨S1x128x64, .f32⟩
  | .local _ .vmem, ⟨8, _⟩ => ⟨S1x128x1, .f32⟩
  | .local _ .vmem, ⟨9, _⟩ => ⟨S1x128x1, .f32⟩
  | .local _ .vmem, ⟨10, _⟩ => ⟨S1x128x64, .f32⟩
  | _, _ => ⟨S8x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v491 : BitVec 1 := Scalar.cmpi .eq arg2 c3_i32
  let v492 : BitVec 32 := Scalar.extui v491
  let c0_i32_30 : BitVec 32 := 0#32
  let v493 : BitVec 1 := Scalar.cmpi .ne v492 c0_i32_30
  v493

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S8x512x64_S8x64x512_0_2_1 : S8x512x64.Transposes [0, 2, 1] S8x64x512
  inb_S1x128x1_S1x128x1_0_0_0 : ∀ a, (![0, 0, 0] : Fin 3 → Nat) a + S1x128x1.size a ≤ S1x128x1.size a
  h_S1x128x1 : 0 < S1x128x1.numel
  shapeCasts_S1x128x1_S1x128x1 : S1x128x1.ShapeCasts S1x128x1
  inb_S1x128x64_S1x128x64_0_0_0 : ∀ a, (![0, 0, 0] : Fin 3 → Nat) a + S1x128x64.size a ≤ S1x128x64.size a
  h_S1x128x64 : 0 < S1x128x64.numel
  shapeCasts_S1x128x64_S1x128x64 : S1x128x64.ShapeCasts S1x128x64
  shapeCasts_S1x128x64_S128x64 : S1x128x64.ShapeCasts S128x64
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  slices_S128x64_o0_0_S128x1 : S128x64.Slices ![0, 0] S128x1
  slices_S64x128_o0_0_S1x128 : S64x128.Slices ![0, 0] S1x128
  broadcasts_S128x1_S128x128 : S128x1.Broadcasts S128x128
  broadcasts_S1x128_S128x128 : S1x128.Broadcasts S128x128
  slices_S128x64_o0_1_S128x1 : S128x64.Slices ![0, 1] S128x1
  slices_S64x128_o1_0_S1x128 : S64x128.Slices ![1, 0] S1x128
  slices_S128x64_o0_2_S128x1 : S128x64.Slices ![0, 2] S128x1
  slices_S64x128_o2_0_S1x128 : S64x128.Slices ![2, 0] S1x128
  slices_S128x64_o0_3_S128x1 : S128x64.Slices ![0, 3] S128x1
  slices_S64x128_o3_0_S1x128 : S64x128.Slices ![3, 0] S1x128
  slices_S128x64_o0_4_S128x1 : S128x64.Slices ![0, 4] S128x1
  slices_S64x128_o4_0_S1x128 : S64x128.Slices ![4, 0] S1x128
  slices_S128x64_o0_5_S128x1 : S128x64.Slices ![0, 5] S128x1
  slices_S64x128_o5_0_S1x128 : S64x128.Slices ![5, 0] S1x128
  slices_S128x64_o0_6_S128x1 : S128x64.Slices ![0, 6] S128x1
  slices_S64x128_o6_0_S1x128 : S64x128.Slices ![6, 0] S1x128
  slices_S128x64_o0_7_S128x1 : S128x64.Slices ![0, 7] S128x1
  slices_S64x128_o7_0_S1x128 : S64x128.Slices ![7, 0] S1x128
  slices_S128x64_o0_8_S128x1 : S128x64.Slices ![0, 8] S128x1
  slices_S64x128_o8_0_S1x128 : S64x128.Slices ![8, 0] S1x128
  slices_S128x64_o0_9_S128x1 : S128x64.Slices ![0, 9] S128x1
  slices_S64x128_o9_0_S1x128 : S64x128.Slices ![9, 0] S1x128
  slices_S128x64_o0_10_S128x1 : S128x64.Slices ![0, 10] S128x1
  slices_S64x128_o10_0_S1x128 : S64x128.Slices ![10, 0] S1x128
  slices_S128x64_o0_11_S128x1 : S128x64.Slices ![0, 11] S128x1
  slices_S64x128_o11_0_S1x128 : S64x128.Slices ![11, 0] S1x128
  slices_S128x64_o0_12_S128x1 : S128x64.Slices ![0, 12] S128x1
  slices_S64x128_o12_0_S1x128 : S64x128.Slices ![12, 0] S1x128
  slices_S128x64_o0_13_S128x1 : S128x64.Slices ![0, 13] S128x1
  slices_S64x128_o13_0_S1x128 : S64x128.Slices ![13, 0] S1x128
  slices_S128x64_o0_14_S128x1 : S128x64.Slices ![0, 14] S128x1
  slices_S64x128_o14_0_S1x128 : S64x128.Slices ![14, 0] S1x128
  slices_S128x64_o0_15_S128x1 : S128x64.Slices ![0, 15] S128x1
  slices_S64x128_o15_0_S1x128 : S64x128.Slices ![15, 0] S1x128
  slices_S128x64_o0_16_S128x1 : S128x64.Slices ![0, 16] S128x1
  slices_S64x128_o16_0_S1x128 : S64x128.Slices ![16, 0] S1x128
  slices_S128x64_o0_17_S128x1 : S128x64.Slices ![0, 17] S128x1
  slices_S64x128_o17_0_S1x128 : S64x128.Slices ![17, 0] S1x128
  slices_S128x64_o0_18_S128x1 : S128x64.Slices ![0, 18] S128x1
  slices_S64x128_o18_0_S1x128 : S64x128.Slices ![18, 0] S1x128
  slices_S128x64_o0_19_S128x1 : S128x64.Slices ![0, 19] S128x1
  slices_S64x128_o19_0_S1x128 : S64x128.Slices ![19, 0] S1x128
  slices_S128x64_o0_20_S128x1 : S128x64.Slices ![0, 20] S128x1
  slices_S64x128_o20_0_S1x128 : S64x128.Slices ![20, 0] S1x128
  slices_S128x64_o0_21_S128x1 : S128x64.Slices ![0, 21] S128x1
  slices_S64x128_o21_0_S1x128 : S64x128.Slices ![21, 0] S1x128
  slices_S128x64_o0_22_S128x1 : S128x64.Slices ![0, 22] S128x1
  slices_S64x128_o22_0_S1x128 : S64x128.Slices ![22, 0] S1x128
  slices_S128x64_o0_23_S128x1 : S128x64.Slices ![0, 23] S128x1
  slices_S64x128_o23_0_S1x128 : S64x128.Slices ![23, 0] S1x128
  slices_S128x64_o0_24_S128x1 : S128x64.Slices ![0, 24] S128x1
  slices_S64x128_o24_0_S1x128 : S64x128.Slices ![24, 0] S1x128
  slices_S128x64_o0_25_S128x1 : S128x64.Slices ![0, 25] S128x1
  slices_S64x128_o25_0_S1x128 : S64x128.Slices ![25, 0] S1x128
  slices_S128x64_o0_26_S128x1 : S128x64.Slices ![0, 26] S128x1
  slices_S64x128_o26_0_S1x128 : S64x128.Slices ![26, 0] S1x128
  slices_S128x64_o0_27_S128x1 : S128x64.Slices ![0, 27] S128x1
  slices_S64x128_o27_0_S1x128 : S64x128.Slices ![27, 0] S1x128
  slices_S128x64_o0_28_S128x1 : S128x64.Slices ![0, 28] S128x1
  slices_S64x128_o28_0_S1x128 : S64x128.Slices ![28, 0] S1x128
  slices_S128x64_o0_29_S128x1 : S128x64.Slices ![0, 29] S128x1
  slices_S64x128_o29_0_S1x128 : S64x128.Slices ![29, 0] S1x128
  slices_S128x64_o0_30_S128x1 : S128x64.Slices ![0, 30] S128x1
  slices_S64x128_o30_0_S1x128 : S64x128.Slices ![30, 0] S1x128
  slices_S128x64_o0_31_S128x1 : S128x64.Slices ![0, 31] S128x1
  slices_S64x128_o31_0_S1x128 : S64x128.Slices ![31, 0] S1x128
  slices_S128x64_o0_32_S128x1 : S128x64.Slices ![0, 32] S128x1
  slices_S64x128_o32_0_S1x128 : S64x128.Slices ![32, 0] S1x128
  slices_S128x64_o0_33_S128x1 : S128x64.Slices ![0, 33] S128x1
  slices_S64x128_o33_0_S1x128 : S64x128.Slices ![33, 0] S1x128
  slices_S128x64_o0_34_S128x1 : S128x64.Slices ![0, 34] S128x1
  slices_S64x128_o34_0_S1x128 : S64x128.Slices ![34, 0] S1x128
  slices_S128x64_o0_35_S128x1 : S128x64.Slices ![0, 35] S128x1
  slices_S64x128_o35_0_S1x128 : S64x128.Slices ![35, 0] S1x128
  slices_S128x64_o0_36_S128x1 : S128x64.Slices ![0, 36] S128x1
  slices_S64x128_o36_0_S1x128 : S64x128.Slices ![36, 0] S1x128
  slices_S128x64_o0_37_S128x1 : S128x64.Slices ![0, 37] S128x1
  slices_S64x128_o37_0_S1x128 : S64x128.Slices ![37, 0] S1x128
  slices_S128x64_o0_38_S128x1 : S128x64.Slices ![0, 38] S128x1
  slices_S64x128_o38_0_S1x128 : S64x128.Slices ![38, 0] S1x128
  slices_S128x64_o0_39_S128x1 : S128x64.Slices ![0, 39] S128x1
  slices_S64x128_o39_0_S1x128 : S64x128.Slices ![39, 0] S1x128
  slices_S128x64_o0_40_S128x1 : S128x64.Slices ![0, 40] S128x1
  slices_S64x128_o40_0_S1x128 : S64x128.Slices ![40, 0] S1x128
  slices_S128x64_o0_41_S128x1 : S128x64.Slices ![0, 41] S128x1
  slices_S64x128_o41_0_S1x128 : S64x128.Slices ![41, 0] S1x128
  slices_S128x64_o0_42_S128x1 : S128x64.Slices ![0, 42] S128x1
  slices_S64x128_o42_0_S1x128 : S64x128.Slices ![42, 0] S1x128
  slices_S128x64_o0_43_S128x1 : S128x64.Slices ![0, 43] S128x1
  slices_S64x128_o43_0_S1x128 : S64x128.Slices ![43, 0] S1x128
  slices_S128x64_o0_44_S128x1 : S128x64.Slices ![0, 44] S128x1
  slices_S64x128_o44_0_S1x128 : S64x128.Slices ![44, 0] S1x128
  slices_S128x64_o0_45_S128x1 : S128x64.Slices ![0, 45] S128x1
  slices_S64x128_o45_0_S1x128 : S64x128.Slices ![45, 0] S1x128
  slices_S128x64_o0_46_S128x1 : S128x64.Slices ![0, 46] S128x1
  slices_S64x128_o46_0_S1x128 : S64x128.Slices ![46, 0] S1x128
  slices_S128x64_o0_47_S128x1 : S128x64.Slices ![0, 47] S128x1
  slices_S64x128_o47_0_S1x128 : S64x128.Slices ![47, 0] S1x128
  slices_S128x64_o0_48_S128x1 : S128x64.Slices ![0, 48] S128x1
  slices_S64x128_o48_0_S1x128 : S64x128.Slices ![48, 0] S1x128
  slices_S128x64_o0_49_S128x1 : S128x64.Slices ![0, 49] S128x1
  slices_S64x128_o49_0_S1x128 : S64x128.Slices ![49, 0] S1x128
  slices_S128x64_o0_50_S128x1 : S128x64.Slices ![0, 50] S128x1
  slices_S64x128_o50_0_S1x128 : S64x128.Slices ![50, 0] S1x128
  slices_S128x64_o0_51_S128x1 : S128x64.Slices ![0, 51] S128x1
  slices_S64x128_o51_0_S1x128 : S64x128.Slices ![51, 0] S1x128
  slices_S128x64_o0_52_S128x1 : S128x64.Slices ![0, 52] S128x1
  slices_S64x128_o52_0_S1x128 : S64x128.Slices ![52, 0] S1x128
  slices_S128x64_o0_53_S128x1 : S128x64.Slices ![0, 53] S128x1
  slices_S64x128_o53_0_S1x128 : S64x128.Slices ![53, 0] S1x128
  slices_S128x64_o0_54_S128x1 : S128x64.Slices ![0, 54] S128x1
  slices_S64x128_o54_0_S1x128 : S64x128.Slices ![54, 0] S1x128
  slices_S128x64_o0_55_S128x1 : S128x64.Slices ![0, 55] S128x1
  slices_S64x128_o55_0_S1x128 : S64x128.Slices ![55, 0] S1x128
  slices_S128x64_o0_56_S128x1 : S128x64.Slices ![0, 56] S128x1
  slices_S64x128_o56_0_S1x128 : S64x128.Slices ![56, 0] S1x128
  slices_S128x64_o0_57_S128x1 : S128x64.Slices ![0, 57] S128x1
  slices_S64x128_o57_0_S1x128 : S64x128.Slices ![57, 0] S1x128
  slices_S128x64_o0_58_S128x1 : S128x64.Slices ![0, 58] S128x1
  slices_S64x128_o58_0_S1x128 : S64x128.Slices ![58, 0] S1x128
  slices_S128x64_o0_59_S128x1 : S128x64.Slices ![0, 59] S128x1
  slices_S64x128_o59_0_S1x128 : S64x128.Slices ![59, 0] S1x128
  slices_S128x64_o0_60_S128x1 : S128x64.Slices ![0, 60] S128x1
  slices_S64x128_o60_0_S1x128 : S64x128.Slices ![60, 0] S1x128
  slices_S128x64_o0_61_S128x1 : S128x64.Slices ![0, 61] S128x1
  slices_S64x128_o61_0_S1x128 : S64x128.Slices ![61, 0] S1x128
  slices_S128x64_o0_62_S128x1 : S128x64.Slices ![0, 62] S128x1
  slices_S64x128_o62_0_S1x128 : S64x128.Slices ![62, 0] S1x128
  slices_S128x64_o0_63_S128x1 : S128x64.Slices ![0, 63] S128x1
  slices_S64x128_o63_0_S1x128 : S64x128.Slices ![63, 0] S1x128
  shapeCasts_S1x128x1_S128x1 : S1x128x1.ShapeCasts S128x1
  reduces_S128x128_S128 : S128x128.Reduces [1] S128
  shapeCasts_S128_S128x1 : S128.ShapeCasts S128x1
  shapeCasts_S128x1_S1x128x1 : S128x1.ShapeCasts S1x128x1
  bitsLt_bf16_f32 : FTy.bits .bf16 < FTy.bits .f32
  broadcasts_S128x1_S128x64 : S128x1.Broadcasts S128x64
  shapeCasts_S128x64_S1x128x64 : S128x64.ShapeCasts S1x128x64
  dot_S128x128_S128x64_S128x64_1_0_0_1_n_n_wf : DotDims.WF S128x128 S128x64 S128x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S8x512x64.size a
  hwx0_0 : ∀ i : grid0.Coords, EltTy.bits .f32 = 32 ∨ (Rect.block (s := S8x512x64) S1x128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S8x64x512.size a
  hwx0_1 : ∀ i : grid0.Coords, EltTy.bits .f32 = 32 ∨ (Rect.block (s := S8x64x512) S1x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x64.size a ≤ S8x512x64.size a
  hwx0_2 : ∀ i : grid0.Coords, EltTy.bits .f32 = 32 ∨ (Rect.block (s := S8x512x64) S1x128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x64.size a ≤ S8x512x64.size a
  hwx0_3 : ∀ i : grid0.Coords, EltTy.bits .f32 = 32 ∨ (Rect.block (s := S8x512x64) S1x128x64.size (cc0_transform_3 i) (hinb0_3 i)).WholeWords (EltTy.packing .f32)

variable [Facts₀]

def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

abbrev win0_0 : Pipeline.Window sig grid0 :=
  Pipeline.Window.ofSpec (Memref.whole main_arg0) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x512x64 : Shape := ⟨3, ![8, 512, 64]⟩
abbrev S8x512x1x64 : Shape := ⟨4, ![8, 512, 1, 64]⟩
abbrev S8x1x512x64 : Shape := ⟨4, ![8, 1, 512, 64]⟩
abbrev S8x512x512x64 : Shape := ⟨4, ![8, 512, 512, 64]⟩
abbrev S_ : Shape := ⟨0, ![]⟩
abbrev S8x512x512 : Shape := ⟨3, ![8, 512, 512]⟩
abbrev S8x512 : Shape := ⟨2, ![8, 512]⟩
abbrev S8x512x1 : Shape := ⟨3, ![8, 512, 1]⟩

abbrev nBuf : Space → Nat
  | .hbm => 29
  | .vmem => 0
  | .smem => 0
  | _ => 0

abbrev bufTy : (tb : Table) → Fin (tcTables nBuf tb) → BufTy
  | .hbm, ⟨0, _⟩ => ⟨S8x512x64, .f32⟩
  | .hbm, ⟨1, _⟩ => ⟨S8x512x64, .f32⟩
  | .hbm, ⟨2, _⟩ => ⟨S8x512x64, .f32⟩
  | .hbm, ⟨3, _⟩ => ⟨S8x512x1x64, .f32⟩
  | .hbm, ⟨4, _⟩ => ⟨S8x1x512x64, .f32⟩
  | .hbm, ⟨5, _⟩ => ⟨S8x512x512x64, .f32⟩
  | .hbm, ⟨6, _⟩ => ⟨S8x512x512x64, .f32⟩
  | .hbm, ⟨7, _⟩ => ⟨S8x512x512x64, .f32⟩
  | .hbm, ⟨8, _⟩ => ⟨S8x512x512x64, .f32⟩
  | .hbm, ⟨9, _⟩ => ⟨S_, .f32⟩
  | .hbm, ⟨10, _⟩ => ⟨S8x512x512x64, .f32⟩
  | .hbm, ⟨11, _⟩ => ⟨S8x512x512x64, .f32⟩
  | .hbm, ⟨12, _⟩ => ⟨S_, .f32⟩
  | .hbm, ⟨13, _⟩ => ⟨S8x512x512, .f32⟩
  | .hbm, ⟨14, _⟩ => ⟨S_, .f32⟩
  | .hbm, ⟨15, _⟩ => ⟨S8x512, .f32⟩
  | .hbm, ⟨16, _⟩ => ⟨S_, .f32⟩
  | .hbm, ⟨17, _⟩ => ⟨S8x512, .f32⟩
  | .hbm, ⟨18, _⟩ => ⟨S8x512, .f32⟩
  | .hbm, ⟨19, _⟩ => ⟨S8x512x1, .f32⟩
  | .hbm, ⟨20, _⟩ => ⟨S8x512x512, .f32⟩
  | .hbm, ⟨21, _⟩ => ⟨S8x512x512, .f32⟩
  | .hbm, ⟨22, _⟩ => ⟨S8x512x512, .f32⟩
  | .hbm, ⟨23, _⟩ => ⟨S_, .f32⟩
  | .hbm, ⟨24, _⟩ => ⟨S8x512, .f32⟩
  | .hbm, ⟨25, _⟩ => ⟨S8x512x1, .f32⟩
  | .hbm, ⟨26, _⟩ => ⟨S8x512x512, .f32⟩
  | .hbm, ⟨27, _⟩ => ⟨S8x512x512, .f32⟩
  | .hbm, ⟨28, _⟩ => ⟨S8x512x64, .f32⟩
  | _, _ => ⟨S8x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]

class Facts₀ : Prop where
  bcast_S8x512x64_S8x512x1x64_0_1_3 : S8x512x64.BroadcastsInDim S8x512x1x64 (![0, 1, 3] : Fin 3 → Fin S8x512x1x64.rank)
  bcast_S8x512x64_S8x1x512x64_0_2_3 : S8x512x64.BroadcastsInDim S8x1x512x64 (![0, 2, 3] : Fin 3 → Fin S8x1x512x64.rank)
  bcast_S8x512x1x64_S8x512x512x64_0_1_2_3 : S8x512x1x64.BroadcastsInDim S8x512x512x64 (![0, 1, 2, 3] : Fin 4 → Fin S8x512x512x64.rank)
  bcast_S8x1x512x64_S8x512x512x64_0_1_2_3 : S8x1x512x64.BroadcastsInDim S8x512x512x64 (![0, 1, 2, 3] : Fin 4 → Fin S8x512x512x64.rank)
  bcast_S_S8x512x512x64 : S_.BroadcastsInDim S8x512x512x64 (![] : Fin 0 → Fin S8x512x512x64.rank)
  reducesTo_S8x512x512x64_S8x512x512_d3 : S8x512x512x64.ReducesTo [3] S8x512x512
  h_S_ : 0 < S_.numel
  reducesTo_S8x512x512_S8x512_d2 : S8x512x512.ReducesTo [2] S8x512
  bcast_S_S8x512 : S_.BroadcastsInDim S8x512 (![] : Fin 0 → Fin S8x512.rank)
  bcast_S8x512_S8x512x1_0_1 : S8x512.BroadcastsInDim S8x512x1 (![0, 1] : Fin 2 → Fin S8x512x1.rank)
  bcast_S8x512x1_S8x512x512_0_1_2 : S8x512x1.BroadcastsInDim S8x512x512 (![0, 1, 2] : Fin 3 → Fin S8x512x512.rank)
  dot_S8x512x512_S8x512x64_S8x512x64_2_1_1_2_0_0_wf : DotDims.WF S8x512x512 S8x512x64 S8x512x64 [2] [1] [1] [2] [0] [0]

variable [Facts₀]

def dot_S8x512x512_S8x512x64_S8x512x64_2_1_1_2_0_0 : DotDims S8x512x512 S8x512x64 S8x512x64 where
  lhsContracting := [2]
  rhsContracting := [1]
  lhsNonContracting := [1]
  rhsNonContracting := [2]
  lhsBatch := [0]
  rhsBatch := [0]
  wf := dot_S8x512x512_S8x512x64_S8x512x64_2_1_1_2_0_0_wf

class Facts : Prop extends Facts₀ where

variable [Facts]
-- ==== Proof.KernelPieces.lean ====
/-
  What one grid point's body leaves in the three buffers it carries from point to point (the running row maximum,
  the running denominator, the running numerator) and, at the last key block, in the output block: each is ONE
  pure term over the point's input blocks and what the point before left. At the first key block the body first
  stores -inf, 0, 0 and reads them back, so the same terms apply with those constants in place of the carried values.
-/
import proofs.«161785_j28733331210438_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem
open Idealize.ShloMosaic.Pipeline (Dat)

variable {F : FTy → Type} [FloatOps F]

theorem hz3 : (![0, 0, 0] : Fin 3 → Nat) = fun _ => 0 := funext fun a => by fin_cases a <;> rfl

/-- The block of scores of the point's 128 query rows against its 128 keys: the feature-by-feature accumulation. -/
def scoresBlk (x0 : Vec F S1x128x64 .f32) (x1 : Vec F S1x64x128 .f32) : FVec F S128x128 .f32 :=
  k0_pay24 (k0_pay5 x0) (k0_pay6 x1)
    (k0_pay21 (k0_pay5 x0) (k0_pay6 x1)
      (k0_pay19 (k0_pay5 x0) (k0_pay6 x1)
        (k0_pay17 (k0_pay5 x0) (k0_pay6 x1)
          (k0_pay14 (k0_pay5 x0) (k0_pay6 x1)
            (k0_pay13 (k0_pay5 x0) (k0_pay6 x1) (k0_pay10 (k0_pay5 x0) (k0_pay6 x1) (k0_pay8 x0 x1) (k0_pay9 x0 x1))
              (k0_pay11 (k0_pay6 x1)) (k0_pay12 (k0_pay5 x0))))
          (k0_pay15 (k0_pay5 x0)) (k0_pay16 (k0_pay6 x1)))
        (k0_pay18 (k0_pay5 x0)))
      (k0_pay20 (k0_pay5 x0) (k0_pay6 x1)))
    (k0_pay22 (k0_pay5 x0)) (k0_pay23 (k0_pay6 x1))

/-- The new running maximum: the larger of the carried one and the block's row maximum. -/
def newMax (x0 : Vec F S1x128x64 .f32) (x1 : Vec F S1x64x128 .f32) (mp : Vec F S1x128x1 .f32) : FVec F S1x128x1 .f32 :=
  k0_pay31 (scoresBlk x0 x1) (k0_pay25 mp)

/-- The new running denominator: the carried one rescaled, plus the block's row sum of shifted exponentials. -/
def newDen (x0 : Vec F S1x128x64 .f32) (x1 : Vec F S1x64x128 .f32) (mp lp : Vec F S1x128x1 .f32) : FVec F S1x128x1 .f32 :=
  k0_pay29 (scoresBlk x0 x1) (k0_pay25 mp) lp

/-- The new running numerator: the carried one rescaled, plus the block's shifted exponentials times the values. -/
def newNum (x0 : Vec F S1x128x64 .f32) (x1 : Vec F S1x64x128 .f32) (x2 : Vec F S1x128x64 .f32) (mp : Vec F S1x128x1 .f32)
    (ap : Vec F S1x128x64 .f32) : FVec F S1x128x64 .f32 :=
  k0_pay30 (k0_pay7 x2) (scoresBlk x0 x1) (k0_pay25 mp) ap

/-- The output block: numerator over denominator. -/
def outBlk (a : Vec F S1x128x64 .f32) (l : Vec F S1x128x1 .f32) : FVec F S1x128x64 .f32 := k0_pay1 a l

theorem sout0_A_0_eq (c : Dev nD) (i : grid0.Coords) (arg3 : Memref sig .tc .vmem S1x128x64 .f32) (harg3 : arg3.IsWhole) (arg4 : Memref sig .tc .vmem S1x64x128 .f32) (harg4 : arg4.IsWhole) (arg5 : Memref sig .tc .vmem S1x128x64 .f32) (harg5 : arg5.IsWhole) (arg6 : Memref sig .tc .vmem S1x128x64 .f32) (harg6 : arg6.IsWhole) (arg7 : Memref sig .tc .vmem S1x128x1 .f32) (harg7 : arg7.IsWhole) (arg8 : Memref sig .tc .vmem S1x128x1 .f32) (harg8 : arg8.IsWhole) (arg9 : Memref sig .tc .vmem S1x128x64 .f32) (harg9 : arg9.IsWhole) (hc0 : cond0_0 i) (hc1 : ¬cond0_1 i)
    (x0 : Vec F S1x128x64 .f32) (x1 : Vec F S1x64x128 .f32) (x2 : Vec F S1x128x64 .f32) :
    sout0_A_0 c i arg3 harg3 arg4 harg4 arg5 harg5 arg6 harg6 arg7 harg7 arg8 harg8 arg9 harg9 hc0 hc1 x0 x1 x2 = newMax x0 x1 k0_pay2 := by
  unfold sout0_A_0
  rw [View.read_writes_eq_canon _ _ _ (scover0_A_0 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero hz3]
  simp only [View.readAt_eq_ld, View.readCov_unit_zero (S := S1x128x1) arg7.view hz3, View.readCov_unit_zero (S := S1x128x1) arg8.view hz3, View.readCov_unit_zero (S := S1x128x64) arg9.view hz3, harg3.read_unread, harg4.read_unread, harg5.read_unread, harg6.read_unread, harg7.read_unread, harg8.read_unread, harg9.read_unread, View.ld_unit_zero (S := S1x128x64) hz3, View.ld_unit_zero (S := S1x64x128) hz3, View.ld_unit_zero (S := S1x128x1) hz3]
  rfl

theorem sout0_A_1_eq (c : Dev nD) (i : grid0.Coords) (arg3 : Memref sig .tc .vmem S1x128x64 .f32) (harg3 : arg3.IsWhole) (arg4 : Memref sig .tc .vmem S1x64x128 .f32) (harg4 : arg4.IsWhole) (arg5 : Memref sig .tc .vmem S1x128x64 .f32) (harg5 : arg5.IsWhole) (arg6 : Memref sig .tc .vmem S1x128x64 .f32) (harg6 : arg6.IsWhole) (arg7 : Memref sig .tc .vmem S1x128x1 .f32) (harg7 : arg7.IsWhole) (arg8 : Memref sig .tc .vmem S1x128x1 .f32) (harg8 : arg8.IsWhole) (arg9 : Memref sig .tc .vmem S1x128x64 .f32) (harg9 : arg9.IsWhole) (hc0 : cond0_0 i) (hc1 : ¬cond0_1 i)
    (x0 : Vec F S1x128x64 .f32) (x1 : Vec F S1x64x128 .f32) (x2 : Vec F S1x128x64 .f32) :
    sout0_A_1 c i arg3 harg3 arg4 harg4 arg5 harg5 arg6 harg6 arg7 harg7 arg8 harg8 arg9 harg9 hc0 hc1 x0 x1 x2 = newDen x0 x1 k0_pay2 k0_pay3 := by
  unfold sout0_A_1
  rw [View.read_writes_eq_canon _ _ _ (scover0_A_1 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero hz3]
  simp only [View.readAt_eq_ld, View.readCov_unit_zero (S := S1x128x1) arg7.view hz3, View.readCov_unit_zero (S := S1x128x1) arg8.view hz3, View.readCov_unit_zero (S := S1x128x64) arg9.view hz3, harg3.read_unread, harg4.read_unread, harg5.read_unread, harg6.read_unread, harg7.read_unread, harg8.read_unread, harg9.read_unread, View.ld_unit_zero (S := S1x128x64) hz3, View.ld_unit_zero (S := S1x64x128) hz3, View.ld_unit_zero (S := S1x128x1) hz3]
  rfl

theorem sout0_A_2_eq (c : Dev nD) (i : grid0.Coords) (arg3 : Memref sig .tc .vmem S1x128x64 .f32) (harg3 : arg3.IsWhole) (arg4 : Memref sig .tc .vmem S1x64x128 .f32) (harg4 : arg4.IsWhole) (arg5 : Memref sig .tc .vmem S1x128x64 .f32) (harg5 : arg5.IsWhole) (arg6 : Memref sig .tc .vmem S1x128x64 .f32) (harg6 : arg6.IsWhole) (arg7 : Memref sig .tc .vmem S1x128x1 .f32) (harg7 : arg7.IsWhole) (arg8 : Memref sig .tc .vmem S1x128x1 .f32) (harg8 : arg8.IsWhole) (arg9 : Memref sig .tc .vmem S1x128x64 .f32) (harg9 : arg9.IsWhole) (hc0 : cond0_0 i) (hc1 : ¬cond0_1 i)
    (x0 : Vec F S1x128x64 .f32) (x1 : Vec F S1x64x128 .f32) (x2 : Vec F S1x128x64 .f32) :
    sout0_A_2 c i arg3 harg3 arg4 harg4 arg5 harg5 arg6 harg6 arg7 harg7 arg8 harg8 arg9 harg9 hc0 hc1 x0 x1 x2 = newNum x0 x1 x2 k0_pay2 k0_pay4 := by
  unfold sout0_A_2
  rw [View.read_writes_eq_canon _ _ _ (scover0_A_2 c i arg3 harg3 arg4 harg4 arg5 harg5 arg6 harg6 arg7 harg7 arg8 harg8 arg9 harg9 hc0 hc1 x0 x1 x2)]
  unfold kernelRun0_A
  dsimp only
  sl_unfold_words
  rw [View.canon_cons_unit_zero hz3]
  simp only [View.readAt_eq_ld, View.readCov_unit_zero (S := S1x128x1) arg7.view hz3, View.readCov_unit_zero (S := S1x128x1) arg8.view hz3, View.readCov_unit_zero (S := S1x128x64) arg9.view hz3, harg3.read_unread, harg4.read_unread, harg5.read_unread, harg6.read_unread, harg7.read_unread, harg8.read_unread, harg9.read_unread, View.ld_unit_zero (S := S1x128x64) hz3, View.ld_unit_zero (S := S1x64x128) hz3, View.ld_unit_zero (S := S1x128x1) hz3]
  rfl

theorem sout0_B_0_eq (c : Dev nD) (i : grid0.Coords) (arg3 : Memref sig .tc .vmem S1x128x64 .f32) (harg3 : arg3.IsWhole) (arg4 : Memref sig .tc .vmem S1x64x128 .f32) (harg4 : arg4.IsWhole) (arg5 : Memref sig .tc .vmem S1x128x64 .f32) (harg5 : arg5.IsWhole) (arg6 : Memref sig .tc .vmem S1x128x64 .f32) (harg6 : arg6.IsWhole) (arg7 : Memref sig .tc .vmem S1x128x1 .f32) (harg7 : arg7.IsWhole) (arg8 : Memref sig .tc .vmem S1x128x1 .f32) (harg8 : arg8.IsWhole) (arg9 : Memref sig .tc .vmem S1x128x64 .f32) (harg9 : arg9.IsWhole) (hc0 : ¬cond0_0 i) (hc1 : ¬cond0_1 i)
    (x0 : Vec F S1x128x64 .f32) (x1 : Vec F S1x64x128 .f32) (x2 : Vec F S1x128x64 .f32) (xs0 : Vec F S1x128x1 .f32) (xs1 : Vec F S1x128x1 .f32) (xs2 : Vec F S1x128x64 .f32) :
    sout0_B_0 c i arg3 harg3 arg4 harg4 arg5 harg5 arg6 harg6 arg7 harg7 arg8 harg8 arg9 harg9 hc0 hc1 x0 x1 x2 xs0 xs1 xs2 = newMax x0 x1 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz3]
  simp only [View.readAt_eq_ld, View.readCov_unit_zero (S := S1x128x1) arg7.view hz3, View.readCov_unit_zero (S := S1x128x1) arg8.view hz3, View.readCov_unit_zero (S := S1x128x64) arg9.view hz3, harg3.read_unread, harg4.read_unread, harg5.read_unread, harg6.read_unread, harg7.read_unread, harg8.read_unread, harg9.read_unread, View.ld_unit_zero (S := S1x128x64) hz3, View.ld_unit_zero (S := S1x64x128) hz3, View.ld_unit_zero (S := S1x128x1) hz3]
  rfl

theorem sout0_B_1_eq (c : Dev nD) (i : grid0.Coords) (arg3 : Memref sig .tc .vmem S1x128x64 .f32) (harg3 : arg3.IsWhole) (arg4 : Memref sig .tc .vmem S1x64x128 .f32) (harg4 : arg4.IsWhole) (arg5 : Memref sig .tc .vmem S1x128x64 .f32) (harg5 : arg5.IsWhole) (arg6 : Memref sig .tc .vmem S1x128x64 .f32) (harg6 : arg6.IsWhole) (arg7 : Memref sig .tc .vmem S1x128x1 .f32) (harg7 : arg7.IsWhole) (arg8 : Memref sig .tc .vmem S1x128x1 .f32) (harg8 : arg8.IsWhole) (arg9 : Memref sig .tc .vmem S1x128x64 .f32) (harg9 : arg9.IsWhole) (hc0 : ¬cond0_0 i) (hc1 : ¬cond0_1 i)
    (x0 : Vec F S1x128x64 .f32) (x1 : Vec F S1x64x128 .f32) (x2 : Vec F S1x128x64 .f32) (xs0 : Vec F S1x128x1 .f32) (xs1 : Vec F S1x128x1 .f32) (xs2 : Vec F S1x128x64 .f32) :
    sout0_B_1 c i arg3 harg3 arg4 harg4 arg5 harg5 arg6 harg6 arg7 harg7 arg8 harg8 arg9 harg9 hc0 hc1 x0 x1 x2 xs0 xs1 xs2 = newDen x0 x1 xs0 xs1 := by
  unfold sout0_B_1
  rw [View.read_writes_eq_canon _ _ _ (scover0_B_1 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz3]
  simp only [View.readAt_eq_ld, View.readCov_unit_zero (S := S1x128x1) arg7.view hz3, View.readCov_unit_zero (S := S1x128x1) arg8.view hz3, View.readCov_unit_zero (S := S1x128x64) arg9.view hz3, harg3.read_unread, harg4.read_unread, harg5.read_unread, harg6.read_unread, harg7.read_unread, harg8.read_unread, harg9.read_unread, View.ld_unit_zero (S := S1x128x64) hz3, View.ld_unit_zero (S := S1x64x128) hz3, View.ld_unit_zero (S := S1x128x1) hz3]
  rfl

theorem sout0_B_2_eq (c : Dev nD) (i : grid0.Coords) (arg3 : Memref sig .tc .vmem S1x128x64 .f32) (harg3 : arg3.IsWhole) (arg4 : Memref sig .tc .vmem S1x64x128 .f32) (harg4 : arg4.IsWhole) (arg5 : Memref sig .tc .vmem S1x128x64 .f32) (harg5 : arg5.IsWhole) (arg6 : Memref sig .tc .vmem S1x128x64 .f32) (harg6 : arg6.IsWhole) (arg7 : Memref sig .tc .vmem S1x128x1 .f32) (harg7 : arg7.IsWhole) (arg8 : Memref sig .tc .vmem S1x128x1 .f32) (harg8 : arg8.IsWhole) (arg9 : Memref sig .tc .vmem S1x128x64 .f32) (harg9 : arg9.IsWhole) (hc0 : ¬cond0_0 i) (hc1 : ¬cond0_1 i)
    (x0 : Vec F S1x128x64 .f32) (x1 : Vec F S1x64x128 .f32) (x2 : Vec F S1x128x64 .f32) (xs0 : Vec F S1x128x1 .f32) (xs1 : Vec F S1x128x1 .f32) (xs2 : Vec F S1x128x64 .f32) :
    sout0_B_2 c i arg3 harg3 arg4 harg4 arg5 harg5 arg6 harg6 arg7 harg7 arg8 harg8 arg9 harg9 hc0 hc1 x0 x1 x2 xs0 xs1 xs2 = newNum x0 x1 x2 xs0 xs2 := by
  unfold sout0_B_2
  rw [View.read_writes_eq_canon _ _ _ (scover0_B_2 c i arg3 harg3 arg4 harg4 arg5 harg5 arg6 harg6 arg7 harg7 arg8 harg8 arg9 harg9 hc0 hc1 x0 x1 x2 xs0 xs1 xs2)]
  unfold kernelRun0_B
  dsimp only
  sl_unfold_words
  rw [View.canon_unit_zero hz3]
  simp only [View.readAt_eq_ld, View.readCov_unit_zero (S := S1x128x1) arg7.view hz3, View.readCov_unit_zero (S := S1x128x1) arg8.view hz3, View.readCov_unit_zero (S := S1x128x64) arg9.view hz3, harg3.read_unread, harg4.read_unread, harg5.read_unread, harg6.read_unread, harg7.read_unread, harg8.read_unread, harg9.read_unread, View.ld_unit_zero (S := S1x128x64) hz3, View.ld_unit_zero (S := S1x64x128) hz3, View.ld_unit_zero (S := S1x128x1) hz3]
  rfl

theorem sout0_C_0_eq (c : Dev nD) (i : grid0.Coords) (arg3 : Memref sig .tc .vmem S1x128x64 .f32) (harg3 : arg3.IsWhole) (arg4 : Memref sig .tc .vmem S1x64x128 .f32) (harg4 : arg4.IsWhole) (arg5 : Memref sig .tc .vmem S1x128x64 .f32) (harg5 : arg5.IsWhole) (arg6 : Memref sig .tc .vmem S1x128x64 .f32) (harg6 : arg6.IsWhole) (arg7 : Memref sig .tc .vmem S1x128x1 .f32) (harg7 : arg7.IsWhole) (arg8 : Memref sig .tc .vmem S1x128x1 .f32) (harg8 : arg8.IsWhole) (arg9 : Memref sig .tc .vmem S1x128x64 .f32) (harg9 : arg9.IsWhole) (hc0 : ¬cond0_0 i) (hc1 : cond0_1 i)
    (x0 : Vec F S1x128x64 .f32) (x1 : Vec F S1x64x128 .f32) (x2 : Vec F S1x128x64 .f32) (xs0 : Vec F S1x128x1 .f32) (xs1 : Vec F S1x128x1 .f32) (xs2 : Vec F S1x128x64 .f32) :
    sout0_C_0 c i arg3 harg3 arg4 harg4 arg5 harg5 arg6 harg6 arg7 harg7 arg8 harg8 arg9 harg9 hc0 hc1 x0 x1 x2 xs0 xs1 xs2 = newMax x0 x1 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz3]
  simp only [View.readAt_eq_ld, View.readCov_unit_zero (S := S1x128x1) arg7.view hz3, View.readCov_unit_zero (S := S1x128x1) arg8.view hz3, View.readCov_unit_zero (S := S1x128x64) arg9.view hz3, harg3.read_unread, harg4.read_unread, harg5.read_unread, harg6.read_unread, harg7.read_unread, harg8.read_unread, harg9.read_unread, View.ld_unit_zero (S := S1x128x64) hz3, View.ld_unit_zero (S := S1x64x128) hz3, View.ld_unit_zero (S := S1x128x1) hz3]
  rfl

theorem sout0_C_1_eq (c : Dev nD) (i : grid0.Coords) (arg3 : Memref sig .tc .vmem S1x128x64 .f32) (harg3 : arg3.IsWhole) (arg4 : Memref sig .tc .vmem S1x64x128 .f32) (harg4 : arg4.IsWhole) (arg5 : Memref sig .tc .vmem S1x128x64 .f32) (harg5 : arg5.IsWhole) (arg6 : Memref sig .tc .vmem S1x128x64 .f32) (harg6 : arg6.IsWhole) (arg7 : Memref sig .tc .vmem S1x128x1 .f32) (harg7 : arg7.IsWhole) (arg8 : Memref sig .tc .vmem S1x128x1 .f32) (harg8 : arg8.IsWhole) (arg9 : Memref sig .tc .vmem S1x128x64 .f32) (harg9 : arg9.IsWhole) (hc0 : ¬cond0_0 i) (hc1 : cond0_1 i)
    (x0 : Vec F S1x128x64 .f32) (x1 : Vec F S1x64x128 .f32) (x2 : Vec F S1x128x64 .f32) (xs0 : Vec F S1x128x1 .f32) (xs1 : Vec F S1x128x1 .f32) (xs2 : Vec F S1x128x64 .f32) :
    sout0_C_1 c i arg3 harg3 arg4 harg4 arg5 harg5 arg6 harg6 arg7 harg7 arg8 harg8 arg9 harg9 hc0 hc1 x0 x1 x2 xs0 xs1 xs2 = newDen x0 x1 xs0 xs1 := by
  unfold sout0_C_1
  rw [View.read_writes_eq_canon _ _ _ (scover0_C_1 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz3]
  simp only [View.readAt_eq_ld, View.readCov_unit_zero (S := S1x128x1) arg7.view hz3, View.readCov_unit_zero (S := S1x128x1) arg8.view hz3, View.readCov_unit_zero (S := S1x128x64) arg9.view hz3, harg3.read_unread, harg4.read_unread, harg5.read_unread, harg6.read_unread, harg7.read_unread, harg8.read_unread, harg9.read_unread, View.ld_unit_zero (S := S1x128x64) hz3, View.ld_unit_zero (S := S1x64x128) hz3, View.ld_unit_zero (S := S1x128x1) hz3]
  rfl

theorem sout0_C_2_eq (c : Dev nD) (i : grid0.Coords) (arg3 : Memref sig .tc .vmem S1x128x64 .f32) (harg3 : arg3.IsWhole) (arg4 : Memref sig .tc .vmem S1x64x128 .f32) (harg4 : arg4.IsWhole) (arg5 : Memref sig .tc .vmem S1x128x64 .f32) (harg5 : arg5.IsWhole) (arg6 : Memref sig .tc .vmem S1x128x64 .f32) (harg6 : arg6.IsWhole) (arg7 : Memref sig .tc .vmem S1x128x1 .f32) (harg7 : arg7.IsWhole) (arg8 : Memref sig .tc .vmem S1x128x1 .f32) (harg8 : arg8.IsWhole) (arg9 : Memref sig .tc .vmem S1x128x64 .f32) (harg9 : arg9.IsWhole) (hc0 : ¬cond0_0 i) (hc1 : cond0_1 i)
    (x0 : Vec F S1x128x64 .f32) (x1 : Vec F S1x64x128 .f32) (x2 : Vec F S1x128x64 .f32) (xs0 : Vec F S1x128x1 .f32) (xs1 : Vec F S1x128x1 .f32) (xs2 : Vec F S1x128x64 .f32) :
    sout0_C_2 c i arg3 harg3 arg4 harg4 arg5 harg5 arg6 harg6 arg7 harg7 arg8 harg8 arg9 harg9 hc0 hc1 x0 x1 x2 xs0 xs1 xs2 = newNum x0 x1 x2 xs0 xs2 := by
  unfold sout0_C_2
  rw [View.read_writes_eq_canon _ _ _ (scover0_C_2 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz3]
  simp only [View.readAt_eq_ld, View.readCov_unit_zero (S := S1x128x1) arg7.view hz3, View.readCov_unit_zero (S := S1x128x1) arg8.view hz3, View.readCov_unit_zero (S := S1x128x64) arg9.view hz3, harg3.read_unread, harg4.read_unread, harg5.read_unread, harg6.read_unread, harg7.read_unread, harg8.read_unread, harg9.read_unread, View.ld_unit_zero (S := S1x128x64) hz3, View.ld_unit_zero (S := S1x64x128) hz3, View.ld_unit_zero (S := S1x128x1) hz3]
  rfl

theorem out0_C_3_eq (c : Dev nD) (i : grid0.Coords) (arg3 : Memref sig .tc .vmem S1x128x64 .f32) (harg3 : arg3.IsWhole) (arg4 : Memref sig .tc .vmem S1x64x128 .f32) (harg4 : arg4.IsWhole) (arg5 : Memref sig .tc .vmem S1x128x64 .f32) (harg5 : arg5.IsWhole) (arg6 : Memref sig .tc .vmem S1x128x64 .f32) (harg6 : arg6.IsWhole) (arg7 : Memref sig .tc .vmem S1x128x1 .f32) (harg7 : arg7.IsWhole) (arg8 : Memref sig .tc .vmem S1x128x1 .f32) (harg8 : arg8.IsWhole) (arg9 : Memref sig .tc .vmem S1x128x64 .f32) (harg9 : arg9.IsWhole) (hc0 : ¬cond0_0 i) (hc1 : cond0_1 i)
    (x0 : Vec F S1x128x64 .f32) (x1 : Vec F S1x64x128 .f32) (x2 : Vec F S1x128x64 .f32) (xs0 : Vec F S1x128x1 .f32) (xs1 : Vec F S1x128x1 .f32) (xs2 : Vec F S1x128x64 .f32) :
    out0_C_3 c i arg3 harg3 arg4 harg4 arg5 harg5 arg6 harg6 arg7 harg7 arg8 harg8 arg9 harg9 hc0 hc1 x0 x1 x2 xs0 xs1 xs2 = outBlk (newNum x0 x1 x2 xs0 xs2) (newDen x0 x1 xs0 xs1) := by
  unfold out0_C_3
  rw [View.read_writes_eq_canon _ _ _ (cover0_C_3 c i arg3 harg3 arg4 harg4 arg5 harg5 arg6 harg6 arg7 harg7 arg8 harg8 arg9 harg9 hc0 hc1 x0 x1 x2 xs0 xs1 xs2)]
  unfold kernelRun0_C
  dsimp only
  sl_unfold_words
  rw [View.canon_unit_zero hz3]
  simp only [View.readAt_eq_ld, View.readCov_unit_zero (S := S1x128x1) arg7.view hz3, View.readCov_unit_zero (S := S1x128x1) arg8.view hz3, View.readCov_unit_zero (S := S1x128x64) arg9.view hz3, harg3.read_unread, harg4.read_unread, harg5.read_unread, harg6.read_unread, harg7.read_unread, harg8.read_unread, harg9.read_unread, View.ld_unit_zero (S := S1x128x64) hz3, View.ld_unit_zero (S := S1x64x128) hz3, View.ld_unit_zero (S := S1x128x1) hz3]
  rfl

end Cert.KernelIdeal.Pieces
end
-- ==== Proof.LibReduceExtremum.lean ====
/-
  Reductions by maximum and minimum over the extended reals, read as suprema and infima.

  On the extended reals `max` and `min` are the join and the meet of a complete lattice whose least
  element is `-∞` and whose greatest is `+∞`. A fold of `max` that starts from `-∞` over a finite
  family is therefore the supremum of the family, whatever the order of the fold, and a fold of `min`
  from `+∞` is its infimum. The statements below read the host's `reduce` and a kernel's
  `multi_reduction` that way: over every axis at once (the result has one index, and the value there
  is the supremum over every source index), and over one axis (the value at a result index is the
  supremum over that axis's coordinates). A supremum over all indices does not change when the
  family is re-indexed along a surjection, and it is the supremum over the result indices of the
  one-axis suprema.
-/
import Idealize.ShloMosaic.PureOps.Ideal
import Idealize.ShloMosaic.PureOps.Ideal.Laws
import Idealize.ShloMosaic.PureOps.Reduce
import Idealize.ShloMosaic.Lib.Pipeline.Value
import Idealize.ShloMosaic.Lib.ValueIdx

namespace Idealize.ShloMosaic.ReduceExtremum

open Idealize.ShloMosaic

/-! ## The two infinities as bit patterns -/

/-- The f32 pattern `0xFF800000` (sign 1, exponent all ones, fraction 0) denotes `-∞`, the least extended real. -/
theorem ofBits_negInf_f32 : Ideal.ofBits .f32 0xFF800000#32 = ⊥ := by simp [Ideal.ofBits, Ideal.ieee]

/-- The f32 pattern `0x7F800000` (sign 0, exponent all ones, fraction 0) denotes `+∞`, the greatest extended real. -/
theorem ofBits_posInf_f32 : Ideal.ofBits .f32 0x7F800000#32 = ⊤ := by simp [Ideal.ofBits, Ideal.ieee]

/-! ## Folds of `max` from `-∞` and of `min` from `+∞` -/

/-- A fold of `max` from `-∞` over a finite set is the supremum over the set. -/
theorem fold_max_bot {ι : Type} (S : Finset ι) (x : ι → EReal) :
    S.fold max ⊥ x = ⨆ i ∈ S, x i := by
  rw [← Finset.sup_eq_iSup]; rfl

/-- A fold of `min` from `+∞` over a finite set is the infimum over the set. -/
theorem fold_min_top {ι : Type} (S : Finset ι) (x : ι → EReal) :
    S.fold min ⊤ x = ⨅ i ∈ S, x i := by
  rw [← Finset.inf_eq_iInf]; rfl

/-- Over a whole finite type: the fold of `max` from `-∞` is the supremum of the family. -/
theorem fold_max_bot_univ {ι : Type} [Fintype ι] (x : ι → EReal) :
    (Finset.univ : Finset ι).fold max ⊥ x = ⨆ i, x i := by
  rw [fold_max_bot]; simp

/-- Over a whole finite type: the fold of `min` from `+∞` is the infimum of the family. -/
theorem fold_min_top_univ {ι : Type} [Fintype ι] (x : ι → EReal) :
    (Finset.univ : Finset ι).fold min ⊤ x = ⨅ i, x i := by
  rw [fold_min_top]; simp

/-! ## A reduction over every axis: the supremum, or the infimum, of the whole array -/

section AllAxes
variable {s t u : Shape} {axes : List (Fin s.rank)} {φ : FTy}

/-- A result shape of rank zero has no axis, so each of its axes has size one. -/
theorem size_eq_one_of_rank_zero {d : Fin 0 → Nat} (b : Fin (⟨0, d⟩ : Shape).rank) : (⟨0, d⟩ : Shape).size b = 1 :=
  b.elim0

/-- The host's reduction by `max` into a shape whose every axis has size one (every source index reduces to the one
    result index), started from `-∞`, is at that index the supremum of the source over ALL its indices. -/
theorem hostReduce_max_all (x : s.Idx → EReal) (init : u.Idx → EReal) (h : s.ReducesTo axes t) (hu : 0 < u.numel)
    (ht : ∀ b, t.size b = 1) (hinit : init (Shape.Idx.first hu) = ⊥) (j : t.Idx) :
    Host.reduce (FloatOps.maximumf (F := Ideal) (φ := φ)) x init h hu j = ⨆ i : s.Idx, x i := by
  rw [Host.reduce_eq_fold, hinit,
    Finset.filter_true_of_mem fun i _ => funext fun b => Fin.ext (by
      have := (h.drop i b).isLt; have := (j b).isLt; have := ht b; omega)]
  exact fold_max_bot_univ x

/-- The same for `min` started from `+∞`: the infimum of the source over all its indices. -/
theorem hostReduce_min_all (x : s.Idx → EReal) (init : u.Idx → EReal) (h : s.ReducesTo axes t) (hu : 0 < u.numel)
    (ht : ∀ b, t.size b = 1) (hinit : init (Shape.Idx.first hu) = ⊤) (j : t.Idx) :
    Host.reduce (FloatOps.minimumf (F := Ideal) (φ := φ)) x init h hu j = ⨅ i : s.Idx, x i := by
  rw [Host.reduce_eq_fold, hinit,
    Finset.filter_true_of_mem fun i _ => funext fun b => Fin.ext (by
      have := (h.drop i b).isLt; have := (j b).isLt; have := ht b; omega)]
  exact fold_min_top_univ x

/-- In the form a program prints it: the f32 maximum over all axes, from the constant `0xFF800000` (`-∞`), is the
    constant array whose value is the supremum of the source. -/
theorem hostReduce_max_all_negInf (x : FVec Ideal s .f32) (h : s.ReducesTo axes t) (hu : 0 < u.numel)
    (ht : ∀ b, t.size b = 1) :
    Host.reduce FloatOps.maximumf x (constant (F := Ideal) u .f32 0xFF800000#32) h hu = fun _ => ⨆ i : s.Idx, x i :=
  funext fun j => hostReduce_max_all (φ := .f32) x _ h hu ht ofBits_negInf_f32 j

/-- The f32 minimum over all axes, from the constant `0x7F800000` (`+∞`), is the constant array whose value is the
    infimum of the source. -/
theorem hostReduce_min_all_posInf (x : FVec Ideal s .f32) (h : s.ReducesTo axes t) (hu : 0 < u.numel)
    (ht : ∀ b, t.size b = 1) :
    Host.reduce FloatOps.minimumf x (constant (F := Ideal) u .f32 0x7F800000#32) h hu = fun _ => ⨅ i : s.Idx, x i :=
  funext fun j => hostReduce_min_all (φ := .f32) x _ h hu ht ofBits_posInf_f32 j

/-- Into a result of rank zero (a scalar) no condition on the result's sizes is left. -/
theorem hostReduce_max_scalar_negInf {d : Fin 0 → Nat} (x : FVec Ideal s .f32) (h : s.ReducesTo axes ⟨0, d⟩)
    (hu : 0 < u.numel) :
    Host.reduce FloatOps.maximumf x (constant (F := Ideal) u .f32 0xFF800000#32) h hu = fun _ => ⨆ i : s.Idx, x i :=
  hostReduce_max_all_negInf x h hu size_eq_one_of_rank_zero

theorem hostReduce_min_scalar_posInf {d : Fin 0 → Nat} (x : FVec Ideal s .f32) (h : s.ReducesTo axes ⟨0, d⟩)
    (hu : 0 < u.numel) :
    Host.reduce FloatOps.minimumf x (constant (F := Ideal) u .f32 0x7F800000#32) h hu = fun _ => ⨅ i : s.Idx, x i :=
  hostReduce_min_all_posInf x h hu size_eq_one_of_rank_zero

end AllAxes

/-! ## Re-indexing: a supremum over all indices does not see the arrangement -/

section Reindex
variable {s s' t t' u u' : Shape} {axes : List (Fin s.rank)} {axes' : List (Fin s'.rank)} {φ : FTy}

/-- The maximum over all axes of an array read through a surjective index map `e` (every source element is read at
    least once: a reshape, a transpose, their composite) is the maximum over all axes of the array itself. -/
theorem hostReduce_max_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊥) (hinit' : init' (Shape.Idx.first hu') = ⊥) (j : t.Idx) (j' : t'.Idx) :
    Host.reduce (FloatOps.maximumf (F := Ideal) (φ := φ)) (fun i => x (e i)) init' h' hu' j'
      = Host.reduce (FloatOps.maximumf (F := Ideal) (φ := φ)) x init h hu j := by
  rw [hostReduce_max_all (φ := φ) _ init' h' hu' ht' hinit', hostReduce_max_all (φ := φ) x init h hu ht hinit]
  exact he.iSup_comp x

/-- The same for the minimum over all axes. -/
theorem hostReduce_min_all_reindex (x : s.Idx → EReal) (e : s'.Idx → s.Idx) (he : Function.Surjective e)
    (init : u.Idx → EReal) (init' : u'.Idx → EReal) (h : s.ReducesTo axes t) (h' : s'.ReducesTo axes' t')
    (hu : 0 < u.numel) (hu' : 0 < u'.numel) (ht : ∀ b, t.size b = 1) (ht' : ∀ b, t'.size b = 1)
    (hinit : init (Shape.Idx.first hu) = ⊤) (hinit' : init' (Shape.Idx.first hu') = ⊤) (j : t.Idx) (j' : t'.Idx) :
    Host.reduce (FloatOps.minimumf (F := Ideal) (φ := φ)) (fun i => x (e i)) init' h' hu' j'
      = Host.reduce (FloatOps.minimumf (F := Ideal) (φ := φ)) x init h hu j := by
  rw [hostReduce_min_all (φ := φ) _ init' h' hu' ht' hinit', hostReduce_min_all (φ := φ) x init h hu ht hinit]
  exact he.iInf_comp x

/-- A reshape (the same elements in row-major order under another shape) reads every source element exactly once, so
    the supremum of the reshaped array is the supremum of the array. -/
theorem iSup_shapeCast (x : s.Idx → EReal) (h : s.ShapeCasts t) : ⨆ j : t.Idx, shapeCast t x h j = ⨆ i : s.Idx, x i :=
  (Shape.reshapeEquiv h).iSup_comp (g := x)

theorem iInf_shapeCast (x : s.Idx → EReal) (h : s.ShapeCasts t) : ⨅ j : t.Idx, shapeCast t x h j = ⨅ i : s.Idx, x i :=
  (Shape.reshapeEquiv h).iInf_comp (g := x)

/-- Every source index is read by some result index of a transpose: the result index whose coordinate on axis `b` is
    the source's coordinate on axis `perm[b]`. -/
theorem transposes_src_surjective (perm : List (Fin s.rank)) (h : s.Transposes perm t) :
    Function.Surjective (h.src) := by
  intro k
  let j : t.Idx := fun b => ⟨(k perm[b.cast h.2.1]).val, by rw [h.2.2 b]; exact (k _).isLt⟩
  exact ⟨j, transpose_apply perm (fun i : s.Idx => i) h j k fun _ => rfl⟩

/-- So the supremum of a transposed array is the supremum of the array. -/
theorem iSup_transpose (perm : List (Fin s.rank)) (x : s.Idx → EReal) (h : s.Transposes perm t) :
    ⨆ j : t.Idx, transpose t perm x h j = ⨆ i : s.Idx, x i :=
  (transposes_src_surjective perm h).iSup_comp x

theorem iInf_transpose (perm : List (Fin s.rank)) (x : s.Idx → EReal) (h : s.Transposes perm t) :
    ⨅ j : t.Idx, transpose t perm x h j = ⨅ i : s.Idx, x i :=
  (transposes_src_surjective perm h).iInf_comp x

/-- The largest absolute value (the supremum of `max x (-x)`) of a transposed array is that of the array. -/
theorem iSup_abs_transpose (perm : List (Fin s.rank)) (x : s.Idx → EReal) (h : s.Transposes perm t) :
    ⨆ j : t.Idx, max (transpose t perm x h j) (-(transpose t perm x h j)) = ⨆ i : s.Idx, max (x i) (-(x i)) :=
  iSup_transpose perm (fun i => max (x i) (-(x i))) h

/-- The largest absolute value of a reshaped array is that of the array. -/
theorem iSup_abs_shapeCast (x : s.Idx → EReal) (h : s.ShapeCasts t) :
    ⨆ j : t.Idx, max (shapeCast t x h j) (-(shapeCast t x h j)) = ⨆ i : s.Idx, max (x i) (-(x i)) :=
  iSup_shapeCast (fun i => max (x i) (-(x i))) h

end Reindex

/-! ## A reduction over one axis: the supremum over that axis's coordinates -/

section OneAxis
variable {s t u : Shape} {a : Fin s.rank} {φ : FTy}

/-- The host's reduction by `max` over ONE axis, started from `-∞`, is at result index `j` the supremum over the
    coordinates `k` of that axis of the source at `j` with `k` inserted on the axis. -/
theorem hostReduce_max_single (x : s.Idx → EReal) (init : u.Idx → EReal) (h' : s.ReducesTo [a] t) (h : s.Reduces [a] t)
    (hu : 0 < u.numel) (hinit : init (Shape.Idx.first hu) = ⊥) (j : t.Idx) :
    Host.reduce (FloatOps.maximumf (F := Ideal) (φ := φ)) x init h' hu j = ⨆ k : Fin (s.size a), x (h.lift j k) := by
  rw [Host.reduce_eq_fold_single _ x init h' h hu j, hinit]
  exact fold_max_bot_univ _

/-- The same for `min` from `+∞`. -/
theorem hostReduce_min_single (x : s.Idx → EReal) (init : u.Idx → EReal) (h' : s.ReducesTo [a] t) (h : s.Reduces [a] t)
    (hu : 0 < u.numel) (hinit : init (Shape.Idx.first hu) = ⊤) (j : t.Idx) :
    Host.reduce (FloatOps.minimumf (F := Ideal) (φ := φ)) x init h' hu j = ⨅ k : Fin (s.size a), x (h.lift j k) := by
  rw [Host.reduce_eq_fold_single _ x init h' h hu j, hinit]
  exact fold_min_top_univ _

/-- In the printed form: the f32 maximum over one axis from the constant `0xFF800000`. -/
theorem hostReduce_max_single_negInf (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) :=
  hostReduce_max_single (φ := .f32) x _ h' h hu ofBits_negInf_f32 j

/-- A kernel's `multi_reduction <maximumf>` over one axis whose accumulator pattern denotes `-∞` is at `j` the
    supremum over that axis's coordinates. -/
theorem multiReduction_max_single (src : FVec Ideal s φ) (acc : BitVec φ.bits) (h : s.Reduces [a] t)
    (hφ : FKind.Formats φ) (hacc : acc = FKind.maximumf.neutral φ hφ) (hbot : Ideal.ofBits φ acc = ⊥) (j : t.Idx) :
    multiReduction .maximumf [a] t src acc h hφ hacc j = ⨆ k : Fin (s.size a), src (h.lift j k) := by
  rw [Ideal.multiReduction_maximumf_single]
  show (Finset.univ : Finset (Fin (s.size a))).fold max (Ideal.ofBits φ acc) (src ∘ h.lift j) = _
  rw [hbot]
  exact fold_max_bot_univ _

/-- At f32 with the accumulator `0xFF800000`, as a kernel prints a row maximum. -/
theorem multiReduction_max_single_f32 (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) :=
  multiReduction_max_single src _ h hφ hacc ofBits_negInf_f32 j

/-- The same with the accumulator's side condition spelt as a printed program carries it (a proof that the
    pattern equals itself), so that the lemma applies to the printed term as it stands. -/
theorem multiReduction_max_single_f32_printed (src : FVec Ideal s .f32) (h : s.Reduces [a] t)
    (hφ : FKind.Formats .f32) (hacc : (0xFF800000#32 : BitVec 32) = 0xFF800000#32) (j : t.Idx) :
    multiReduction .maximumf [a] t src 0xFF800000#32 h hφ hacc j = ⨆ k : Fin (s.size a), src (h.lift j k) :=
  multiReduction_max_single_f32 src h hφ hacc j

/-- The supremum over all indices is the supremum, over the indices with one axis dropped, of the suprema along that
    axis: every index is its own image with that axis dropped, with its own coordinate put back. -/
theorem iSup_eq_iSup_iSup_lift (h : s.Reduces [a] t) (x : s.Idx → EReal) :
    ⨆ i : s.Idx, x i = ⨆ j : t.Idx, ⨆ k : Fin (s.size a), x (h.lift j k) := by
  refine le_antisymm (iSup_le fun i => ?_) (iSup_le fun j => iSup_le fun k => le_iSup x _)
  rw [← h.lift_drop i]
  exact le_iSup_of_le (h.drop i) (le_iSup (fun k => x (h.lift (h.drop i) k)) (i a))

/-- The same for infima. -/
theorem iInf_eq_iInf_iInf_lift (h : s.Reduces [a] t) (x : s.Idx → EReal) :
    ⨅ i : s.Idx, x i = ⨅ j : t.Idx, ⨅ k : Fin (s.size a), x (h.lift j k) := by
  refine le_antisymm (le_iInf fun j => le_iInf fun k => iInf_le x _) (le_iInf fun i => ?_)
  rw [← h.lift_drop i]
  exact iInf_le_of_le (h.drop i) (iInf_le (fun k => x (h.lift (h.drop i) k)) (i a))

/-- Along an axis of size one (a kept unit axis, as in a column `[…, 1]`) the inner infimum is the one value. -/
theorem iInf_eq_iInf_lift_of_size_one (h : s.Reduces [a] t) (hs : s.size a = 1) (x : s.Idx → EReal) :
    ⨅ i : s.Idx, x i = ⨅ j : t.Idx, x (h.lift j ⟨0, by omega⟩) := by
  rw [iInf_eq_iInf_iInf_lift h x]
  refine iInf_congr fun j => ?_
  haveI : Unique (Fin (s.size a)) := by rw [hs]; exact inferInstance
  rw [iInf_unique]
  exact congrArg (fun k => x (h.lift j k)) (Subsingleton.elim _ _)

theorem iSup_eq_iSup_lift_of_size_one (h : s.Reduces [a] t) (hs : s.size a = 1) (x : s.Idx → EReal) :
    ⨆ i : s.Idx, x i = ⨆ j : t.Idx, x (h.lift j ⟨0, by omega⟩) := by
  rw [iSup_eq_iSup_iSup_lift h x]
  refine iSup_congr fun j => ?_
  haveI : Unique (Fin (s.size a)) := by rw [hs]; exact inferInstance
  rw [iSup_unique]
  exact congrArg (fun k => x (h.lift j k)) (Subsingleton.elim _ _)

end OneAxis

/-! ## The index with a coordinate put back on the last axis, by coordinates -/

section LastAxis
open Idealize.ShloMosaic.ValueIdx

/-- Rank 4, last axis dropped: the index over `j` with coordinate `k` on the last axis is `(j 0, j 1, j 2, k)`. -/
theorem lift_last4 {n0 n1 n2 n3 : Nat}
    (h : (⟨4, ![n0, n1, n2, n3]⟩ : Shape).Reduces [3] (⟨3, ![n0, n1, n2]⟩ : Shape))
    (j : (⟨3, ![n0, n1, n2]⟩ : Shape).Idx) (k : Fin n3) : h.lift j k = ix4 (j 0) (j 1) (j 2) k := by
  funext c; apply Fin.ext
  match c with | ⟨0, _⟩ => rfl | ⟨1, _⟩ => rfl | ⟨2, _⟩ => rfl | ⟨3, _⟩ => rfl

/-- Rank 2, last axis dropped: the index over `j` with coordinate `k` on the last axis is `(j 0, k)`. -/
theorem lift_last2 {n0 n1 : Nat}
    (h : (⟨2, ![n0, n1]⟩ : Shape).Reduces [1] (⟨1, ![n0]⟩ : Shape))
    (j : (⟨1, ![n0]⟩ : Shape).Idx) (k : Fin n1) : h.lift j k = ix2 (j 0) k := by
  funext c; apply Fin.ext
  match c with | ⟨0, _⟩ => rfl | ⟨1, _⟩ => rfl

/-- A supremum over all rank-4 indices is the nested supremum over the four coordinates. -/
theorem iSup_ix4 {n0 n1 n2 n3 : Nat} (f : (⟨4, ![n0, n1, n2, n3]⟩ : Shape).Idx → EReal) :
    ⨆ i, f i = ⨆ a : Fin n0, ⨆ b : Fin n1, ⨆ c : Fin n2, ⨆ d : Fin n3, f (ix4 a b c d) := by
  refine le_antisymm (iSup_le fun i => ?_)
    (iSup_le fun a => iSup_le fun b => iSup_le fun c => iSup_le fun d => le_iSup f _)
  rw [eq_ix4 i]
  exact le_iSup_of_le (i 0) (le_iSup_of_le (i 1) (le_iSup_of_le (i 2)
    (le_iSup (fun d => f (ix4 (i 0) (i 1) (i 2) d)) (i 3))))

/-- An infimum over all rank-4 indices is the nested infimum over the four coordinates. -/
theorem iInf_ix4 {n0 n1 n2 n3 : Nat} (f : (⟨4, ![n0, n1, n2, n3]⟩ : Shape).Idx → EReal) :
    ⨅ i, f i = ⨅ a : Fin n0, ⨅ b : Fin n1, ⨅ c : Fin n2, ⨅ d : Fin n3, f (ix4 a b c d) := by
  refine le_antisymm
    (le_iInf fun a => le_iInf fun b => le_iInf fun c => le_iInf fun d => iInf_le f _) (le_iInf fun i => ?_)
  rw [eq_ix4 i]
  exact iInf_le_of_le (i 0) (iInf_le_of_le (i 1) (iInf_le_of_le (i 2)
    (iInf_le (fun d => f (ix4 (i 0) (i 1) (i 2) d)) (i 3))))

/-- A supremum over all rank-3 indices is the nested supremum over the three coordinates. -/
theorem iSup_ix3 {n0 n1 n2 : Nat} (f : (⟨3, ![n0, n1, n2]⟩ : Shape).Idx → EReal) :
    ⨆ i, f i = ⨆ a : Fin n0, ⨆ b : Fin n1, ⨆ c : Fin n2, f (ix3 a b c) := by
  refine le_antisymm (iSup_le fun i => ?_) (iSup_le fun a => iSup_le fun b => iSup_le fun c => le_iSup f _)
  rw [eq_ix3 i]
  exact le_iSup_of_le (i 0) (le_iSup_of_le (i 1) (le_iSup (fun c => f (ix3 (i 0) (i 1) c)) (i 2)))

/-- An infimum over all rank-3 indices is the nested infimum over the three coordinates. -/
theorem iInf_ix3 {n0 n1 n2 : Nat} (f : (⟨3, ![n0, n1, n2]⟩ : Shape).Idx → EReal) :
    ⨅ i, f i = ⨅ a : Fin n0, ⨅ b : Fin n1, ⨅ c : Fin n2, f (ix3 a b c) := by
  refine le_antisymm (le_iInf fun a => le_iInf fun b => le_iInf fun c => iInf_le f _) (le_iInf fun i => ?_)
  rw [eq_ix3 i]
  exact iInf_le_of_le (i 0) (iInf_le_of_le (i 1) (iInf_le (fun c => f (ix3 (i 0) (i 1) c)) (i 2)))

end LastAxis

end Idealize.ShloMosaic.ReduceExtremum
-- ==== Proof.LibPlainDot.lean ====
/-
  A plain matrix product read at an index, at the ideal instance.

  For the dimension numbers of an `M × K` by `K × N` product (contract the left operand's second axis with the right
  operand's first), a kernel's matrix product into a zero accumulator and the host's `dot_general` are both, at the output
  index `(r, c)`, the sum over `k : Fin K` of `lhs (r, k) * rhs (k, c)`.
-/
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The contraction shape of a plain product has one axis, of extent `K`. -/
theorem plain_contr_rank : (DotDims.plain M K N).contr.rank = 1 := rfl
theorem plain_contr_size : (DotDims.plain M K N).contr.size ⟨0, by rw [plain_contr_rank]; exact Nat.one_pos⟩ = K := rfl

/-- The operand indices of a plain product at the output index `j` and the contraction coordinate `k`. -/
theorem plain_lhsIdx (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single rfl j _).trans hk

theorem plain_rhsIdx (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ => rfl

/-- A kernel's plain product into the zero accumulator, at an index. -/
theorem plain_matmul_apply (prec : Option ContractPrecision) (lhs : FVec Ideal ⟨2, ![M, K]⟩ φ₁) (rhs : FVec Ideal ⟨2, ![K, N]⟩ φ₂)
    (j : (⟨2, ![M, N]⟩ : Shape).Idx) :
    FloatOps.matmul (DotDims.plain M K N) prec lhs rhs (constant ⟨2, ![M, N]⟩ .f32 0x00000000#32) j
      = ∑ k : Fin K, lhs (ix2 (j 0) k) * rhs (ix2 k (j 1)) := by
  rw [Ideal.matmul_constant_zero_apply, ← Equiv.sum_comp (contrEquiv1 (DotDims.plain M K N) K rfl rfl).symm]
  exact Finset.sum_congr rfl fun k _ => by rw [plain_lhsIdx, plain_rhsIdx]; rfl

/-- The host's plain product, at an index. -/
theorem plain_dotGeneral_apply (prec : Option ContractPrecision) (sched : HostSchedule) (lhs : FVec Ideal ⟨2, ![M, K]⟩ φ₁)
    (rhs : FVec Ideal ⟨2, ![K, N]⟩ φ₂) (j : (⟨2, ![M, N]⟩ : Shape).Idx) :
    FloatOps.dotGeneral (DotDims.plain M K N) prec sched lhs rhs j
      = ∑ k : Fin K, lhs (ix2 (j 0) k) * rhs (ix2 k (j 1)) := by
  rw [Ideal.dotGeneral_apply, ← Equiv.sum_comp (contrEquiv1 (DotDims.plain M K N) K rfl rfl).symm]
  exact Finset.sum_congr rfl fun k _ => by rw [plain_lhsIdx, plain_rhsIdx]; rfl

end Cert.LibPlainDot

end
-- ==== Proof.KernelIndex.lean ====
/-
  One grid point's values read at an index, over the extended reals: the block of scores is the sum over the 64
  features of tanh (query entry + key entry); the new running maximum is the larger of the carried one and the block's
  row maximum; the new denominator and numerator rescale the carried ones by exp (old maximum - new maximum) and add the
  block's exponentials shifted by the new maximum (times the values, for the numerator); the output is numerator over
  denominator.
-/
import proofs.«161785_j28733331210438_2_alg».proof.Proof.KernelPieces
import proofs.«161785_j28733331210438_2_alg».proof.Proof.LibReduceExtremum
import proofs.«161785_j28733331210438_2_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Index

open Cert.KernelIdeal Cert.KernelIdeal.Gen Cert.KernelIdeal.Pieces Idealize.ShloMosaic Idealize.ShloMosaic.ValueIdx
open scoped BigOperators

/-! ## Layout operations at explicit coordinates -/

section Layout
variable {α : Type}

/-- Dropping a leading unit axis: entry (r, d) of the matrix is entry (0, r, d) of the block. -/
theorem drop_128x64 (x : S1x128x64.Idx → α) (h : S1x128x64.ShapeCasts S128x64) (r : Fin 128) (d : Fin 64) :
    shapeCast S128x64 x h (ix2 r d) = x (ix3 0 r d) :=
  shapeCast_apply x h _ _ (by rw [Shape.rowMajor_val_three, Shape.rowMajor_val_two]; simp)

theorem drop_64x128 (x : S1x64x128.Idx → α) (h : S1x64x128.ShapeCasts S64x128) (d : Fin 64) (c : Fin 128) :
    shapeCast S64x128 x h (ix2 d c) = x (ix3 0 d c) :=
  shapeCast_apply x h _ _ (by rw [Shape.rowMajor_val_three, Shape.rowMajor_val_two]; simp)

theorem drop_128x1 (x : S1x128x1.Idx → α) (h : S1x128x1.ShapeCasts S128x1) (r : Fin 128) (z : Fin 1) :
    shapeCast S128x1 x h (ix2 r z) = x (ix3 0 r 0) :=
  shapeCast_apply x h _ _ (by rw [Shape.rowMajor_val_three, Shape.rowMajor_val_two]; have := z.isLt; simp <;> omega)

/-- Adding a leading unit axis back. -/
theorem add_1x128x64 (y : S128x64.Idx → α) (h : S128x64.ShapeCasts S1x128x64) (z : Fin 1) (r : Fin 128) (e : Fin 64) :
    shapeCast S1x128x64 y h (ix3 z r e) = y (ix2 r e) :=
  shapeCast_apply y h _ _ (by rw [Shape.rowMajor_val_three, Shape.rowMajor_val_two]; have := z.isLt; simp <;> omega)

theorem add_1x128x1 (y : S128x1.Idx → α) (h : S128x1.ShapeCasts S1x128x1) (z : Fin 1) (r : Fin 128) (u : Fin 1) :
    shapeCast S1x128x1 y h (ix3 z r u) = y (ix2 r 0) :=
  shapeCast_apply y h _ _ (by rw [Shape.rowMajor_val_three, Shape.rowMajor_val_two]; have := z.isLt; have := u.isLt; simp <;> omega)

/-- A vector of 128 row statistics kept as a column. -/
theorem col_of_vec (y : S128.Idx → α) (h : S128.ShapeCasts S128x1) (r : Fin 128) (u : Fin 1) :
    shapeCast S128x1 y h (ix2 r u) = y (ix1 r) :=
  shapeCast_apply y h _ _ (by rw [Shape.rowMajor_val_two, Shape.rowMajor_val_one]; have := u.isLt; simp <;> omega)

/-- A column broadcast along the lanes. -/
theorem bcast_col_128 (w : S128x1.Idx → α) (h : S128x1.Broadcasts S128x128) (r c : Fin 128) :
    broadcastTo S128x128 w h (ix2 r c) = w (ix2 r 0) :=
  broadcastTo_apply w h _ _ (fun a => by match a with | ⟨0, _⟩ => rfl | ⟨1, _⟩ => rfl)

theorem bcast_col_64 (w : S128x1.Idx → α) (h : S128x1.Broadcasts S128x64) (r : Fin 128) (e : Fin 64) :
    broadcastTo S128x64 w h (ix2 r e) = w (ix2 r 0) :=
  broadcastTo_apply w h _ _ (fun a => by match a with | ⟨0, _⟩ => rfl | ⟨1, _⟩ => rfl)

/-- Feature column o of the query block, broadcast along the lanes. -/
theorem col_bcast (v : S128x64.Idx → α) (o : Nat) (ho : o < 64) (h1 : S128x64.Slices ![0, o] S128x1) (h2 : S128x1.Broadcasts S128x128)
    (r c : Fin 128) :
    broadcastTo S128x128 (extractStridedSlice S128x1 ![0, o] v h1) h2 (ix2 r c) = v (ix2 r ⟨o, ho⟩) := by
  rw [bcast_col_128]
  exact extractStridedSlice_apply _ v h1 _ _ (fun a => by match a with | ⟨0, _⟩ => simp | ⟨1, _⟩ => simp)

/-- Feature row o of the transposed key block, broadcast along the sublanes. -/
theorem row_bcast (v : S64x128.Idx → α) (o : Nat) (ho : o < 64) (h1 : S64x128.Slices ![o, 0] S1x128) (h2 : S1x128.Broadcasts S128x128)
    (r c : Fin 128) :
    broadcastTo S128x128 (extractStridedSlice S1x128 ![o, 0] v h1) h2 (ix2 r c) = v (ix2 ⟨o, ho⟩ c) := by
  rw [broadcastTo_apply _ h2 (ix2 r c) (ix2 0 c) (fun a => by match a with | ⟨0, _⟩ => rfl | ⟨1, _⟩ => rfl)]
  exact extractStridedSlice_apply _ v h1 _ _ (fun a => by match a with | ⟨0, _⟩ => simp | ⟨1, _⟩ => simp)

end Layout

theorem tanh_ap {s : Shape} {φ : FTy} (x : FVec Ideal s φ) (i : s.Idx) : tanh x i = Ideal.tanh (x i) := rfl
theorem exp_ap {s : Shape} {φ : FTy} (x : FVec Ideal s φ) (i : s.Idx) : exp x i = Ideal.exp (x i) := rfl

/-! ## The block of scores at an index -/

/-- Feature n's term of the score of row r against key c (n taken mod 64, so that it is defined for every natural n). -/
def term (x0 : Vec Ideal S1x128x64 .f32) (x1 : Vec Ideal S1x64x128 .f32) (r c : Fin 128) (n : ℕ) : EReal :=
  Ideal.tanh (x0 (ix3 0 r ⟨n % 64, Nat.mod_lt _ (by decide)⟩) + x1 (ix3 0 ⟨n % 64, Nat.mod_lt _ (by decide)⟩ c))

set_option maxHeartbeats 1600000 in
/-- The feature-by-feature accumulation, started from zero, is the sum of the 64 terms in order. -/
theorem scores_chain (x0 : Vec Ideal S1x128x64 .f32) (x1 : Vec Ideal S1x64x128 .f32) (r c : Fin 128) :
    scoresBlk x0 x1 (ix2 r c) = ∑ n ∈ Finset.range 64, term x0 x1 r c n := by
  simp only [Finset.sum_range_succ, Finset.sum_range_zero]
  unfold scoresBlk k0_pay24 k0_pay23 k0_pay22 k0_pay21 k0_pay20 k0_pay19 k0_pay18 k0_pay17 k0_pay16 k0_pay15 k0_pay14 k0_pay13 k0_pay12 k0_pay11 k0_pay10 k0_pay9 k0_pay8 k0_pay6 k0_pay5
  simp only [addf_apply, tanh_ap, broadcast_apply, drop_128x64, drop_64x128, col_bcast _ 0 (by decide), col_bcast _ 1 (by decide), col_bcast _ 2 (by decide), col_bcast _ 3 (by decide), col_bcast _ 4 (by decide), col_bcast _ 5 (by decide), col_bcast _ 6 (by decide), col_bcast _ 7 (by decide), col_bcast _ 8 (by decide), col_bcast _ 9 (by decide), col_bcast _ 10 (by decide), col_bcast _ 11 (by decide), col_bcast _ 12 (by decide), col_bcast _ 13 (by decide), col_bcast _ 14 (by decide), col_bcast _ 15 (by decide), col_bcast _ 16 (by decide), col_bcast _ 17 (by decide), col_bcast _ 18 (by decide), col_bcast _ 19 (by decide), col_bcast _ 20 (by decide), col_bcast _ 21 (by decide), col_bcast _ 22 (by decide), col_bcast _ 23 (by decide), col_bcast _ 24 (by decide), col_bcast _ 25 (by decide), col_bcast _ 26 (by decide), col_bcast _ 27 (by decide), col_bcast _ 28 (by decide), col_bcast _ 29 (by decide), col_bcast _ 30 (by decide), col_bcast _ 31 (by decide), col_bcast _ 32 (by decide), col_bcast _ 33 (by decide), col_bcast _ 34 (by decide), col_bcast _ 35 (by decide), col_bcast _ 36 (by decide), col_bcast _ 37 (by decide), col_bcast _ 38 (by decide), col_bcast _ 39 (by decide), col_bcast _ 40 (by decide), col_bcast _ 41 (by decide), col_bcast _ 42 (by decide), col_bcast _ 43 (by decide), col_bcast _ 44 (by decide), col_bcast _ 45 (by decide), col_bcast _ 46 (by decide), col_bcast _ 47 (by decide), col_bcast _ 48 (by decide), col_bcast _ 49 (by decide), col_bcast _ 50 (by decide), col_bcast _ 51 (by decide), col_bcast _ 52 (by decide), col_bcast _ 53 (by decide), col_bcast _ 54 (by decide), col_bcast _ 55 (by decide), col_bcast _ 56 (by decide), col_bcast _ 57 (by decide), col_bcast _ 58 (by decide), col_bcast _ 59 (by decide), col_bcast _ 60 (by decide), col_bcast _ 61 (by decide), col_bcast _ 62 (by decide), col_bcast _ 63 (by decide), row_bcast _ 0 (by decide), row_bcast _ 1 (by decide), row_bcast _ 2 (by decide), row_bcast _ 3 (by decide), row_bcast _ 4 (by decide), row_bcast _ 5 (by decide), row_bcast _ 6 (by decide), row_bcast _ 7 (by decide), row_bcast _ 8 (by decide), row_bcast _ 9 (by decide), row_bcast _ 10 (by decide), row_bcast _ 11 (by decide), row_bcast _ 12 (by decide), row_bcast _ 13 (by decide), row_bcast _ 14 (by decide), row_bcast _ 15 (by decide), row_bcast _ 16 (by decide), row_bcast _ 17 (by decide), row_bcast _ 18 (by decide), row_bcast _ 19 (by decide), row_bcast _ 20 (by decide), row_bcast _ 21 (by decide), row_bcast _ 22 (by decide), row_bcast _ 23 (by decide), row_bcast _ 24 (by decide), row_bcast _ 25 (by decide), row_bcast _ 26 (by decide), row_bcast _ 27 (by decide), row_bcast _ 28 (by decide), row_bcast _ 29 (by decide), row_bcast _ 30 (by decide), row_bcast _ 31 (by decide), row_bcast _ 32 (by decide), row_bcast _ 33 (by decide), row_bcast _ 34 (by decide), row_bcast _ 35 (by decide), row_bcast _ 36 (by decide), row_bcast _ 37 (by decide), row_bcast _ 38 (by decide), row_bcast _ 39 (by decide), row_bcast _ 40 (by decide), row_bcast _ 41 (by decide), row_bcast _ 42 (by decide), row_bcast _ 43 (by decide), row_bcast _ 44 (by decide), row_bcast _ 45 (by decide), row_bcast _ 46 (by decide), row_bcast _ 47 (by decide), row_bcast _ 48 (by decide), row_bcast _ 49 (by decide), row_bcast _ 50 (by decide), row_bcast _ 51 (by decide), row_bcast _ 52 (by decide), row_bcast _ 53 (by decide), row_bcast _ 54 (by decide), row_bcast _ 55 (by decide), row_bcast _ 56 (by decide), row_bcast _ 57 (by decide), row_bcast _ 58 (by decide), row_bcast _ 59 (by decide), row_bcast _ 60 (by decide), row_bcast _ 61 (by decide), row_bcast _ 62 (by decide), row_bcast _ 63 (by decide)]
  unfold term
  simp only [Nat.reduceMod, Ideal.ofBits_def, Ideal.ofBits_zero_f32]

/-- The block of scores at (r, c): the sum over the 64 features of tanh (query entry + key entry). -/
theorem scores_apply (x0 : Vec Ideal S1x128x64 .f32) (x1 : Vec Ideal S1x64x128 .f32) (r c : Fin 128) :
    scoresBlk x0 x1 (ix2 r c) = ∑ d : Fin 64, Ideal.tanh (x0 (ix3 0 r d) + x1 (ix3 0 d c)) := by
  rw [scores_chain, Finset.sum_range]
  refine Finset.sum_congr rfl fun d _ => ?_
  unfold term
  have e : (⟨d.val % 64, Nat.mod_lt _ (by decide)⟩ : Fin 64) = d := Fin.ext (Nat.mod_eq_of_lt d.isLt)
  rw [e]

/-! ## One point's values at an index -/

/-- The new running maximum of row r: the larger of the carried one and the largest score of the block's row. -/
def rowMaxNew (sc : FVec Ideal S128x128 .f32) (mp : Vec Ideal S1x128x1 .f32) (r : Fin 128) : EReal :=
  max (mp (ix3 0 r 0)) (⨆ c : Fin 128, sc (ix2 r c))

theorem max_at (sc : FVec Ideal S128x128 .f32) (mp : Vec Ideal S1x128x1 .f32) (r : Fin 128) (u : Fin 1) :
    k0_pay26 sc (k0_pay25 mp) (ix2 r u) = rowMaxNew sc mp r := by
  unfold k0_pay26 k0_pay25 rowMaxNew
  rw [maximumf_apply, drop_128x1, col_of_vec, ReduceExtremum.multiReduction_max_single_f32_printed]
  refine congrArg (max _) (iSup_congr fun k => ?_)
  exact congrArg sc (ReduceExtremum.lift_last2 reduces_S128x128_S128 (ix1 r) k)

theorem newMax_apply (x0 : Vec Ideal S1x128x64 .f32) (x1 : Vec Ideal S1x64x128 .f32) (mp : Vec Ideal S1x128x1 .f32)
    (z : Fin 1) (r : Fin 128) (u : Fin 1) :
    newMax x0 x1 mp (ix3 z r u) = rowMaxNew (scoresBlk x0 x1) mp r := by
  unfold newMax k0_pay31
  rw [add_1x128x1, max_at]

theorem rescale_at (sc : FVec Ideal S128x128 .f32) (mp : Vec Ideal S1x128x1 .f32) (r : Fin 128) (u : Fin 1) :
    k0_pay27 sc (k0_pay25 mp) (ix2 r u) = Ideal.exp (mp (ix3 0 r 0) - rowMaxNew sc mp r) := by
  unfold k0_pay27
  rw [exp_ap, subf_apply, max_at]
  unfold k0_pay25
  rw [drop_128x1]

theorem shifted_at (sc : FVec Ideal S128x128 .f32) (mp : Vec Ideal S1x128x1 .f32) (r c : Fin 128) :
    k0_pay28 sc (k0_pay25 mp) (ix2 r c) = Ideal.exp (sc (ix2 r c) - rowMaxNew sc mp r) := by
  unfold k0_pay28
  rw [exp_ap, subf_apply, bcast_col_128, max_at]

/-- The row sum of a 128×128 block kept as a vector, at row r. -/
theorem rowsum_at (src : FVec Ideal S128x128 .f32) (hφ : FKind.Formats .f32) (hacc : (0x00000000#32 : BitVec 32) = 0x00000000#32)
    (r : Fin 128) :
    multiReduction .add [1] S128 src 0x00000000#32 reduces_S128x128_S128 hφ hacc (ix1 r) = ∑ c : Fin 128, src (ix2 r c) := by
  refine (Ideal.multiReduction_add_single src 0x00000000#32 reduces_S128x128_S128 hφ hacc (ix1 r)).trans ?_
  exact Finset.sum_congr rfl fun k _ => congrArg src (ReduceExtremum.lift_last2 reduces_S128x128_S128 (ix1 r) k)

theorem newDen_apply (x0 : Vec Ideal S1x128x64 .f32) (x1 : Vec Ideal S1x64x128 .f32) (mp lp : Vec Ideal S1x128x1 .f32)
    (z : Fin 1) (r : Fin 128) (u : Fin 1) :
    newDen x0 x1 mp lp (ix3 z r u)
      = Ideal.exp (mp (ix3 0 r 0) - rowMaxNew (scoresBlk x0 x1) mp r) * lp (ix3 0 r 0)
        + ∑ c : Fin 128, Ideal.exp (scoresBlk x0 x1 (ix2 r c) - rowMaxNew (scoresBlk x0 x1) mp r) := by
  unfold newDen
  generalize scoresBlk x0 x1 = sc
  unfold k0_pay29
  rw [add_1x128x1, addf_apply, mulf_apply, rescale_at, drop_128x1, col_of_vec, rowsum_at]
  exact congrArg (_ + ·) (Finset.sum_congr rfl fun k _ => shifted_at sc mp r k)

/-- The plain 128×128 by 128×64 product into a zero accumulator, at an index. -/
theorem matmul_at (lhs : FVec Ideal S128x128 .bf16) (rhs : FVec Ideal S128x64 .bf16) (r : Fin 128) (e : Fin 64) :
    matmul dot_S128x128_S128x64_S128x64_1_0_0_1_n_n none lhs rhs (constant S128x64 .f32 0x00000000#32) (ix2 r e)
      = ∑ k : Fin 128, lhs (ix2 r k) * rhs (ix2 k e) :=
  Cert.LibPlainDot.plain_matmul_apply (M := 128) (K := 128) (N := 64) none lhs rhs (ix2 r e)

theorem newNum_apply (x0 : Vec Ideal S1x128x64 .f32) (x1 : Vec Ideal S1x64x128 .f32) (x2 : Vec Ideal S1x128x64 .f32)
    (mp : Vec Ideal S1x128x1 .f32) (ap : Vec Ideal S1x128x64 .f32) (z : Fin 1) (r : Fin 128) (e : Fin 64) :
    newNum x0 x1 x2 mp ap (ix3 z r e)
      = Ideal.exp (mp (ix3 0 r 0) - rowMaxNew (scoresBlk x0 x1) mp r) * ap (ix3 0 r e)
        + ∑ c : Fin 128, Ideal.exp (scoresBlk x0 x1 (ix2 r c) - rowMaxNew (scoresBlk x0 x1) mp r) * x2 (ix3 0 c e) := by
  unfold newNum
  generalize scoresBlk x0 x1 = sc
  unfold k0_pay30
  rw [add_1x128x64, addf_apply, mulf_apply, bcast_col_64, rescale_at, drop_128x64, matmul_at]
  refine congrArg (_ + ·) (Finset.sum_congr rfl fun k _ => ?_)
  rw [truncf_apply, truncf_apply, shifted_at]
  unfold k0_pay7
  rw [drop_128x64]

theorem outBlk_apply (a : Vec Ideal S1x128x64 .f32) (l : Vec Ideal S1x128x1 .f32) (z : Fin 1) (r : Fin 128) (e : Fin 64) :
    outBlk a l (ix3 z r e) = Ideal.div (a (ix3 0 r e)) (l (ix3 0 r 0)) := by
  unfold outBlk k0_pay1
  rw [add_1x128x64, divf_apply, drop_128x64, bcast_col_64, drop_128x1]

/-- The constants the first key block starts from: -inf for the maximum, zero for the two sums. -/
theorem init_max (i : S1x128x1.Idx) : (k0_pay2 : FVec Ideal S1x128x1 .f32) i = ⊥ := by
  unfold k0_pay2
  rw [shapeCast_self, broadcast_apply]
  exact ReduceExtremum.ofBits_negInf_f32

theorem init_den (i : S1x128x1.Idx) : (k0_pay3 : FVec Ideal S1x128x1 .f32) i = 0 := by
  unfold k0_pay3
  rw [shapeCast_self, broadcast_apply]
  exact Ideal.ofBits_zero_f32

theorem init_num (i : S1x128x64.Idx) : (k0_pay4 : FVec Ideal S1x128x64 .f32) i = 0 := by
  unfold k0_pay4
  rw [shapeCast_self, broadcast_apply]
  exact Ideal.ofBits_zero_f32

end Cert.KernelIdeal.Index
end
-- ==== Proof.AttnSpec.lean ====
/-
  Additive attention over the reals.

  A query row q and a key row k (both indexed by a feature d) have the score  sum over d of tanh (q d + k d).
  Given the scores s c of one query row against every key c and one column v c of the values, the output is the
  softmax-weighted sum   sum over c of  exp (s c - M) / (sum over c' of exp (s c' - M)) * v c ;
  the shift M is the row maximum in practice, but any real shift gives the same number.

  The same number can be accumulated block of keys after block of keys (the "running softmax"): hold a
  denominator and a numerator relative to the current shift mu n; when block n + 1 arrives, rescale both by
  exp (mu n - mu (n + 1)) and add the block's own shifted exponentials (times the values, for the numerator).
-/
import Mathlib.Analysis.SpecialFunctions.Exp
import Mathlib.Algebra.BigOperators.Fin
import Idealize.ShloMosaic.PureOps.Ideal

open scoped BigOperators

namespace Attn

/-- The additive score of a query row against a key row: the sum over features of tanh (q d + k d). -/
noncomputable def score {δ : Type} [Fintype δ] (q k : δ → ℝ) : ℝ := ∑ d, Real.tanh (q d + k d)

/-- The softmax-weighted sum of the values v under the scores s, every exponent shifted by M. -/
noncomputable def softmaxSum {κ : Type} [Fintype κ] (s v : κ → ℝ) (M : ℝ) : ℝ :=
  ∑ c, Real.exp (s c - M) / (∑ c', Real.exp (s c' - M)) * v c

/-- The running denominator after blocks 0 … n of scores S, relative to the shifts mu. -/
noncomputable def runDen {γ : Type} [Fintype γ] (μ : ℕ → ℝ) (S : ℕ → γ → ℝ) : ℕ → ℝ
  | 0 => ∑ c, Real.exp (S 0 c - μ 0)
  | n + 1 => Real.exp (μ n - μ (n + 1)) * runDen μ S n + ∑ c, Real.exp (S (n + 1) c - μ (n + 1))

/-- The running numerator after blocks 0 … n of scores S and values V, relative to the shifts mu. -/
noncomputable def runNum {γ : Type} [Fintype γ] (μ : ℕ → ℝ) (S V : ℕ → γ → ℝ) : ℕ → ℝ
  | 0 => ∑ c, Real.exp (S 0 c - μ 0) * V 0 c
  | n + 1 => Real.exp (μ n - μ (n + 1)) * runNum μ S V n + ∑ c, Real.exp (S (n + 1) c - μ (n + 1)) * V (n + 1) c

/-- Key c of block j among 4 blocks of 128 keys (the block number taken mod 4, so that it is defined for every natural j). -/
def key (j : ℕ) (c : Fin 128) : Fin 512 := ⟨(j % 4) * 128 + c.val, by have := c.isLt; have := Nat.mod_lt j (by norm_num : 4 > 0); omega⟩

end Attn
-- ==== Proof.LibBlockSum.lean ====
/-
  Sums over an index range cut into equal blocks, in any commutative additive monoid (the extended reals are one:
  addition there is commutative and associative, infinities included, so no finiteness is asked).

  An index below nb * bs is position r of block b, k = b * bs + r. A sum over all k is the sum over the blocks of
  each block's sum (sum_fin_blocks); and a running total that takes the blocks one after the other, block 0 first,
  has after block n the sum of blocks 0 .. n (acc_eq_sum_range), so after the last block the whole sum
  (sum_range_blocks). This is what a matrix product accumulated over column blocks computes, entry by entry.
-/
import Mathlib.Algebra.BigOperators.Fin
import Mathlib.Algebra.BigOperators.Intervals
import Mathlib.Logic.Equiv.Fin.Basic

namespace BlockSum

open Finset

variable {M : Type*} [AddCommMonoid M]

/-- Position r of block b is below nb * bs when b is below nb. -/
theorem pos_lt {nb bs : ℕ} (b : Fin nb) (r : Fin bs) : b.val * bs + r.val < nb * bs := by
  have h1 : (b.val + 1) * bs ≤ nb * bs := Nat.mul_le_mul_right bs b.isLt
  have h2 : b.val * bs + r.val < (b.val + 1) * bs := by rw [Nat.succ_mul]; exact Nat.add_lt_add_left r.isLt _
  exact lt_of_lt_of_le h2 h1

/-- A sum over nb * bs indices is the sum over the nb blocks of the sum over each block's bs positions. -/
theorem sum_fin_blocks (nb bs : ℕ) (f : Fin (nb * bs) → M) :
    ∑ k, f k = ∑ b : Fin nb, ∑ r : Fin bs, f ⟨b.val * bs + r.val, pos_lt b r⟩ := by
  rw [← Equiv.sum_comp finProdFinEquiv f, Fintype.sum_prod_type]
  refine Finset.sum_congr rfl fun b _ => Finset.sum_congr rfl fun r _ => congrArg f (Fin.ext ?_)
  show r.val + bs * b.val = b.val * bs + r.val
  rw [Nat.mul_comm, Nat.add_comm]

/-- Position r of block b as an index below nb * bs, wrapped around so that it is defined for every natural b. -/
def pos (nb bs : ℕ) (h : 0 < nb * bs) (b : ℕ) (r : Fin bs) : Fin (nb * bs) :=
  ⟨(b * bs + r.val) % (nb * bs), Nat.mod_lt _ h⟩

/-- Below nb blocks nothing wraps. -/
theorem pos_eq (nb bs : ℕ) (h : 0 < nb * bs) (b : Fin nb) (r : Fin bs) :
    pos nb bs h b.val r = ⟨b.val * bs + r.val, pos_lt b r⟩ :=
  Fin.ext (Nat.mod_eq_of_lt (pos_lt b r))

/-- The blocks taken one after the other: the sum of the first nb block sums is the whole sum. -/
theorem sum_range_blocks (nb bs : ℕ) (h : 0 < nb * bs) (f : Fin (nb * bs) → M) :
    ∑ b ∈ range nb, ∑ r : Fin bs, f (pos nb bs h b r) = ∑ k, f k := by
  rw [Finset.sum_range, sum_fin_blocks]
  exact Finset.sum_congr rfl fun b _ => Finset.sum_congr rfl fun r _ => by rw [pos_eq]

end BlockSum
-- ==== Proof.AttnMath.lean ====
/-
  The running softmax equals the plain softmax, over the reals.

  Unfolding the recurrence, the running denominator after blocks 0 .. n is the sum over those blocks of
  exp (S j c - mu n): every rescaling exp (mu j - mu (j + 1)) telescopes into the last shift. The same holds for
  the numerator with the factor V j c. With 4 blocks of 128 keys the double sum is a sum over all 512 keys.
  The softmax-weighted sum does not depend on its shift: exp (s c - M) = exp (s c - m) * exp (m - M) and the common
  factor exp (m - M) cancels between each weight's numerator and the normalising sum. Hence the quotient of the
  running numerator by the running denominator is the softmax-weighted sum, whatever the shifts were.
-/
import proofs.«161785_j28733331210438_2_alg».proof.Proof.AttnSpec
import proofs.«161785_j28733331210438_2_alg».proof.Proof.LibBlockSum

open scoped BigOperators

namespace Attn

/-- A sum of exponentials over a nonempty index type is positive. -/
theorem sum_exp_pos {γ : Type} [Fintype γ] [Nonempty γ] (f : γ → ℝ) : 0 < ∑ c, Real.exp (f c) :=
  Finset.sum_pos (fun c _ => Real.exp_pos _) Finset.univ_nonempty

/-- The running denominator is positive: it is a positive multiple of the previous one plus a sum of exponentials. -/
theorem runDen_pos {γ : Type} [Fintype γ] [Nonempty γ] (μ : ℕ → ℝ) (S : ℕ → γ → ℝ) (n : ℕ) :
    0 < runDen μ S n := by
  induction n with
  | zero =>
    rw [runDen]
    exact sum_exp_pos _
  | succ n ih =>
    rw [runDen]
    exact add_pos (mul_pos (Real.exp_pos _) ih) (sum_exp_pos _)

/-- The running denominator in closed form: all blocks so far, every exponent relative to the latest shift. -/
theorem runDen_closed {γ : Type} [Fintype γ] (μ : ℕ → ℝ) (S : ℕ → γ → ℝ) (n : ℕ) :
    runDen μ S n = ∑ j ∈ Finset.range (n + 1), ∑ c, Real.exp (S j c - μ n) := by
  induction n with
  | zero =>
    rw [runDen, Finset.sum_range_one]
  | succ n ih =>
    rw [runDen, ih, Finset.sum_range_succ _ (n + 1), Finset.mul_sum]
    congr 1
    refine Finset.sum_congr rfl fun j _ => ?_
    rw [Finset.mul_sum]
    refine Finset.sum_congr rfl fun c _ => ?_
    rw [← Real.exp_add]
    congr 1
    ring

/-- The running numerator in closed form. -/
theorem runNum_closed {γ : Type} [Fintype γ] (μ : ℕ → ℝ) (S V : ℕ → γ → ℝ) (n : ℕ) :
    runNum μ S V n = ∑ j ∈ Finset.range (n + 1), ∑ c, Real.exp (S j c - μ n) * V j c := by
  induction n with
  | zero =>
    rw [runNum, Finset.sum_range_one]
  | succ n ih =>
    rw [runNum, ih, Finset.sum_range_succ _ (n + 1), Finset.mul_sum]
    congr 1
    refine Finset.sum_congr rfl fun j _ => ?_
    rw [Finset.mul_sum]
    refine Finset.sum_congr rfl fun c _ => ?_
    rw [← mul_assoc, ← Real.exp_add]
    congr 2
    ring

/-- Summing over the 4 blocks and the 128 keys of each block is summing over all 512 keys. -/
theorem sum_key (f : Fin 512 → ℝ) :
    ∑ j ∈ Finset.range 4, ∑ c : Fin 128, f (key j c) = ∑ k, f k := by
  have h : 0 < 4 * 128 := by norm_num
  have hb := BlockSum.sum_range_blocks (M := ℝ) 4 128 h (fun k : Fin (4 * 128) => f k)
  rw [← hb]
  refine Finset.sum_congr rfl fun j _ => Finset.sum_congr rfl fun c _ => congrArg f (Fin.ext ?_)
  show (j % 4) * 128 + c.val = (j * 128 + c.val) % (4 * 128)
  have := c.isLt
  omega

/-- The softmax-weighted sum under any other shift m, written as one quotient. -/
theorem softmaxSum_shift {κ : Type} [Fintype κ] (s v : κ → ℝ) (M m : ℝ) :
    softmaxSum s v M = (∑ c, Real.exp (s c - m) * v c) / (∑ c, Real.exp (s c - m)) := by
  have hE : Real.exp (m - M) ≠ 0 := (Real.exp_pos _).ne'
  have hsplit : ∀ c, Real.exp (s c - M) = Real.exp (s c - m) * Real.exp (m - M) := by
    intro c
    rw [← Real.exp_add]
    congr 1
    ring
  unfold softmaxSum
  rw [Finset.sum_div]
  simp only [hsplit]
  rw [← Finset.sum_mul]
  refine Finset.sum_congr rfl fun c _ => ?_
  rw [mul_div_mul_right _ _ hE, div_mul_eq_mul_div]

/-- The running softmax over 4 blocks of 128 keys gives the softmax-weighted sum over the 512 keys. -/
theorem run_eq_softmaxSum (s v : Fin 512 → ℝ) (μ : ℕ → ℝ) (M : ℝ) :
    runNum μ (fun j c => s (key j c)) (fun j c => v (key j c)) 3
      / runDen μ (fun j c => s (key j c)) 3 = softmaxSum s v M := by
  have hN : runNum μ (fun j c => s (key j c)) (fun j c => v (key j c)) 3
      = ∑ k, Real.exp (s k - μ 3) * v k := by
    rw [runNum_closed]
    exact sum_key (fun k => Real.exp (s k - μ 3) * v k)
  have hD : runDen μ (fun j c => s (key j c)) 3 = ∑ k, Real.exp (s k - μ 3) := by
    rw [runDen_closed]
    exact sum_key (fun k => Real.exp (s k - μ 3))
  rw [hN, hD, softmaxSum_shift s v M (μ 3)]

end Attn
-- ==== Proof.LibSoftmaxPeak.lean ====
/-
  The peak of a softmax, over the reals and then over the extended reals.

  For a row of real scores `s k` with maximum `m`, the shifted exponentials `e k = exp (s k - m)` lie in
  `(0, 1]`, and the maximising column has `e k = exp 0 = 1`. So the row's sum `l = ∑ k, e k` is at
  least `1`, every softmax entry `e k / l` is positive and at most `1 / l`, and the bound is attained at
  the maximising column: the largest absolute value in the row is `1 / l`. Over several rows the largest
  absolute value of all softmax entries is the largest `1 / l r`, and because `x ↦ 1 / x` reverses the
  order of positive numbers that is `1 / (the smallest l r)`. The last section restates this with every
  quantity an extended real and the operations those of the exact (ideal) reading of floats: the
  supremum of `|e / l|` over all entries is `1` divided by the infimum of the row sums.
-/
import Mathlib.Analysis.SpecialFunctions.Exp
import Mathlib.Data.EReal.Basic
import Mathlib.Data.EReal.Operations
import Mathlib.Data.EReal.Inv
import Idealize.ShloMosaic.PureOps.Ideal

namespace Idealize.ShloMosaic.SoftmaxPeak

open Idealize.ShloMosaic
open scoped BigOperators

/-! ## Over the reals -/

section Real
variable {ρ κ : Type} [Fintype ρ] [Fintype κ] [Nonempty ρ] [Nonempty κ] (s : ρ → κ → ℝ)

/-- The maximum of row `r` of the scores. -/
noncomputable def rowMax (r : ρ) : ℝ := Finset.univ.sup' Finset.univ_nonempty (s r)

/-- The shifted exponential `exp (s r k - max of row r)`. -/
noncomputable def expShift (r : ρ) (k : κ) : ℝ := Real.exp (s r k - rowMax s r)

/-- The sum of row `r` of the shifted exponentials. -/
noncomputable def rowSum (r : ρ) : ℝ := ∑ k, expShift s r k

/-- Every score is at most its row's maximum. -/
theorem le_rowMax (r : ρ) (k : κ) : s r k ≤ rowMax s r := Finset.le_sup' (s r) (Finset.mem_univ k)

/-- The row's maximum is attained at some column. -/
theorem exists_eq_rowMax (r : ρ) : ∃ k, s r k = rowMax s r := by
  obtain ⟨k, _, hk⟩ := Finset.exists_mem_eq_sup' Finset.univ_nonempty (s r)
  exact ⟨k, hk.symm⟩

/-- A shifted exponential is positive. -/
theorem expShift_pos (r : ρ) (k : κ) : 0 < expShift s r k := Real.exp_pos _

/-- A shifted exponential is at most `1`: its exponent is at most `0`. -/
theorem expShift_le_one (r : ρ) (k : κ) : expShift s r k ≤ 1 :=
  Real.exp_le_one_iff.2 (sub_nonpos.2 (le_rowMax s r k))

/-- At a maximising column the shifted exponential is `exp 0 = 1`. -/
theorem expShift_eq_one {r : ρ} {k : κ} (hk : s r k = rowMax s r) : expShift s r k = 1 := by
  unfold expShift; rw [hk, sub_self, Real.exp_zero]

/-- (a) The row sum is at least `1`: the maximising column contributes `1` and every term is positive. -/
theorem one_le_rowSum (r : ρ) : 1 ≤ rowSum s r := by
  obtain ⟨k0, hk0⟩ := exists_eq_rowMax s r
  calc (1 : ℝ) = expShift s r k0 := (expShift_eq_one s hk0).symm
    _ ≤ ∑ k, expShift s r k :=
      Finset.single_le_sum (f := fun k => expShift s r k) (fun k _ => (expShift_pos s r k).le) (Finset.mem_univ k0)

/-- Hence the row sum is positive … -/
theorem rowSum_pos (r : ρ) : 0 < rowSum s r := lt_of_lt_of_le one_pos (one_le_rowSum s r)

/-- … and not zero. -/
theorem rowSum_ne_zero (r : ρ) : rowSum s r ≠ 0 := (rowSum_pos s r).ne'

/-- A softmax entry is positive, so its absolute value is itself. -/
theorem abs_softmax (r : ρ) (k : κ) : |expShift s r k / rowSum s r| = expShift s r k / rowSum s r :=
  abs_of_pos (div_pos (expShift_pos s r k) (rowSum_pos s r))

/-- A softmax entry is at most `1 / l r`. -/
theorem softmax_le (r : ρ) (k : κ) : expShift s r k / rowSum s r ≤ 1 / rowSum s r := by
  rw [div_eq_mul_inv, div_eq_mul_inv]
  exact mul_le_mul_of_nonneg_right (expShift_le_one s r k) (inv_nonneg.2 (rowSum_pos s r).le)

/-- (b) In each row the largest absolute value of a softmax entry is `1 / l r`, attained at the maximising column. -/
theorem sup'_abs_softmax_row (r : ρ) :
    Finset.univ.sup' Finset.univ_nonempty (fun k => |expShift s r k / rowSum s r|) = 1 / rowSum s r := by
  apply le_antisymm
  · refine Finset.sup'_le _ _ fun k _ => ?_
    rw [abs_softmax]; exact softmax_le s r k
  · obtain ⟨k0, hk0⟩ := exists_eq_rowMax s r
    have h : |expShift s r k0 / rowSum s r| = 1 / rowSum s r := by rw [abs_softmax, expShift_eq_one s hk0]
    rw [← h]
    exact Finset.le_sup' (fun k => |expShift s r k / rowSum s r|) (Finset.mem_univ k0)

/-- (c) Over all rows and columns the largest absolute value of a softmax entry is `1` over the smallest row sum. -/
theorem sup'_abs_softmax :
    Finset.univ.sup' Finset.univ_nonempty (fun rk : ρ × κ => |expShift s rk.1 rk.2 / rowSum s rk.1|)
      = 1 / Finset.univ.inf' Finset.univ_nonempty (rowSum s) := by
  obtain ⟨r0, _, hr0⟩ := Finset.exists_mem_eq_inf' Finset.univ_nonempty (rowSum s)
  have hmin : ∀ r, rowSum s r0 ≤ rowSum s r := fun r => hr0 ▸ Finset.inf'_le (rowSum s) (Finset.mem_univ r)
  rw [hr0]
  apply le_antisymm
  · refine Finset.sup'_le _ _ fun rk _ => ?_
    rw [abs_softmax]
    exact (softmax_le s rk.1 rk.2).trans (one_div_le_one_div_of_le (rowSum_pos s r0) (hmin rk.1))
  · obtain ⟨k0, hk0⟩ := exists_eq_rowMax s r0
    have h : |expShift s r0 k0 / rowSum s r0| = 1 / rowSum s r0 := by rw [abs_softmax, expShift_eq_one s hk0]
    rw [← h]
    exact Finset.le_sup' (fun rk : ρ × κ => |expShift s rk.1 rk.2 / rowSum s rk.1|) (Finset.mem_univ (r0, k0))

/-- The smallest row sum is itself at least `1`, hence not zero. -/
theorem one_le_inf'_rowSum : 1 ≤ Finset.univ.inf' Finset.univ_nonempty (rowSum s) :=
  (Finset.le_inf'_iff _ _).2 fun r _ => one_le_rowSum s r

end Real

/-! ## Finite suprema and sums of reals inside the extended reals -/

section Coe
variable {ι : Type} [Fintype ι]

/-- The supremum in the extended reals of finitely many reals (at least one) is their maximum. -/
theorem iSup_coe_eq_coe_sup' [Nonempty ι] (f : ι → ℝ) :
    ⨆ i, ((f i : ℝ) : EReal) = ((Finset.univ.sup' Finset.univ_nonempty f : ℝ) : EReal) := by
  apply le_antisymm
  · exact iSup_le fun i => EReal.coe_le_coe_iff.2 (Finset.le_sup' f (Finset.mem_univ i))
  · obtain ⟨i0, _, hi0⟩ := Finset.exists_mem_eq_sup' Finset.univ_nonempty f
    rw [hi0]
    exact le_iSup (fun i => ((f i : ℝ) : EReal)) i0

/-- The infimum in the extended reals of finitely many reals (at least one) is their minimum. -/
theorem iInf_coe_eq_coe_inf' [Nonempty ι] (f : ι → ℝ) :
    ⨅ i, ((f i : ℝ) : EReal) = ((Finset.univ.inf' Finset.univ_nonempty f : ℝ) : EReal) := by
  apply le_antisymm
  · obtain ⟨i0, _, hi0⟩ := Finset.exists_mem_eq_inf' Finset.univ_nonempty f
    rw [hi0]
    exact iInf_le (fun i => ((f i : ℝ) : EReal)) i0
  · exact le_iInf fun i => EReal.coe_le_coe_iff.2 (Finset.inf'_le f (Finset.mem_univ i))

/-- A finite sum of reals, taken in the extended reals, is the real sum. -/
theorem sum_coe (f : ι → ℝ) : ∑ i, ((f i : ℝ) : EReal) = ((∑ i, f i : ℝ) : EReal) := by
  classical
  induction (Finset.univ : Finset ι) using Finset.induction_on with
  | empty => simp
  | insert a S ha ih => rw [Finset.sum_insert ha, Finset.sum_insert ha, ih, EReal.coe_add]

/-- On a real, the ideal reading's absolute value `max x (-x)` is the real absolute value. -/
theorem max_neg_coe (q : ℝ) : max (q : EReal) (-(q : EReal)) = ((|q| : ℝ) : EReal) := by
  rw [← EReal.coe_neg, abs_eq_max_neg]
  exact (EReal.coe_strictMono.monotone.map_max).symm

end Coe

/-! ## Over the extended reals, with the ideal reading's operations -/

section Ideal
variable {ρ κ : Type} [Fintype ρ] [Fintype κ] [Nonempty ρ] [Nonempty κ]

/-- (d) The peak of a softmax in the exact reading. The scores `S r k` are finite (each is the real `s r k`);
    `M r` is the row's supremum, `E r k = exp (S r k - M r)` the shifted exponential, `L r = ∑ k, E r k` the row's sum,
    all extended reals. Then the supremum over every row and column of the absolute value `max x (-x)` of the
    quotient `E r k / L r` is `1` divided by the infimum of the row sums — division being the exact reading's
    `Ideal.div`, whose corner at a zero divisor is never met because every row sum is at least `1`. -/
theorem iSup_abs_softmax_eq_one_div_iInf (s : ρ → κ → ℝ)
    (S : ρ → κ → EReal) (hS : ∀ r k, S r k = ((s r k : ℝ) : EReal))
    (M : ρ → EReal) (hM : ∀ r, M r = ⨆ k, S r k)
    (E : ρ → κ → EReal) (hE : ∀ r k, E r k = Ideal.exp (S r k - M r))
    (L : ρ → EReal) (hL : ∀ r, L r = ∑ k, E r k) :
    (⨆ r, ⨆ k, max (Ideal.div (E r k) (L r)) (-(Ideal.div (E r k) (L r)))) = Ideal.div 1 (⨅ r, L r) := by
  have hM' : ∀ r, M r = ((rowMax s r : ℝ) : EReal) := fun r => by
    rw [hM]; simp only [hS]; exact iSup_coe_eq_coe_sup' (s r)
  have hE' : ∀ r k, E r k = ((expShift s r k : ℝ) : EReal) := fun r k => by
    rw [hE, hS, hM', ← EReal.coe_sub]; rfl
  have hL' : ∀ r, L r = ((rowSum s r : ℝ) : EReal) := fun r => by
    rw [hL]; simp only [hE']; exact sum_coe _
  have hq : ∀ r k, max (Ideal.div (E r k) (L r)) (-(Ideal.div (E r k) (L r)))
      = ((|expShift s r k / rowSum s r| : ℝ) : EReal) := fun r k => by
    rw [hE', hL', Ideal.div_coe (rowSum_ne_zero s r), ← EReal.coe_mul, max_neg_coe, mul_one_div]
  have hinf : (⨅ r, L r) = ((Finset.univ.inf' Finset.univ_nonempty (rowSum s) : ℝ) : EReal) := by
    simp only [hL']; exact iInf_coe_eq_coe_inf' (rowSum s)
  have hne : Finset.univ.inf' Finset.univ_nonempty (rowSum s) ≠ 0 :=
    (lt_of_lt_of_le one_pos (one_le_inf'_rowSum s)).ne'
  simp only [hq]
  rw [hinf, Ideal.div_coe hne, one_mul, ← sup'_abs_softmax s, ← iSup_coe_eq_coe_sup', iSup_prod]

/-- The same, for scores known only to be finite extended reals (neither `-∞` nor `+∞`). -/
theorem iSup_abs_softmax_eq_one_div_iInf_of_finite
    (S : ρ → κ → EReal) (hS : ∀ r k, S r k ≠ ⊥ ∧ S r k ≠ ⊤)
    (M : ρ → EReal) (hM : ∀ r, M r = ⨆ k, S r k)
    (E : ρ → κ → EReal) (hE : ∀ r k, E r k = Ideal.exp (S r k - M r))
    (L : ρ → EReal) (hL : ∀ r, L r = ∑ k, E r k) :
    (⨆ r, ⨆ k, max (Ideal.div (E r k) (L r)) (-(Ideal.div (E r k) (L r)))) = Ideal.div 1 (⨅ r, L r) :=
  iSup_abs_softmax_eq_one_div_iInf (fun r k => (S r k).toReal) S
    (fun r k => (EReal.coe_toReal (hS r k).2 (hS r k).1).symm) M hM E hE L hL

end Ideal

end Idealize.ShloMosaic.SoftmaxPeak
-- ==== Proof.AttnStep.lean ====
/-
  One step of the running softmax on real data, read in the extended reals.

  The extended reals add the two infinities to the reals; the exact reading's exponential sends -infinity to 0,
  its division by a nonzero real is the real division, and its hyperbolic tangent on a real is the real one.
  The running maximum starts at -infinity and the running sums at 0. On real scores the maximum of -infinity
  (or of an earlier real maximum) and the block's supremum is a real number, -infinity minus a real is -infinity
  whose exponential is 0, and every other quantity is a finite sum of products of reals. So each update of the
  denominator and of the numerator, and each score, is the corresponding real expression.
-/
import proofs.«161785_j28733331210438_2_alg».proof.Proof.AttnSpec
import proofs.«161785_j28733331210438_2_alg».proof.Proof.LibSoftmaxPeak

open scoped BigOperators
open Idealize.ShloMosaic

namespace Attn

/-! ## Exponential, division and maximum on reals inside the extended reals -/

/-- The exponential of a difference of two reals is the real exponential of the real difference. -/
theorem exp_coe_sub_coe (a b : ℝ) :
    Ideal.exp ((a : EReal) - (b : EReal)) = ((Real.exp (a - b) : ℝ) : EReal) := by
  rw [← EReal.coe_sub]
  rfl

/-- -infinity minus a real is -infinity, and its exponential is 0. -/
theorem exp_bot_sub_coe (b : ℝ) : Ideal.exp ((⊥ : EReal) - (b : EReal)) = 0 := by
  rw [EReal.bot_sub]
  rfl

/-- Division of a real by a nonzero real is the real quotient. -/
theorem div_coe_coe (a l : ℝ) (h : l ≠ 0) :
    Ideal.div (a : EReal) (l : EReal) = ((a / l : ℝ) : EReal) := by
  rw [Ideal.div_coe h, ← EReal.coe_mul, mul_one_div]

section Block
variable {γ : Type} [Fintype γ] [Nonempty γ]

/-- The largest score of a block. -/
noncomputable def blockMax (S : γ → ℝ) : ℝ := Finset.univ.sup' Finset.univ_nonempty S

/-- Starting from -infinity, the maximum with the block's supremum is the block's largest score. -/
theorem max_bot_iSup (S : γ → ℝ) :
    max (⊥ : EReal) (⨆ c, ((S c : ℝ) : EReal)) = ((blockMax S : ℝ) : EReal) := by
  rw [max_bot_left, SoftmaxPeak.iSup_coe_eq_coe_sup']
  rfl

/-- Starting from a real, the maximum with the block's supremum is the real maximum. -/
theorem max_coe_iSup (μp : ℝ) (S : γ → ℝ) :
    max ((μp : ℝ) : EReal) (⨆ c, ((S c : ℝ) : EReal)) = ((max μp (blockMax S) : ℝ) : EReal) := by
  rw [SoftmaxPeak.iSup_coe_eq_coe_sup']
  exact (EReal.coe_strictMono.monotone.map_max).symm

end Block

/-! ## The sums of one block -/

section Sums
variable {γ : Type} [Fintype γ]

/-- The block's sum of shifted exponentials is the real sum. -/
theorem sum_exp_coe (S : γ → ℝ) (μ : ℝ) :
    ∑ c, Ideal.exp (((S c : ℝ) : EReal) - (μ : EReal)) = ((∑ c, Real.exp (S c - μ) : ℝ) : EReal) := by
  simp only [exp_coe_sub_coe]
  exact SoftmaxPeak.sum_coe _

/-- The block's sum of shifted exponentials times values is the real sum. -/
theorem sum_exp_mul_coe (S W : γ → ℝ) (μ : ℝ) :
    ∑ c, Ideal.exp (((S c : ℝ) : EReal) - (μ : EReal)) * ((W c : ℝ) : EReal)
      = ((∑ c, Real.exp (S c - μ) * W c : ℝ) : EReal) := by
  simp only [exp_coe_sub_coe, ← EReal.coe_mul]
  exact SoftmaxPeak.sum_coe _

/-- First block, denominator: the rescaled start 0 contributes nothing. -/
theorem den_first' (S : γ → ℝ) (μ : ℝ) :
    Ideal.exp ((⊥ : EReal) - (μ : EReal)) * (0 : EReal)
        + ∑ c, Ideal.exp (((S c : ℝ) : EReal) - (μ : EReal))
      = ((∑ c, Real.exp (S c - μ) : ℝ) : EReal) := by
  rw [mul_zero, zero_add, sum_exp_coe]

/-- First block, denominator, the block's sum itself accumulated from 0. -/
theorem den_first (S : γ → ℝ) (μ : ℝ) :
    Ideal.exp ((⊥ : EReal) - (μ : EReal)) * (0 : EReal)
        + (0 + ∑ c, Ideal.exp (((S c : ℝ) : EReal) - (μ : EReal)))
      = ((∑ c, Real.exp (S c - μ) : ℝ) : EReal) := by
  rw [zero_add, den_first']

/-- First block, numerator. -/
theorem num_first' (S W : γ → ℝ) (μ : ℝ) :
    Ideal.exp ((⊥ : EReal) - (μ : EReal)) * (0 : EReal)
        + ∑ c, Ideal.exp (((S c : ℝ) : EReal) - (μ : EReal)) * ((W c : ℝ) : EReal)
      = ((∑ c, Real.exp (S c - μ) * W c : ℝ) : EReal) := by
  rw [mul_zero, zero_add, sum_exp_mul_coe]

/-- First block, numerator, the block's sum itself accumulated from 0. -/
theorem num_first (S W : γ → ℝ) (μ : ℝ) :
    Ideal.exp ((⊥ : EReal) - (μ : EReal)) * (0 : EReal)
        + (0 + ∑ c, Ideal.exp (((S c : ℝ) : EReal) - (μ : EReal)) * ((W c : ℝ) : EReal))
      = ((∑ c, Real.exp (S c - μ) * W c : ℝ) : EReal) := by
  rw [zero_add, num_first']

/-- Later block, denominator: the previous real denominator rescaled, plus the block's sum. -/
theorem den_next' (S : γ → ℝ) (μp μ lp : ℝ) :
    Ideal.exp ((μp : EReal) - (μ : EReal)) * (lp : EReal)
        + ∑ c, Ideal.exp (((S c : ℝ) : EReal) - (μ : EReal))
      = ((Real.exp (μp - μ) * lp + ∑ c, Real.exp (S c - μ) : ℝ) : EReal) := by
  rw [exp_coe_sub_coe, sum_exp_coe, ← EReal.coe_mul, ← EReal.coe_add]

/-- Later block, denominator, the block's sum itself accumulated from 0. -/
theorem den_next (S : γ → ℝ) (μp μ lp : ℝ) :
    Ideal.exp ((μp : EReal) - (μ : EReal)) * (lp : EReal)
        + (0 + ∑ c, Ideal.exp (((S c : ℝ) : EReal) - (μ : EReal)))
      = ((Real.exp (μp - μ) * lp + ∑ c, Real.exp (S c - μ) : ℝ) : EReal) := by
  rw [zero_add, den_next']

/-- Later block, numerator. -/
theorem num_next' (S W : γ → ℝ) (μp μ ap : ℝ) :
    Ideal.exp ((μp : EReal) - (μ : EReal)) * (ap : EReal)
        + ∑ c, Ideal.exp (((S c : ℝ) : EReal) - (μ : EReal)) * ((W c : ℝ) : EReal)
      = ((Real.exp (μp - μ) * ap + ∑ c, Real.exp (S c - μ) * W c : ℝ) : EReal) := by
  rw [exp_coe_sub_coe, sum_exp_mul_coe, ← EReal.coe_mul, ← EReal.coe_add]

/-- Later block, numerator, the block's sum itself accumulated from 0. -/
theorem num_next (S W : γ → ℝ) (μp μ ap : ℝ) :
    Ideal.exp ((μp : EReal) - (μ : EReal)) * (ap : EReal)
        + (0 + ∑ c, Ideal.exp (((S c : ℝ) : EReal) - (μ : EReal)) * ((W c : ℝ) : EReal))
      = ((Real.exp (μp - μ) * ap + ∑ c, Real.exp (S c - μ) * W c : ℝ) : EReal) := by
  rw [zero_add, num_next']

end Sums

/-! ## The score -/

/-- The additive score of two real rows, computed in the extended reals, is the real score. -/
theorem score_coe' {δ : Type} [Fintype δ] (q k : δ → ℝ) :
    ∑ d, Ideal.tanh (((q d : ℝ) : EReal) + ((k d : ℝ) : EReal)) = ((Attn.score q k : ℝ) : EReal) := by
  simp only [← EReal.coe_add, Ideal.tanh_coe]
  exact SoftmaxPeak.sum_coe _

/-- The same with the sum accumulated from 0. -/
theorem score_coe {δ : Type} [Fintype δ] (q k : δ → ℝ) :
    (0 : EReal) + ∑ d, Ideal.tanh (((q d : ℝ) : EReal) + ((k d : ℝ) : EReal))
      = ((Attn.score q k : ℝ) : EReal) := by
  rw [zero_add, score_coe']

end Attn
-- ==== Proof.AttnFold.lean ====
/-
  The running softmax, block after block, in the extended reals, on real data.

  The state after key block n is a running maximum, a running denominator and a running numerator. The maximum
  starts at -infinity, the two sums at 0; block n + 1 replaces the maximum by its maximum with the block's
  supremum, rescales both sums by the exponential of (old maximum - new maximum) and adds the block's shifted
  exponentials (times the values, for the numerator). On real scores and values every one of these extended reals
  is a real: the maximum after block n is the largest score seen so far, and the two sums are the real running
  denominator and numerator relative to these maxima. The denominator is positive, so the final division is the
  real one, and the quotient is the softmax-weighted sum of the values over all keys.
-/
import proofs.«161785_j28733331210438_2_alg».proof.Proof.AttnSpec
import proofs.«161785_j28733331210438_2_alg».proof.Proof.AttnMath
import proofs.«161785_j28733331210438_2_alg».proof.Proof.AttnStep

open scoped BigOperators
open Idealize.ShloMosaic

namespace Attn

section Fold
variable {γ : Type} [Fintype γ] [Nonempty γ]

/-- The largest score among blocks 0 .. n. -/
noncomputable def shift (S : ℕ → γ → ℝ) : ℕ → ℝ
  | 0 => blockMax (S 0)
  | n + 1 => max (shift S n) (blockMax (S (n + 1)))

/-- The running maximum after block n, started at -infinity. -/
noncomputable def kMax (S : ℕ → γ → ℝ) : ℕ → EReal
  | 0 => max (⊥ : EReal) (⨆ c, ((S 0 c : ℝ) : EReal))
  | n + 1 => max (kMax S n) (⨆ c, ((S (n + 1) c : ℝ) : EReal))

/-- The running denominator after block n, started at 0. -/
noncomputable def kDen (S : ℕ → γ → ℝ) : ℕ → EReal
  | 0 => Ideal.exp ((⊥ : EReal) - kMax S 0) * (0 : EReal)
      + ∑ c, Ideal.exp (((S 0 c : ℝ) : EReal) - kMax S 0)
  | n + 1 => Ideal.exp (kMax S n - kMax S (n + 1)) * kDen S n
      + ∑ c, Ideal.exp (((S (n + 1) c : ℝ) : EReal) - kMax S (n + 1))

/-- The running numerator after block n, started at 0. -/
noncomputable def kNum (S W : ℕ → γ → ℝ) : ℕ → EReal
  | 0 => Ideal.exp ((⊥ : EReal) - kMax S 0) * (0 : EReal)
      + ∑ c, Ideal.exp (((S 0 c : ℝ) : EReal) - kMax S 0) * ((W 0 c : ℝ) : EReal)
  | n + 1 => Ideal.exp (kMax S n - kMax S (n + 1)) * kNum S W n
      + ∑ c, Ideal.exp (((S (n + 1) c : ℝ) : EReal) - kMax S (n + 1)) * ((W (n + 1) c : ℝ) : EReal)

/-! ### The defining equations -/

theorem shift_zero (S : ℕ → γ → ℝ) : shift S 0 = blockMax (S 0) := rfl

theorem shift_succ (S : ℕ → γ → ℝ) (n : ℕ) :
    shift S (n + 1) = max (shift S n) (blockMax (S (n + 1))) := rfl

theorem kMax_zero (S : ℕ → γ → ℝ) :
    kMax S 0 = max (⊥ : EReal) (⨆ c, ((S 0 c : ℝ) : EReal)) := rfl

theorem kMax_succ (S : ℕ → γ → ℝ) (n : ℕ) :
    kMax S (n + 1) = max (kMax S n) (⨆ c, ((S (n + 1) c : ℝ) : EReal)) := rfl

theorem kDen_zero (S : ℕ → γ → ℝ) :
    kDen S 0 = Ideal.exp ((⊥ : EReal) - kMax S 0) * (0 : EReal)
      + ∑ c, Ideal.exp (((S 0 c : ℝ) : EReal) - kMax S 0) := rfl

theorem kDen_succ (S : ℕ → γ → ℝ) (n : ℕ) :
    kDen S (n + 1) = Ideal.exp (kMax S n - kMax S (n + 1)) * kDen S n
      + ∑ c, Ideal.exp (((S (n + 1) c : ℝ) : EReal) - kMax S (n + 1)) := rfl

theorem kNum_zero (S W : ℕ → γ → ℝ) :
    kNum S W 0 = Ideal.exp ((⊥ : EReal) - kMax S 0) * (0 : EReal)
      + ∑ c, Ideal.exp (((S 0 c : ℝ) : EReal) - kMax S 0) * ((W 0 c : ℝ) : EReal) := rfl

theorem kNum_succ (S W : ℕ → γ → ℝ) (n : ℕ) :
    kNum S W (n + 1) = Ideal.exp (kMax S n - kMax S (n + 1)) * kNum S W n
      + ∑ c, Ideal.exp (((S (n + 1) c : ℝ) : EReal) - kMax S (n + 1)) * ((W (n + 1) c : ℝ) : EReal) := rfl

/-! ### Every state is real -/

/-- The running maximum is the largest score so far. -/
theorem kMax_eq (S : ℕ → γ → ℝ) (n : ℕ) : kMax S n = ((shift S n : ℝ) : EReal) := by
  induction n with
  | zero => rw [kMax_zero, max_bot_iSup, shift_zero]
  | succ n ih => rw [kMax_succ, ih, max_coe_iSup, shift_succ]

/-- The running denominator is the real one, relative to the largest scores so far. -/
theorem kDen_eq (S : ℕ → γ → ℝ) (n : ℕ) : kDen S n = ((runDen (shift S) S n : ℝ) : EReal) := by
  induction n with
  | zero =>
    rw [kDen_zero, kMax_eq, den_first']
    rfl
  | succ n ih =>
    rw [kDen_succ, kMax_eq S n, kMax_eq S (n + 1), ih, den_next']
    rfl

/-- The running numerator is the real one, relative to the largest scores so far. -/
theorem kNum_eq (S W : ℕ → γ → ℝ) (n : ℕ) :
    kNum S W n = ((runNum (shift S) S W n : ℝ) : EReal) := by
  induction n with
  | zero =>
    rw [kNum_zero, kMax_eq, num_first']
    rfl
  | succ n ih =>
    rw [kNum_succ, kMax_eq S n, kMax_eq S (n + 1), ih, num_next']
    rfl

end Fold

/-- After the 4 blocks of 128 keys, numerator divided by denominator is the softmax-weighted sum over the 512 keys. -/
theorem kernel_out (s v : Fin 512 → ℝ) (M : ℝ) :
    Ideal.div (kNum (fun j c => s (key j c)) (fun j c => v (key j c)) 3)
        (kDen (fun j c => s (key j c)) 3)
      = ((softmaxSum s v M : ℝ) : EReal) := by
  have hpos : runDen (shift (fun j (c : Fin 128) => s (key j c))) (fun j c => s (key j c)) 3 ≠ 0 :=
    (runDen_pos _ _ 3).ne'
  rw [kNum_eq, kDen_eq, div_coe_coe _ _ hpos, run_eq_softmaxSum s v _ M]

end Attn
-- ==== Proof.KernelStep.lean ====
/-
  One key block's update of the three carried rows, on real-valued data: if the block's scores and values are real
  numbers and the carried maximum, denominator and numerator are the running-softmax state after n blocks, then the
  point leaves the state after n + 1 blocks; from the constants -inf, 0, 0 it leaves the state after the first block.
-/
import proofs.«161785_j28733331210438_2_alg».proof.Proof.KernelIndex
import proofs.«161785_j28733331210438_2_alg».proof.Proof.AttnFold

set_option maxRecDepth 16384

noncomputable section

namespace Cert.KernelIdeal.Step

open Cert.KernelIdeal Cert.KernelIdeal.Gen Cert.KernelIdeal.Pieces Cert.KernelIdeal.Index Idealize.ShloMosaic Idealize.ShloMosaic.ValueIdx
open scoped BigOperators

/-- A score of real query and key rows is the real additive score. -/
theorem scores_real (x0 : Vec Ideal S1x128x64 .f32) (x1 : Vec Ideal S1x64x128 .f32) (r c : Fin 128) (Q K : Fin 64 → ℝ)
    (hq : ∀ d, x0 (ix3 0 r d) = ((Q d : ℝ) : EReal)) (hk : ∀ d, x1 (ix3 0 d c) = ((K d : ℝ) : EReal)) :
    scoresBlk x0 x1 (ix2 r c) = ((Attn.score Q K : ℝ) : EReal) := by
  rw [scores_apply, ← Attn.score_coe' Q K]
  exact Finset.sum_congr rfl fun d _ => by rw [hq d, hk d]

/-- The first key block, from the constants -inf, 0, 0. -/
theorem step_first (x0 : Vec Ideal S1x128x64 .f32) (x1 : Vec Ideal S1x64x128 .f32) (x2 : Vec Ideal S1x128x64 .f32) (r : Fin 128)
    (S : ℕ → Fin 128 → ℝ) (W : Fin 64 → ℕ → Fin 128 → ℝ)
    (hs : ∀ c, scoresBlk x0 x1 (ix2 r c) = ((S 0 c : ℝ) : EReal))
    (hv : ∀ c e, x2 (ix3 0 c e) = ((W e 0 c : ℝ) : EReal)) :
    newMax x0 x1 (k0_pay2 (F := Ideal)) (ix3 0 r 0) = Attn.kMax S 0
      ∧ newDen x0 x1 (k0_pay2 (F := Ideal)) (k0_pay3 (F := Ideal)) (ix3 0 r 0) = Attn.kDen S 0
      ∧ ∀ e, newNum x0 x1 x2 (k0_pay2 (F := Ideal)) (k0_pay4 (F := Ideal)) (ix3 0 r e) = Attn.kNum S (W e) 0 := by
  have hM : rowMaxNew (scoresBlk x0 x1) (k0_pay2 (F := Ideal)) r = Attn.kMax S 0 := by
    unfold rowMaxNew
    rw [init_max, Attn.kMax_zero]
    exact congrArg (max ⊥) (iSup_congr fun c => hs c)
  refine ⟨?_, ?_, fun e => ?_⟩
  · rw [newMax_apply, hM]
  · rw [newDen_apply, hM, init_max, init_den, Attn.kDen_zero]
    exact congrArg (_ + ·) (Finset.sum_congr rfl fun c _ => by rw [hs c])
  · rw [newNum_apply, hM, init_max, init_num, Attn.kNum_zero]
    exact congrArg (_ + ·) (Finset.sum_congr rfl fun c _ => by rw [hs c, hv c e])

/-- A later key block, from the state after n blocks. -/
theorem step_next (x0 : Vec Ideal S1x128x64 .f32) (x1 : Vec Ideal S1x64x128 .f32) (x2 : Vec Ideal S1x128x64 .f32)
    (mp lp : Vec Ideal S1x128x1 .f32) (ap : Vec Ideal S1x128x64 .f32) (r : Fin 128)
    (S : ℕ → Fin 128 → ℝ) (W : Fin 64 → ℕ → Fin 128 → ℝ) (n : ℕ)
    (hs : ∀ c, scoresBlk x0 x1 (ix2 r c) = ((S (n + 1) c : ℝ) : EReal))
    (hv : ∀ c e, x2 (ix3 0 c e) = ((W e (n + 1) c : ℝ) : EReal))
    (hm : mp (ix3 0 r 0) = Attn.kMax S n) (hl : lp (ix3 0 r 0) = Attn.kDen S n)
    (ha : ∀ e, ap (ix3 0 r e) = Attn.kNum S (W e) n) :
    newMax x0 x1 mp (ix3 0 r 0) = Attn.kMax S (n + 1)
      ∧ newDen x0 x1 mp lp (ix3 0 r 0) = Attn.kDen S (n + 1)
      ∧ ∀ e, newNum x0 x1 x2 mp ap (ix3 0 r e) = Attn.kNum S (W e) (n + 1) := by
  have hM : rowMaxNew (scoresBlk x0 x1) mp r = Attn.kMax S (n + 1) := by
    unfold rowMaxNew
    rw [hm, Attn.kMax_succ]
    exact congrArg (max _) (iSup_congr fun c => hs c)
  refine ⟨?_, ?_, fun e => ?_⟩
  · rw [newMax_apply, hM]
  · rw [newDen_apply, hM, hm, hl, Attn.kDen_succ]
    exact congrArg (_ + ·) (Finset.sum_congr rfl fun c _ => by rw [hs c])
  · rw [newNum_apply, hM, hm, ha e, Attn.kNum_succ]
    exact congrArg (_ + ·) (Finset.sum_congr rfl fun c _ => by rw [hs c, hv c e])

end Cert.KernelIdeal.Step
end
-- ==== Proof.KernelInvariant.lean ====
/-
  What the three carried rows hold after every grid point. Point n works on batch n / 16, query block n / 4 mod 4 and key
  block n mod 4. After it, row r of the carried maximum, denominator and numerator is the running-softmax state after key
  blocks 0 … n mod 4 of that batch's query row — by induction on the point: at a first key block the body starts from the
  constants -inf, 0, 0; at a later one from what the point before left. At a last key block the output block is numerator over
  denominator.
-/
import proofs.«161785_j28733331210438_2_alg».proof.Proof.KernelStep

set_option maxRecDepth 16384

noncomputable section

namespace Cert.KernelIdeal.Invariant

open Cert.KernelIdeal Cert.KernelIdeal.Gen Cert.KernelIdeal.Pieces Cert.KernelIdeal.Index Cert.KernelIdeal.Step
open Idealize.ShloMosaic Idealize.ShloMosaic.TcCoe Idealize.ShloMosaic.ValueIdx
open scoped BigOperators

variable (m : (ℓ : Loc nD τ sig) → Buf (Elt Ideal) ℓ) (c : Dev nD) (q k v : S8x512x64.Idx → ℝ)

/-- The batch a point works on. -/
def batchOf (n : ℕ) : Fin 8 := ⟨n / 16 % 8, Nat.mod_lt _ (by decide)⟩

/-- The query row that row r of a point's block is. -/
def rowOf (n : ℕ) (r : Fin 128) : Fin 512 := ⟨((n / 4 % 4) * 128 + r.val) % 512, Nat.mod_lt _ (by decide)⟩

/-- The scores of query row R of batch b against key block j. -/
def blockScores (b : Fin 8) (R : Fin 512) : ℕ → Fin 128 → ℝ :=
  fun j cc => Attn.score (fun d => q (ix3 b R d)) (fun d => k (ix3 b (Attn.key j cc) d))

/-- Column e of the values of key block j of batch b. -/
def blockValues (b : Fin 8) : Fin 64 → ℕ → Fin 128 → ℝ := fun e j cc => v (ix3 b (Attn.key j cc) e)

/-- The three carried rows after point n are the running-softmax state after key blocks 0 … n mod 4. -/
def Holds (n : ℕ) (hn : n < cfg0.N) : Prop :=
  ∀ r : Fin 128,
    (outsAt0 m c n hn).2.1 (ix3 0 r 0) = Attn.kMax (blockScores q k (batchOf n) (rowOf n r)) (n % 4)
    ∧ (outsAt0 m c n hn).2.2.1 (ix3 0 r 0) = Attn.kDen (blockScores q k (batchOf n) (rowOf n r)) (n % 4)
    ∧ ∀ e : Fin 64, (outsAt0 m c n hn).2.2.2 (ix3 0 r e)
        = Attn.kNum (blockScores q k (batchOf n) (rowOf n r)) (blockValues v (batchOf n) e) (n % 4)

/-! ## The case equations at a point, over the step functions -/

set_option maxHeartbeats 1000000 in
/-- At a first key block the carried rows are the step functions of the point's blocks and the constants. -/
theorem parts_first (n : ℕ) (hn : n < cfg0.N) (h0 : n % 4 = 0) (h1 : ¬ n % 4 = 3) :
    (outsAt0 m c n hn).2.1 = newMax (iblk m c 0 (⟨n, hn⟩ : Fin cfg0.N)) (iblk m c 1 (⟨n, hn⟩ : Fin cfg0.N)) (k0_pay2 (F := Ideal))
    ∧ (outsAt0 m c n hn).2.2.1 = newDen (iblk m c 0 (⟨n, hn⟩ : Fin cfg0.N)) (iblk m c 1 (⟨n, hn⟩ : Fin cfg0.N)) (k0_pay2 (F := Ideal)) (k0_pay3 (F := Ideal))
    ∧ (outsAt0 m c n hn).2.2.2 = newNum (iblk m c 0 (⟨n, hn⟩ : Fin cfg0.N)) (iblk m c 1 (⟨n, hn⟩ : Fin cfg0.N)) (iblk m c 2 (⟨n, hn⟩ : Fin cfg0.N)) (k0_pay2 (F := Ideal)) (k0_pay4 (F := Ideal)) := by
  have hA : outsAt0 m c n hn = _ := outsAt0_A m c (⟨n, hn⟩ : Fin cfg0.N) h0 h1
  exact ⟨(congrArg (fun p => p.2.1) hA).trans (sout0_A_0_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))),
    (congrArg (fun p => p.2.2.1) hA).trans (sout0_A_1_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N))),
    (congrArg (fun p => p.2.2.2) hA).trans (sout0_A_2_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) ((hcond0_0 (⟨n, hn⟩ : Fin cfg0.N)).mpr h0) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)))⟩

set_option maxHeartbeats 1000000 in
/-- At a middle key block they are the step functions of the point's blocks and what the point before left. -/
theorem parts_middle (n : ℕ) (hn : n < cfg0.N) (h0 : ¬ n % 4 = 0) (h1 : ¬ n % 4 = 3) (hp : n - 1 < cfg0.N) :
    (outsAt0 m c n hn).2.1 = newMax (iblk m c 0 (⟨n, hn⟩ : Fin cfg0.N)) (iblk m c 1 (⟨n, hn⟩ : Fin cfg0.N)) (outsAt0 m c (n - 1) hp).2.1
    ∧ (outsAt0 m c n hn).2.2.1 = newDen (iblk m c 0 (⟨n, hn⟩ : Fin cfg0.N)) (iblk m c 1 (⟨n, hn⟩ : Fin cfg0.N)) (outsAt0 m c (n - 1) hp).2.1 (outsAt0 m c (n - 1) hp).2.2.1
    ∧ (outsAt0 m c n hn).2.2.2 = newNum (iblk m c 0 (⟨n, hn⟩ : Fin cfg0.N)) (iblk m c 1 (⟨n, hn⟩ : Fin cfg0.N)) (iblk m c 2 (⟨n, hn⟩ : Fin cfg0.N)) (outsAt0 m c (n - 1) hp).2.1 (outsAt0 m c (n - 1) hp).2.2.2 := by
  have hB : outsAt0 m c n hn = _ := outsAt0_B m c (⟨n, hn⟩ : Fin cfg0.N) h0 h1
  exact ⟨(congrArg (fun p => p.2.1) hB).trans (sout0_B_0_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (outsAt0 m c (n - 1) hp).2.1 (outsAt0 m c (n - 1) hp).2.2.1 (outsAt0 m c (n - 1) hp).2.2.2),
    (congrArg (fun p => p.2.2.1) hB).trans (sout0_B_1_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (outsAt0 m c (n - 1) hp).2.1 (outsAt0 m c (n - 1) hp).2.2.1 (outsAt0 m c (n - 1) hp).2.2.2),
    (congrArg (fun p => p.2.2.2) hB).trans (sout0_B_2_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) (fun h => h0 ((hcond0_0 (⟨n, hn⟩ : Fin cfg0.N)).mp h)) (fun h => h1 ((hcond0_1 (⟨n, hn⟩ : Fin cfg0.N)).mp h)) (iblk m c 0 (⟨n, hn⟩ : Fin cfg0.N)) (iblk m c 1 (⟨n, hn⟩ : Fin cfg0.N)) (iblk m c 2 (⟨n, hn⟩ : Fin cfg0.N)) (outsAt0 m c (n - 1) hp).2.1 (outsAt0 m c (n - 1) hp).2.2.1 (outsAt0 m c (n - 1) hp).2.2.2)⟩

set_option maxHeartbeats 1000000 in
/-- At a last key block likewise, and the output block is the quotient of the new numerator and denominator. -/
theorem parts_last (n : ℕ) (hn : n < cfg0.N) (h0 : ¬ n % 4 = 0) (h1 : n % 4 = 3) (hp : n - 1 < cfg0.N) :
    (outsAt0 m c n hn).2.1 = newMax (iblk m c 0 (⟨n, hn⟩ : Fin cfg0.N)) (iblk m c 1 (⟨n, hn⟩ : Fin cfg0.N)) (outsAt0 m c (n - 1) hp).2.1
    ∧ (outsAt0 m c n hn).2.2.1 = newDen (iblk m c 0 (⟨n, hn⟩ : Fin cfg0.N)) (iblk m c 1 (⟨n, hn⟩ : Fin cfg0.N)) (outsAt0 m c (n - 1) hp).2.1 (outsAt0 m c (n - 1) hp).2.2.1
    ∧ (outsAt0 m c n hn).2.2.2 = newNum (iblk m c 0 (⟨n, hn⟩ : Fin cfg0.N)) (iblk m c 1 (⟨n, hn⟩ : Fin cfg0.N)) (iblk m c 2 (⟨n, hn⟩ : Fin cfg0.N)) (outsAt0 m c (n - 1) hp).2.1 (outsAt0 m c (n - 1) hp).2.2.2 := by
  have hC : outsAt0 m c n hn = _ := outsAt0_C m c (⟨n, hn⟩ : Fin cfg0.N) h0 h1
  exact ⟨(congrArg (fun p => p.2.1) hC).trans (sout0_C_0_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (outsAt0 m c (n - 1) hp).2.1 (outsAt0 m c (n - 1) hp).2.2.1 (outsAt0 m c (n - 1) hp).2.2.2),
    (congrArg (fun p => p.2.2.1) hC).trans (sout0_C_1_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (outsAt0 m c (n - 1) hp).2.1 (outsAt0 m c (n - 1) hp).2.2.1 (outsAt0 m c (n - 1) hp).2.2.2),
    (congrArg (fun p => p.2.2.2) hC).trans (sout0_C_2_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (outsAt0 m c (n - 1) hp).2.1 (outsAt0 m c (n - 1) hp).2.2.1 (outsAt0 m c (n - 1) hp).2.2.2)⟩

set_option maxHeartbeats 1000000 in
theorem parts_last_out (n : ℕ) (hn : n < cfg0.N) (h0 : ¬ n % 4 = 0) (h1 : n % 4 = 3) (hp : n - 1 < cfg0.N) :
    (outsAt0 m c n hn).1 = outBlk (newNum (iblk m c 0 (⟨n, hn⟩ : Fin cfg0.N)) (iblk m c 1 (⟨n, hn⟩ : Fin cfg0.N)) (iblk m c 2 (⟨n, hn⟩ : Fin cfg0.N)) (outsAt0 m c (n - 1) hp).2.1 (outsAt0 m c (n - 1) hp).2.2.2) (newDen (iblk m c 0 (⟨n, hn⟩ : Fin cfg0.N)) (iblk m c 1 (⟨n, hn⟩ : Fin cfg0.N)) (outsAt0 m c (n - 1) hp).2.1 (outsAt0 m c (n - 1) hp).2.2.1) := by
  have hC : outsAt0 m c n hn = _ := outsAt0_C m c (⟨n, hn⟩ : Fin cfg0.N) h0 h1
  exact (congrArg (fun p => p.1) hC).trans (out0_C_3_eq c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) (fun h => h0 ((hcond0_0 (⟨n, hn⟩ : Fin cfg0.N)).mp h)) ((hcond0_1 (⟨n, hn⟩ : Fin cfg0.N)).mpr h1) (iblk m c 0 (⟨n, hn⟩ : Fin cfg0.N)) (iblk m c 1 (⟨n, hn⟩ : Fin cfg0.N)) (iblk m c 2 (⟨n, hn⟩ : Fin cfg0.N)) (outsAt0 m c (n - 1) hp).2.1 (outsAt0 m c (n - 1) hp).2.2.1 (outsAt0 m c (n - 1) hp).2.2.2)

section
variable (hb0 : ∀ (t : Fin cfg0.N) (r : Fin 128) (d : Fin 64),
    (iblk m c 0 t : Vec Ideal S1x128x64 .f32) (ix3 0 r d) = ((q (ix3 (batchOf t.val) (rowOf t.val r) d) : ℝ) : EReal))
  (hb1 : ∀ (t : Fin cfg0.N) (d : Fin 64) (cc : Fin 128),
    (iblk m c 1 t : Vec Ideal S1x64x128 .f32) (ix3 0 d cc) = ((k (ix3 (batchOf t.val) (Attn.key (t.val % 4) cc) d) : ℝ) : EReal))
  (hb2 : ∀ (t : Fin cfg0.N) (cc : Fin 128) (e : Fin 64),
    (iblk m c 2 t : Vec Ideal S1x128x64 .f32) (ix3 0 cc e) = ((v (ix3 (batchOf t.val) (Attn.key (t.val % 4) cc) e) : ℝ) : EReal))
include hb0 hb1 hb2

/-- A point's block of scores is real: the scores of its query rows against its key block. -/
theorem scores_at (n : ℕ) (hn : n < cfg0.N) (r cc : Fin 128) :
    scoresBlk (iblk m c 0 (⟨n, hn⟩ : Fin cfg0.N)) (iblk m c 1 (⟨n, hn⟩ : Fin cfg0.N)) (ix2 r cc)
      = ((blockScores q k (batchOf n) (rowOf n r) (n % 4) cc : ℝ) : EReal) :=
  scores_real (iblk m c 0 (⟨n, hn⟩ : Fin cfg0.N)) (iblk m c 1 (⟨n, hn⟩ : Fin cfg0.N)) r cc _ _ (fun d => hb0 (⟨n, hn⟩ : Fin cfg0.N) r d) (fun d => hb1 (⟨n, hn⟩ : Fin cfg0.N) d cc)

theorem holds_first (n : ℕ) (hn : n < cfg0.N) (h0 : n % 4 = 0) : Holds m c q k v n hn := by
  intro r
  have h1 : ¬ n % 4 = 3 := by omega
  obtain ⟨e0, e1, e2⟩ := parts_first m c n hn h0 h1
  have st := step_first (iblk m c 0 (⟨n, hn⟩ : Fin cfg0.N)) (iblk m c 1 (⟨n, hn⟩ : Fin cfg0.N)) (iblk m c 2 (⟨n, hn⟩ : Fin cfg0.N)) r (blockScores q k (batchOf n) (rowOf n r)) (blockValues v (batchOf n))
    (fun cc => by rw [scores_at m c q k v hb0 hb1 hb2 n hn r cc, h0])
    (fun cc e => by rw [hb2 (⟨n, hn⟩ : Fin cfg0.N) cc e]; show _ = ((v (ix3 (batchOf n) (Attn.key 0 cc) e) : ℝ) : EReal); rw [show (⟨n, hn⟩ : Fin cfg0.N).val % 4 = 0 from h0])
  rw [e0, e1, e2, h0]
  exact st

theorem holds_next (n : ℕ) (hn : n < cfg0.N) (h0 : ¬ n % 4 = 0) (hp : n - 1 < cfg0.N) (ih : Holds m c q k v (n - 1) hp) :
    Holds m c q k v n hn := by
  intro r
  obtain ⟨n', hn'⟩ : ∃ n', n % 4 = n' + 1 := ⟨n % 4 - 1, by omega⟩
  have hprev : (n - 1) % 4 = n' := by omega
  have hb : batchOf (n - 1) = batchOf n := Fin.ext (by show (n - 1) / 16 % 8 = n / 16 % 8; omega)
  have hr : rowOf (n - 1) r = rowOf n r := Fin.ext (by show ((n - 1) / 4 % 4 * 128 + r.val) % 512 = (n / 4 % 4 * 128 + r.val) % 512; omega)
  obtain ⟨i0, i1, i2⟩ := ih r
  rw [hb, hr, hprev] at i0 i1 i2
  have hs : ∀ cc, scoresBlk (iblk m c 0 (⟨n, hn⟩ : Fin cfg0.N)) (iblk m c 1 (⟨n, hn⟩ : Fin cfg0.N)) (ix2 r cc) = ((blockScores q k (batchOf n) (rowOf n r) (n' + 1) cc : ℝ) : EReal) :=
    fun cc => by rw [scores_at m c q k v hb0 hb1 hb2 n hn r cc, hn']
  have hv : ∀ cc e, ((iblk m c 2 (⟨n, hn⟩ : Fin cfg0.N)) : Vec Ideal S1x128x64 .f32) (ix3 0 cc e) = ((blockValues v (batchOf n) e (n' + 1) cc : ℝ) : EReal) :=
    fun cc e => by rw [hb2 (⟨n, hn⟩ : Fin cfg0.N) cc e]; show _ = ((v (ix3 (batchOf n) (Attn.key (n' + 1) cc) e) : ℝ) : EReal); rw [show (⟨n, hn⟩ : Fin cfg0.N).val % 4 = n' + 1 from hn']
  have st := step_next (iblk m c 0 (⟨n, hn⟩ : Fin cfg0.N)) (iblk m c 1 (⟨n, hn⟩ : Fin cfg0.N)) (iblk m c 2 (⟨n, hn⟩ : Fin cfg0.N)) (outsAt0 m c (n - 1) hp).2.1 (outsAt0 m c (n - 1) hp).2.2.1 (outsAt0 m c (n - 1) hp).2.2.2 r (blockScores q k (batchOf n) (rowOf n r)) (blockValues v (batchOf n)) n' hs hv i0 i1 i2
  by_cases h1 : n % 4 = 3
  · obtain ⟨e0, e1, e2⟩ := parts_last m c n hn h0 h1 hp
    rw [e0, e1, e2, hn']
    exact st
  · obtain ⟨e0, e1, e2⟩ := parts_middle m c n hn h0 h1 hp
    rw [e0, e1, e2, hn']
    exact st

/-- After every point the carried rows are the running-softmax state. -/
theorem holds_all : ∀ (n : ℕ) (hn : n < cfg0.N), Holds m c q k v n hn := by
  intro n
  induction n using Nat.strong_induction_on with
  | _ n ih =>
    intro hn
    by_cases h0 : n % 4 = 0
    · exact holds_first m c q k v hb0 hb1 hb2 n hn h0
    · have hp : n - 1 < cfg0.N := lt_of_le_of_lt (Nat.sub_le _ _) hn
      exact holds_next m c q k v hb0 hb1 hb2 n hn h0 hp (ih (n - 1) (by omega) hp)

/-- At a last key block the output block is numerator over denominator of the completed running softmax. -/
theorem out_last (n : ℕ) (hn : n < cfg0.N) (h1 : n % 4 = 3) (r : Fin 128) (e : Fin 64) :
    (outsAt0 m c n hn).1 (ix3 0 r e)
      = Ideal.div (Attn.kNum (blockScores q k (batchOf n) (rowOf n r)) (blockValues v (batchOf n) e) 3)
          (Attn.kDen (blockScores q k (batchOf n) (rowOf n r)) 3) := by
  have h0 : ¬ n % 4 = 0 := by omega
  have hp : n - 1 < cfg0.N := lt_of_le_of_lt (Nat.sub_le _ _) hn
  have eo := parts_last_out m c n hn h0 h1 hp
  obtain ⟨_, e1, e2⟩ := parts_last m c n hn h0 h1 hp
  obtain ⟨_, j1, j2⟩ := holds_all m c q k v hb0 hb1 hb2 n hn r
  rw [eo, outBlk_apply, ← e1, ← e2, j1, j2 e, h1]

end

end Cert.KernelIdeal.Invariant
end
-- ==== Proof.KernelOutput.lean ====
/-
  From the write-backs to the whole output array.

  The grid has 8 * 4 * 4 points; point t has batch t / 16, query block t / 4 % 4 and key block t % 4. The output
  window's block at point t is the 128 rows from (t / 4 % 4) * 128 of batch t / 16, all 64 columns, and it is
  written back exactly at the points with t % 4 = 3, the last key block of each query block. Every row R of every
  batch b lies in the block of the point b * 16 + (R / 128) * 4 + 3, which writes back. So if what each of those
  points writes back is its block of one array G, the output array ends holding G.
-/
import proofs.«161785_j28733331210438_2_alg».proof.Proof.Gen.KernelIdeal.Value
import Idealize.ShloMosaic.Lib.ValueIdx

noncomputable section

namespace Cert.KernelIdeal.Output

open Cert.KernelIdeal Cert.KernelIdeal.Gen Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ)

/-- A point of the grid is below 128. -/
theorem lt128 (t : Fin cfg0.N) : t.val < 128 := lt_of_lt_of_eq t.isLt (show cfg0.N = 128 from N_0)

/-- The output window's block index at point t, decided over the grid: (t / 16, t / 4 % 4, 0). -/
theorem idx3 : ∀ t : Fin cfg0.N, win0_3.index t (0 : Fin 3) = t.val / 16
    ∧ win0_3.index t (1 : Fin 3) = t.val / 4 % 4
    ∧ win0_3.index t (2 : Fin 3) = 0 :=
  (by decide +kernel : ∀ t : Fin grid0.N, win0_3.index t (0 : Fin 3) = t.val / 16
    ∧ win0_3.index t (1 : Fin 3) = t.val / 4 % 4
    ∧ win0_3.index t (2 : Fin 3) = 0)

/-- An index of the array is in point t's block iff each coordinate is in the block's range on its axis. -/
theorem mem_blk3 (t : Fin cfg0.N) (i : S8x512x64.Idx) :
    i ∈ ((cfg0.win 3).blk t).view.set ↔ ∀ a : Fin 3, win0_3.index t a * S1x128x64.size a ≤ (i a).val
      ∧ (i a).val < win0_3.index t a * S1x128x64.size a + S1x128x64.size a := by
  show i ∈ ((View.whole main_v1).slice (win0_3.rect t)).set ↔ _
  rw [View.set_slice_whole, Rect.mem_set_unit]
  exact Iff.rfl

/-- Every index of the output array lies in the block of a point that writes back. -/
theorem cover3 (i : S8x512x64.Idx) :
    ∃ t : Fin cfg0.N, (cfg0.win 3).flush t = true ∧ i ∈ ((cfg0.win 3).blk t).view.set := by
  have h0 : (i 0).val < 8 := (i 0).isLt
  have h1 : (i 1).val < 512 := (i 1).isLt
  have h2 : (i 2).val < 64 := (i 2).isLt
  have hN : (i 0).val * 16 + (i 1).val / 128 * 4 + 3 < cfg0.N :=
    lt_of_lt_of_eq (by omega : (i 0).val * 16 + (i 1).val / 128 * 4 + 3 < 128) (show 128 = cfg0.N from N_0.symm)
  obtain ⟨e0, e1, e2⟩ := idx3 ⟨_, hN⟩
  have e0' : win0_3.index ⟨_, hN⟩ (0 : Fin 3) = ((i 0).val * 16 + (i 1).val / 128 * 4 + 3) / 16 := e0
  have e1' : win0_3.index ⟨_, hN⟩ (1 : Fin 3) = ((i 0).val * 16 + (i 1).val / 128 * 4 + 3) / 4 % 4 := e1
  refine ⟨⟨_, hN⟩, (flush0_3 _).mpr (by show ((i 0).val * 16 + (i 1).val / 128 * 4 + 3) % 4 = 3; omega), ?_⟩
  rw [mem_blk3]
  intro a
  match a with
  | ⟨0, _⟩ =>
    show win0_3.index ⟨_, hN⟩ (0 : Fin 3) * 1 ≤ (i 0).val ∧ (i 0).val < win0_3.index ⟨_, hN⟩ (0 : Fin 3) * 1 + 1
    rw [e0']; omega
  | ⟨1, _⟩ =>
    show win0_3.index ⟨_, hN⟩ (1 : Fin 3) * 128 ≤ (i 1).val ∧ (i 1).val < win0_3.index ⟨_, hN⟩ (1 : Fin 3) * 128 + 128
    rw [e1']; omega
  | ⟨2, _⟩ =>
    show win0_3.index ⟨_, hN⟩ (2 : Fin 3) * 64 ≤ (i 2).val ∧ (i 2).val < win0_3.index ⟨_, hN⟩ (2 : Fin 3) * 64 + 64
    rw [e2]; omega

/-- What a point that writes back writes is its block of G, when the run's contents for the window there are G's
    entries at the block's rows. -/
theorem flushed3_eq (c : Dev nD) (G : S8x512x64.Idx → Elt F .f32)
    (hG : ∀ (t : Fin cfg0.N), t.val % 4 = 3 → ∀ (r : Fin 128) (e : Fin 64),
      ((outsAt0 m c t.val t.isLt).1 : Vec F S1x128x64 .f32) (ix3 0 r e)
        = G (ix3 (⟨t.val / 16, by have := lt128 t; omega⟩ : Fin 8)
            (⟨(t.val / 4 % 4) * 128 + r.val, by have := r.isLt; omega⟩ : Fin 512) e))
    (t : Fin cfg0.N) (hf : (cfg0.win 3).flush t = true) :
    (dats m 0 c).flushed 3 t = ((cfg0.win 3).blk t).view.read (Elt F) G := by
  have h3 : t.val % 4 = 3 := (flush0_3 t).mp hf
  obtain ⟨e0, e1, e2⟩ := idx3 t
  rw [Value.flushed3]
  funext j
  have hj0 : (j 0).val < 1 := (j 0).isLt
  have hj1 : (j 1).val < 128 := (j 1).isLt
  have hj2 : (j 2).val < 64 := (j 2).isLt
  show (outsAt0 m c t.val t.isLt).1 (win0_3.xinj (grid0.coords t) j) = G (((cfg0.win 3).blk t).view.emb j)
  have ex : win0_3.xinj (grid0.coords t) j = ix3 (0 : Fin 1) (⟨(j 1).val, hj1⟩ : Fin 128) (⟨(j 2).val, hj2⟩ : Fin 64) := by
    funext a; apply Fin.ext
    match a with
    | ⟨0, _⟩ => show (j 0).val = 0; omega
    | ⟨1, _⟩ => rfl
    | ⟨2, _⟩ => rfl
  have eg : ((cfg0.win 3).blk t).view.emb j
      = ix3 (⟨t.val / 16, by have := lt128 t; omega⟩ : Fin 8)
          (⟨(t.val / 4 % 4) * 128 + (j 1).val, by omega⟩ : Fin 512) (⟨(j 2).val, hj2⟩ : Fin 64) := by
    funext a; apply Fin.ext
    match a with
    | ⟨0, _⟩ => show win0_3.index t (0 : Fin 3) * 1 + 1 * (j 0).val = t.val / 16; omega
    | ⟨1, _⟩ => show win0_3.index t (1 : Fin 3) * 128 + 1 * (j 1).val = (t.val / 4 % 4) * 128 + (j 1).val; omega
    | ⟨2, _⟩ => show win0_3.index t (2 : Fin 3) * 64 + 1 * (j 2).val = (j 2).val; omega
  rw [ex, eg]
  exact hG t h3 ⟨(j 1).val, hj1⟩ ⟨(j 2).val, hj2⟩

/-- THE OUTPUT ARRAY after the run is G, when at every point with t % 4 = 3 the run's contents for the output window
    are G's entries at rows (t / 4 % 4) * 128 + r of batch t / 16. -/
theorem arr_eq (c : Dev nD) (G : S8x512x64.Idx → Elt F .f32)
    (hG : ∀ (t : Fin cfg0.N), t.val % 4 = 3 → ∀ (r : Fin 128) (e : Fin 64),
      ((outsAt0 m c t.val t.isLt).1 : Vec F S1x128x64 .f32) (ix3 0 r e)
        = G (ix3 (⟨t.val / 16, by have := lt128 t; omega⟩ : Fin 8)
            (⟨(t.val / 4 % 4) * 128 + r.val, by have := r.isLt; omega⟩ : Fin 512) e)) :
    (dats m 0 c).arrAt 3 cfg0.N = G :=
  (dats m 0 c).arrAt_eq_of_cover 3 G (fun t hf => flushed3_eq m c G hG t hf) cover3

end Cert.KernelIdeal.Output

end
-- ==== Proof.KernelBlocks.lean ====
/-
  The input blocks as entries of the argument arrays.

  The grid has 8 * 4 * 4 points; point t has batch t / 16, query block t / 4 % 4 and key block t % 4. At point t the
  query window holds rows (t / 4 % 4) * 128 + r of batch t / 16 of the first argument; the key window holds, of the
  transposed second argument (features by keys), all 64 features of keys (t % 4) * 128 + c, that is entry
  (key, feature) of the second argument itself; the value window holds rows (t % 4) * 128 + c of the third argument.
-/
import proofs.«161785_j28733331210438_2_alg».proof.Proof.Gen.KernelIdeal.Frame
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.ShloMosaic.ValueIdx
open Idealize.SL.Sem

variable {F : FTy → Type} [FloatOps F]
variable (m : (ℓ : Loc nD τ sig) → Buf (Elt F) ℓ)

/-- A point of the grid is below 128. -/
theorem lt128 (t : Fin cfg0.N) : t.val < 128 := lt_of_lt_of_eq t.isLt (show cfg0.N = 128 from N_0)

/-- The three input windows' block indices at point t, decided over the grid: the query window is at
    (t / 16, t / 4 % 4, 0), the key window at (t / 16, 0, t % 4), the value window at (t / 16, t % 4, 0). -/
theorem idx_in : ∀ t : Fin cfg0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = 0 ∧ win0_1.index t (2 : Fin 3) = t.val % 4
    ∧ win0_2.index t (0 : Fin 3) = t.val / 16 ∧ win0_2.index t (1 : Fin 3) = t.val % 4 ∧ win0_2.index t (2 : Fin 3) = 0 :=
  (by decide +kernel : ∀ t : Fin grid0.N,
    win0_0.index t (0 : Fin 3) = t.val / 16 ∧ win0_0.index t (1 : Fin 3) = t.val / 4 % 4 ∧ win0_0.index t (2 : Fin 3) = 0
    ∧ win0_1.index t (0 : Fin 3) = t.val / 16 ∧ win0_1.index t (1 : Fin 3) = 0 ∧ win0_1.index t (2 : Fin 3) = t.val % 4
    ∧ win0_2.index t (0 : Fin 3) = t.val / 16 ∧ win0_2.index t (1 : Fin 3) = t.val % 4 ∧ win0_2.index t (2 : Fin 3) = 0)

/-- The key window's array, as the region finds it, is the second argument with its last two axes exchanged. -/
theorem V_main_v0 (c : Dev nD) :
    (V m c main_v0 : S8x64x512.Idx → Elt F .f32)
      = transpose S8x64x512 [0, 2, 1] (m ((c : Thread nD τ).loc main_arg1)) Facts₀.transposes_S8x512x64_S8x64x512_0_2_1 := by
  dsimp only [Gen.V, Gen.hostOps0]; after_results

/-- The query block at point t: local row r, feature d is entry (t / 16, (t / 4 % 4) * 128 + r, d) of the first argument. -/
theorem blk0 (c : Dev nD) (t : Fin cfg0.N) (r : Fin 128) (d : Fin 64) :
    (iblk m c 0 t : Vec F S1x128x64 .f32) (ix3 0 r d)
      = m ((c : Thread nD τ).loc main_arg0) (ix3 (⟨t.val / 16, by have := lt128 t; omega⟩ : Fin 8)
          (⟨(t.val / 4 % 4) * 128 + r.val, by have := r.isLt; omega⟩ : Fin 512) d) := by
  obtain ⟨e0, e1, e2, -⟩ := idx_in t
  show V m c main_arg0 (((cfg0.win 0).blk t).view.emb (ix3 0 r d)) = _
  rw [V_main_arg0]
  refine congrArg (m ((c : Thread nD τ).loc main_arg0)) (funext fun a => Fin.ext ?_)
  match a with
  | ⟨0, _⟩ => show win0_0.index t (0 : Fin 3) * 1 + 1 * 0 = t.val / 16; omega
  | ⟨1, _⟩ => show win0_0.index t (1 : Fin 3) * 128 + 1 * r.val = (t.val / 4 % 4) * 128 + r.val; omega
  | ⟨2, _⟩ => show win0_0.index t (2 : Fin 3) * 64 + 1 * d.val = d.val; omega

/-- The key block at point t: feature d, local key cc is entry (t / 16, (t % 4) * 128 + cc, d) of the second argument. -/
theorem blk1 (c : Dev nD) (t : Fin cfg0.N) (d : Fin 64) (cc : Fin 128) :
    (iblk m c 1 t : Vec F S1x64x128 .f32) (ix3 0 d cc)
      = m ((c : Thread nD τ).loc main_arg1) (ix3 (⟨t.val / 16, by have := lt128 t; omega⟩ : Fin 8)
          (⟨(t.val % 4) * 128 + cc.val, by have := cc.isLt; omega⟩ : Fin 512) d) := by
  obtain ⟨-, -, -, e0, e1, e2, -⟩ := idx_in t
  show V m c main_v0 (((cfg0.win 1).blk t).view.emb (ix3 0 d cc)) = _
  rw [V_main_v0]
  refine transpose_apply [0, 2, 1] _ _ _ _ (fun b => ?_)
  match b with
  | ⟨0, _⟩ => show t.val / 16 = win0_1.index t (0 : Fin 3) * 1 + 1 * 0; omega
  | ⟨1, _⟩ => show d.val = win0_1.index t (1 : Fin 3) * 64 + 1 * d.val; omega
  | ⟨2, _⟩ => show (t.val % 4) * 128 + cc.val = win0_1.index t (2 : Fin 3) * 128 + 1 * cc.val; omega

/-- The value block at point t: local key cc, column e is entry (t / 16, (t % 4) * 128 + cc, e) of the third argument. -/
theorem blk2 (c : Dev nD) (t : Fin cfg0.N) (cc : Fin 128) (e : Fin 64) :
    (iblk m c 2 t : Vec F S1x128x64 .f32) (ix3 0 cc e)
      = m ((c : Thread nD τ).loc main_arg2) (ix3 (⟨t.val / 16, by have := lt128 t; omega⟩ : Fin 8)
          (⟨(t.val % 4) * 128 + cc.val, by have := cc.isLt; omega⟩ : Fin 512) e) := by
  obtain ⟨-, -, -, -, -, -, e0, e1, e2⟩ := idx_in t
  show V m c main_arg2 (((cfg0.win 2).blk t).view.emb (ix3 0 cc e)) = _
  rw [V_main_arg2]
  refine congrArg (m ((c : Thread nD τ).loc main_arg2)) (funext fun a => Fin.ext ?_)
  match a with
  | ⟨0, _⟩ => show win0_2.index t (0 : Fin 3) * 1 + 1 * 0 = t.val / 16; omega
  | ⟨1, _⟩ => show win0_2.index t (1 : Fin 3) * 128 + 1 * cc.val = (t.val % 4) * 128 + cc.val; omega
  | ⟨2, _⟩ => show win0_2.index t (2 : Fin 3) * 64 + 1 * e.val = e.val; omega

end Cert.KernelIdeal.Blocks

end
-- ==== Proof.RefValue.lean ====
/-
  The reference side of additive attention, read over the reals.

  The reference computes, for a batch b, a query row r and a key row c, the score
  sum over d of tanh (q[b,r,d] + k[b,c,d]) (times the constant one), subtracts from every score of
  the row the row's maximum, exponentiates, divides by the row's sum of exponentials and contracts with
  the values. For real inputs every intermediate is a real number; the output at (b, r, e) is the
  softmax-weighted sum of the column e of the values under the scores of row r, shifted by the row maximum.
-/
import proofs.«161785_j28733331210438_2_alg».proof.Proof.Gen.ReferenceIdeal.Read
import proofs.«161785_j28733331210438_2_alg».proof.Proof.AttnSpec
import proofs.«161785_j28733331210438_2_alg».proof.Proof.LibReduceExtremum
import proofs.«161785_j28733331210438_2_alg».proof.Proof.LibSoftmaxPeak
import Idealize.ShloMosaic.Lib.IdealHost

noncomputable section

namespace Cert.RefValue

open Idealize.ShloMosaic Idealize.ShloMosaic.ValueIdx
open Cert.ReferenceIdeal Cert.ReferenceIdeal.Read
open scoped BigOperators

/-- The inputs as extended reals. -/
abbrev up (x : S8x512x64.Idx → ℝ) : S8x512x64.Idx → EReal := fun i => ((x i : ℝ) : EReal)

/-- The real score of query row r against key row c in batch b. -/
abbrev sc (q k : S8x512x64.Idx → ℝ) (b : Fin 8) (r c : Fin 512) : ℝ :=
  Attn.score (fun d : Fin 64 => q (ix3 b r d)) (fun d : Fin 64 => k (ix3 b c d))

/-- One summand of a score: the product of the constant one with tanh of the sum of the two features. -/
theorem v7_at (q k : S8x512x64.Idx → ℝ) (b : Fin 8) (r c : Fin 512) (d : Fin 64) :
    val_main_v7 (F := Ideal) (up q) (up k) (ix4 b r c d)
      = ((Real.tanh (q (ix3 b r d) + k (ix3 b c d)) : ℝ) : EReal) := by
  rw [val_main_v7_apply, val_main_v6_apply, val_main_cst_apply, val_main_v5_apply, val_main_v4_apply,
    val_main_v2_apply, val_main_v0_apply, val_main_v3_apply, val_main_v1_apply]
  have e0 : idx_main_v0 (idx_main_v2 (ix4 b r c d)) = ix3 b r d := by
    funext a; apply Fin.ext; match a with | ⟨0, _⟩ => rfl | ⟨1, _⟩ => rfl | ⟨2, _⟩ => rfl
  have e1 : idx_main_v1 (idx_main_v3 (ix4 b r c d)) = ix3 b c d := by
    funext a; apply Fin.ext; match a with | ⟨0, _⟩ => rfl | ⟨1, _⟩ => rfl | ⟨2, _⟩ => rfl
  rw [e0, e1]
  simp only [Ideal.ofBits_def, Ideal.mulf_def, Ideal.hostUnary_tanh_def, Ideal.addf_def, Ideal.ofBits_one_f32, one_mul]
  rw [← EReal.coe_add, Ideal.tanh_coe]

/-- A score is the real additive score. -/
theorem v8_at (q k : S8x512x64.Idx → ℝ) (b : Fin 8) (r c : Fin 512) :
    val_main_v8 (F := Ideal) (up q) (up k) (ix3 b r c) = ((sc q k b r c : ℝ) : EReal) := by
  rw [val_main_v8_apply, val_main_cst_0_apply]
  have e : ∀ d : Fin 64, idx_main_v8 (ix3 b r c) d = ix4 b r c d := fun d => by
    funext a; apply Fin.ext; match a with | ⟨0, _⟩ => rfl | ⟨1, _⟩ => rfl | ⟨2, _⟩ => rfl | ⟨3, _⟩ => rfl
  simp only [e, v7_at, Ideal.ofBits_def, Ideal.ofBits_zero_f32, zero_add]
  exact SoftmaxPeak.sum_coe _

/-- Rank 3, last axis dropped: the index over (b, r) with coordinate c on the last axis is (b, r, c). -/
theorem lift_last3 {n0 n1 n2 : Nat}
    (h : (⟨3, ![n0, n1, n2]⟩ : Shape).Reduces [2] (⟨2, ![n0, n1]⟩ : Shape))
    (j : (⟨2, ![n0, n1]⟩ : Shape).Idx) (k : Fin n2) : h.lift j k = ix3 (j 0) (j 1) k := by
  funext c; apply Fin.ext
  match c with | ⟨0, _⟩ => rfl | ⟨1, _⟩ => rfl | ⟨2, _⟩ => rfl

/-- The maximum of the real scores of query row r in batch b. -/
abbrev rowMax (q k : S8x512x64.Idx → ℝ) (b : Fin 8) (r : Fin 512) : ℝ :=
  Finset.univ.sup' Finset.univ_nonempty (fun c : Fin 512 => sc q k b r c)

/-- The maximum-reduction from minus infinity over the keys is the real row maximum. -/
theorem v9_at (q k : S8x512x64.Idx → ℝ) (b : Fin 8) (r : Fin 512) :
    val_main_v9 (F := Ideal) (up q) (up k) (ix2 b r) = ((rowMax q k b r : ℝ) : EReal) := by
  have h : S8x512x512.Reduces [2] S8x512 := by decide
  have e : ∀ c : Fin 512, h.lift (ix2 b r) c = ix3 b r c := fun c => lift_last3 h (ix2 b r) c
  unfold val_main_v9 val_main_cst_1
  rw [ReduceExtremum.hostReduce_max_single_negInf _ _ h]
  show (⨆ c : Fin 512, val_main_v8 (F := Ideal) (up q) (up k) (h.lift (ix2 b r) c)) = _
  simp only [e, v8_at]
  exact SoftmaxPeak.iSup_coe_eq_coe_sup' _

/-- Taking the maximum with minus infinity changes nothing. -/
theorem v11_at (q k : S8x512x64.Idx → ℝ) (b : Fin 8) (r : Fin 512) :
    val_main_v11 (F := Ideal) (up q) (up k) (ix2 b r) = ((rowMax q k b r : ℝ) : EReal) := by
  rw [val_main_v11_apply, val_main_v10_apply, val_main_cst_2_apply, v9_at]
  simp only [Ideal.ofBits_def, Ideal.maximumf_def, ReduceExtremum.ofBits_negInf_f32]
  exact max_bot_left _

/-- The shifted exponential of a score. -/
theorem v15_at (q k : S8x512x64.Idx → ℝ) (b : Fin 8) (r c : Fin 512) :
    val_main_v15 (F := Ideal) (up q) (up k) (ix3 b r c)
      = ((Real.exp (sc q k b r c - rowMax q k b r) : ℝ) : EReal) := by
  rw [val_main_v15_apply, val_main_v14_apply, val_main_v13_apply, val_main_v12_apply, v8_at]
  have e : idx_main_v12 (idx_main_v13 (ix3 b r c)) = ix2 b r := by
    funext a; apply Fin.ext; match a with | ⟨0, _⟩ => rfl | ⟨1, _⟩ => rfl
  rw [e, v11_at]
  simp only [Ideal.subf_def, Ideal.hostUnary_exp_def]
  rw [← EReal.coe_sub, Ideal.exp_coe]

/-- The sum of the shifted exponentials of row r. -/
abbrev rowSum (q k : S8x512x64.Idx → ℝ) (b : Fin 8) (r : Fin 512) : ℝ :=
  ∑ c : Fin 512, Real.exp (sc q k b r c - rowMax q k b r)

theorem rowSum_pos (q k : S8x512x64.Idx → ℝ) (b : Fin 8) (r : Fin 512) : 0 < rowSum q k b r :=
  Finset.sum_pos (fun c _ => Real.exp_pos _) Finset.univ_nonempty

theorem v16_at (q k : S8x512x64.Idx → ℝ) (b : Fin 8) (r : Fin 512) :
    val_main_v16 (F := Ideal) (up q) (up k) (ix2 b r) = ((rowSum q k b r : ℝ) : EReal) := by
  rw [val_main_v16_apply, val_main_cst_3_apply]
  have e : ∀ c : Fin 512, idx_main_v16 (ix2 b r) c = ix3 b r c := fun c => by
    funext a; apply Fin.ext; match a with | ⟨0, _⟩ => rfl | ⟨1, _⟩ => rfl | ⟨2, _⟩ => rfl
  simp only [e, v15_at, Ideal.ofBits_def, Ideal.ofBits_zero_f32, zero_add]
  exact SoftmaxPeak.sum_coe _

/-- A softmax weight: the shifted exponential over the row sum. -/
theorem v19_at (q k : S8x512x64.Idx → ℝ) (b : Fin 8) (r c : Fin 512) :
    val_main_v19 (F := Ideal) (up q) (up k) (ix3 b r c)
      = ((Real.exp (sc q k b r c - rowMax q k b r) / rowSum q k b r : ℝ) : EReal) := by
  rw [val_main_v19_apply, val_main_v18_apply, val_main_v17_apply, v15_at]
  have e : idx_main_v17 (idx_main_v18 (ix3 b r c)) = ix2 b r := by
    funext a; apply Fin.ext; match a with | ⟨0, _⟩ => rfl | ⟨1, _⟩ => rfl
  rw [e, v16_at]
  simp only [Ideal.hostDivf_def]
  rw [Ideal.div_coe (rowSum_pos q k b r).ne', ← EReal.coe_mul, mul_one_div]

/-- The reference's output at (b, r, e) for real inputs: the softmax-weighted sum of column e of the values under the
    scores of query row r, every exponent shifted by the row maximum. -/
theorem ref_value (q k v : Cert.ReferenceIdeal.S8x512x64.Idx → ℝ) (b : Fin 8) (r : Fin 512) (e : Fin 64) :
    ∃ M : ℝ, Cert.ReferenceIdeal.Read.val_main_v20 (F := Ideal) (fun i => ((q i : ℝ) : EReal)) (fun i => ((k i : ℝ) : EReal)) (fun i => ((v i : ℝ) : EReal)) (ix3 b r e)
      = ((Attn.softmaxSum (fun c : Fin 512 => Attn.score (fun d : Fin 64 => q (ix3 b r d)) (fun d : Fin 64 => k (ix3 b c d))) (fun c : Fin 512 => v (ix3 b c e)) M : ℝ) : EReal) := by
  refine ⟨rowMax q k b r, ?_⟩
  rw [val_main_v20_apply]
  have el : ∀ c : Fin 512, lidx_main_v20 (ix3 b r e) c = ix3 b r c := fun c => by
    funext a; apply Fin.ext; match a with | ⟨0, _⟩ => rfl | ⟨1, _⟩ => rfl | ⟨2, _⟩ => rfl
  have er : ∀ c : Fin 512, ridx_main_v20 (ix3 b r e) c = ix3 b c e := fun c => by
    funext a; apply Fin.ext; match a with | ⟨0, _⟩ => rfl | ⟨1, _⟩ => rfl | ⟨2, _⟩ => rfl
  simp only [el, er]
  have hv := fun c : Fin 512 => v19_at q k b r c
  simp only [up] at hv
  simp only [hv, ← EReal.coe_mul]
  exact SoftmaxPeak.sum_coe _

end Cert.RefValue
-- ==== Proof.KernelValue.lean ====
/-
  The kernel's result array is the reference's last stage. Every entry (b, R, e) of the output is written once, by the
  point of batch b and query block R / 128 that meets the last key block; there the body divides the running numerator
  by the running denominator, which for real inputs is the softmax-weighted sum of the values — the number the
  reference computes by normalising the exponentials first.
-/
import proofs.«161785_j28733331210438_2_alg».proof.Proof.KernelInvariant
import proofs.«161785_j28733331210438_2_alg».proof.Proof.KernelOutput
import proofs.«161785_j28733331210438_2_alg».proof.Proof.KernelBlocks
import proofs.«161785_j28733331210438_2_alg».proof.Proof.RefValue

set_option maxRecDepth 16384

noncomputable section

namespace Cert.KernelIdeal.Final

open Cert.KernelIdeal Cert.KernelIdeal.Gen Cert.KernelIdeal.Invariant
open Idealize.ShloMosaic Idealize.ShloMosaic.TcCoe Idealize.ShloMosaic.ValueIdx

variable (m : (ℓ : Loc nD τ sig) → Buf (Elt Ideal) ℓ) (c : Dev nD) (q k v : S8x512x64.Idx → ℝ)

theorem fin_batch (n : ℕ) (h : n / 16 < 8) : (⟨n / 16, h⟩ : Fin 8) = batchOf n :=
  Fin.ext (Nat.mod_eq_of_lt h).symm

theorem fin_row (n : ℕ) (r : Fin 128) (h : (n / 4 % 4) * 128 + r.val < 512) :
    (⟨(n / 4 % 4) * 128 + r.val, h⟩ : Fin 512) = rowOf n r :=
  Fin.ext (Nat.mod_eq_of_lt h).symm

theorem fin_key (n : ℕ) (cc : Fin 128) (h : (n % 4) * 128 + cc.val < 512) :
    (⟨(n % 4) * 128 + cc.val, h⟩ : Fin 512) = Attn.key (n % 4) cc :=
  Fin.ext (by show (n % 4) * 128 + cc.val = (n % 4 % 4) * 128 + cc.val; rw [Nat.mod_mod])

/-- With real-valued arguments, the output array after the run is the reference's last stage of the same arguments. -/
theorem arr_eq_ref
    (hq : m ((c : Thread nD τ).loc main_arg0) = fun i => ((q i : ℝ) : EReal))
    (hk : m ((c : Thread nD τ).loc main_arg1) = fun i => ((k i : ℝ) : EReal))
    (hv : m ((c : Thread nD τ).loc main_arg2) = fun i => ((v i : ℝ) : EReal)) :
    (dats m 0 c).arrAt 3 cfg0.N
      = Cert.ReferenceIdeal.Read.val_main_v20 (F := Ideal) (fun i => ((q i : ℝ) : EReal)) (fun i => ((k i : ℝ) : EReal))
          (fun i => ((v i : ℝ) : EReal)) := by
  have hb0 : ∀ (t : Fin cfg0.N) (r : Fin 128) (d : Fin 64),
      (iblk m c 0 t : Vec Ideal S1x128x64 .f32) (ix3 0 r d) = ((q (ix3 (batchOf t.val) (rowOf t.val r) d) : ℝ) : EReal) :=
    fun t r d => by rw [Blocks.blk0 m c t r d, hq, fin_batch, fin_row]
  have hb1 : ∀ (t : Fin cfg0.N) (d : Fin 64) (cc : Fin 128),
      (iblk m c 1 t : Vec Ideal S1x64x128 .f32) (ix3 0 d cc)
        = ((k (ix3 (batchOf t.val) (Attn.key (t.val % 4) cc) d) : ℝ) : EReal) :=
    fun t d cc => by rw [Blocks.blk1 m c t d cc, hk, fin_batch, fin_key]
  have hb2 : ∀ (t : Fin cfg0.N) (cc : Fin 128) (e : Fin 64),
      (iblk m c 2 t : Vec Ideal S1x128x64 .f32) (ix3 0 cc e)
        = ((v (ix3 (batchOf t.val) (Attn.key (t.val % 4) cc) e) : ℝ) : EReal) :=
    fun t cc e => by rw [Blocks.blk2 m c t cc e, hv, fin_batch, fin_key]
  refine Output.arr_eq m c _ (fun t h3 r e => ?_)
  rw [fin_batch, fin_row, out_last m c q k v hb0 hb1 hb2 t.val t.isLt h3 r e]
  obtain ⟨M, hM⟩ := Cert.RefValue.ref_value q k v (batchOf t.val) (rowOf t.val r) e
  rw [hM]
  exact Attn.kernel_out (fun cc => Attn.score (fun d => q (ix3 (batchOf t.val) (rowOf t.val r) d)) (fun d => k (ix3 (batchOf t.val) cc d)))
    (fun cc => v (ix3 (batchOf t.val) cc e)) M

end Cert.KernelIdeal.Final
end
-- ==== Proof.FiniteInputs.lean ====
/-
  Finite inputs are real.

  The precondition says of each of the three input arrays that the absolute value of every element is strictly
  below plus infinity. An extended real with that property is neither of the two infinities, so it is a real
  number; choosing those reals at every index gives real arrays whose embeddings are the inputs.
-/
import proofs.«161785_j28733331210438_2_alg».proof.Defs
import Idealize.ShloMosaic.Lib.ReduceAll
import Idealize.ShloMosaic.Lib.ValueIdx

namespace Cert.FiniteInputs

open Idealize.ShloMosaic

/-- The scalar shape has exactly one index. -/
instance : Subsingleton Cert.Pre_finite_inputs.S_.Idx := ⟨fun a b => funext fun d => d.elim0⟩

/-- The f32 pattern 0x7F800000 denotes plus infinity. -/
theorem ofBits_posInf : Ideal.ofBits .f32 0x7F800000#32 = ⊤ := by simp [Ideal.ofBits, Ideal.ieee]

/-- An extended real whose absolute value max x (-x) is strictly below plus infinity is a real number. -/
theorem real_of_abs_lt (x : EReal)
    (h : Ideal.cmp .olt (max x (-x)) (Ideal.ofBits .f32 0x7F800000#32) = 1#1) : ∃ r : ℝ, x = ((r : ℝ) : EReal) := by
  rw [ofBits_posInf] at h
  induction x using EReal.rec with
  | bot => simp [Ideal.cmp] at h
  | coe r => exact ⟨r, rfl⟩
  | top => simp [Ideal.cmp] at h

/-- An array all of whose elements pass the test "absolute value below plus infinity" is an array of reals. -/
theorem reals_of_all [Cert.Pre_finite_inputs.Facts] (x : FVec Ideal Cert.Pre_finite_inputs.S8x512x64 .f32)
    (h : Host.reduce IntOp.andi
        (cmpf .olt (Host.absf x)
          (broadcastInDim Cert.Pre_finite_inputs.S8x512x64 ![] Cert.Pre_finite_inputs.Facts.bcast_S_S8x512x64
            (constant Cert.Pre_finite_inputs.S_ .f32 0x7F800000#32)))
        (constantI Cert.Pre_finite_inputs.S_ 1 1#1) Cert.Pre_finite_inputs.Facts.reducesTo_S8x512x64_S_d0_1_2
        Cert.Pre_finite_inputs.Facts.h_S_ ValueIdx.ix0 = 1#1) :
    ∃ r : Cert.Pre_finite_inputs.S8x512x64.Idx → ℝ, x = fun i => ((r i : ℝ) : EReal) := by
  have hx : ∀ i, ∃ r : ℝ, x i = ((r : ℝ) : EReal) := fun i =>
    real_of_abs_lt (x i) (Host.reduce_andi_all _ _ _ _ _ h i)
  choose r hr using hx
  exact ⟨r, funext hr⟩

/-- From the precondition to real witnesses of the three inputs. -/
theorem reals_of_pre [Cert.Pre_finite_inputs.Facts] (x0 x1 x2 : Cert.Pre_finite_inputs.S8x512x64.Idx → EReal)
    (h : Cert.Pre_finite_inputs.fn (F := Ideal) x0 x1 x2 = (fun _ => 1#1)) :
    ∃ q k v : Cert.Pre_finite_inputs.S8x512x64.Idx → ℝ,
      x0 = (fun i => ((q i : ℝ) : EReal)) ∧ x1 = (fun i => ((k i : ℝ) : EReal)) ∧ x2 = (fun i => ((v i : ℝ) : EReal)) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  obtain ⟨q, hq⟩ := reals_of_all x0 h0'
  obtain ⟨k, hk⟩ := reals_of_all x1 h1
  obtain ⟨v, hv⟩ := reals_of_all x2 h2
  exact ⟨q, k, v, hq, hk, hv⟩

end Cert.FiniteInputs
-- ==== Proof.lean ====
/-
  Additive attention: a running softmax over four blocks of keys against the plain softmax.

  Both programs compute, for every batch b, query row R and value column e, the softmax-weighted sum of the values,
  with scores  s(c) = sum over the 64 features d of tanh (q[b,R,d] + k[b,c,d]).  The reference forms every score, takes
  the row maximum M, normalises  exp (s(c) - M)  by the row sum and contracts with the values. The kernel visits the keys
  in four blocks of 128 and carries, per query row, a maximum, a denominator and a numerator: at each block it raises
  the maximum, rescales the two sums by exp (old maximum - new maximum), adds the block's exponentials (times the values),
  and after the last block divides numerator by denominator. Over the reals the two agree: the rescalings telescope, so
  the carried sums are the full sums shifted by the last maximum, the shift cancels between numerator and denominator,
  and dividing the sum of the products by the row sum is summing the normalised weights times the values. That last step
  and the cancellation are laws of the real numbers, not of the extended reals, which is where the finiteness of the
  inputs is used: finite q and k give finite scores, so every maximum, exponential and sum above is a real number.
  The format changes before the kernel's matrix product are the identity on extended reals, and its transposition of k
  on the host only renames indices.
-/
import proofs.«161785_j28733331210438_2_alg».proof.Defs
import proofs.«161785_j28733331210438_2_alg».proof.Proof.Gen.Kernel
import proofs.«161785_j28733331210438_2_alg».proof.Proof.Gen.Kernel.Skeleton
import proofs.«161785_j28733331210438_2_alg».proof.Proof.Gen.Kernel.Launch
import proofs.«161785_j28733331210438_2_alg».proof.Proof.Gen.Kernel.Points
import proofs.«161785_j28733331210438_2_alg».proof.Proof.Gen.Kernel.Frame
import proofs.«161785_j28733331210438_2_alg».proof.Proof.Gen.KernelIdeal
import proofs.«161785_j28733331210438_2_alg».proof.Proof.Gen.KernelIdeal.Skeleton
import proofs.«161785_j28733331210438_2_alg».proof.Proof.Gen.KernelIdeal.Launch
import proofs.«161785_j28733331210438_2_alg».proof.Proof.Gen.KernelIdeal.Points
import proofs.«161785_j28733331210438_2_alg».proof.Proof.Gen.KernelIdeal.Frame
import proofs.«161785_j28733331210438_2_alg».proof.Proof.Gen.ReferenceIdeal
import proofs.«161785_j28733331210438_2_alg».proof.Proof.Gen.Pre_finite_inputs
import proofs.«161785_j28733331210438_2_alg».proof.Proof.Gen.KernelIdeal.Value
import proofs.«161785_j28733331210438_2_alg».proof.Proof.Gen.ReferenceIdeal.Run
import proofs.«161785_j28733331210438_2_alg».proof.Proof.Gen.ReferenceIdeal.Read
import proofs.«161785_j28733331210438_2_alg».proof.Proof.KernelValue
import proofs.«161785_j28733331210438_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on finite arguments both programs end with the same array: the kernel's output array after
    its run is the reference's last stage of the same real-valued arguments. -/
theorem algebraic : Cert.algebraic_KernelIdeal_ReferenceIdeal := by
  intro m ρ m' ρ' hpre hagree
  refine ⟨fun c => (Cert.KernelIdeal.Gen.dats m 0 c).arrAt 3 Cert.KernelIdeal.cfg0.N,
    Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨q, k, v, hq, hk, hv⟩ := Cert.FiniteInputs.reals_of_pre _ _ _ (hpre c)
  rw [(hagree c).1, (hagree c).2.1, (hagree c).2.2]
  refine Eq.trans ?_ (Cert.KernelIdeal.Final.arr_eq_ref m c q k v hq hk hv).symm
  rw [← hq, ← hk, ← hv]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
